-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x128 : Shape := ⟨3, ![2, 10000, 128]⟩
abbrev S2x160000x2 : Shape := ⟨3, ![2, 160000, 2]⟩
abbrev S2x160000x64 : Shape := ⟨3, ![2, 160000, 64]⟩
abbrev S320x256 : Shape := ⟨2, ![320, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩

class Facts : Prop where
  bcast_S_S2x10000x128 : S_.BroadcastsInDim S2x10000x128 (![] : Fin 0 → Fin S2x10000x128.rank)
  reducesTo_S2x10000x128_S_d0_1_2 : S2x10000x128.ReducesTo [0, 1, 2] S_
  h_S_ : 0 < S_.numel
  bcast_S_S2x160000x64 : S_.BroadcastsInDim S2x160000x64 (![] : Fin 0 → Fin S2x160000x64.rank)
  reducesTo_S2x160000x64_S_d0_1_2 : S2x160000x64.ReducesTo [0, 1, 2] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S384x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S384x256 .f32 := Host.absf main_arg7
  let main_cst_10 : FVec F S_ .f32 := constant S_ .f32 0x7F800000#32
  let main_v30 : FVec F S384x256 .f32 := broadcastInDim S384x256 ![] bcast_S_S384x256 main_cst_10
  let main_v31 : IVec S384x256 1 := cmpf .olt main_v29 main_v30
  let main_c_11 : IVec S_ 1 := constantI S_ 1 1#1
  let main_v32 : IVec S_ 1 := (fun x v => Host.reduce IntOp.andi x v reducesTo_S384x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S2x10000x128 .f32) (main_arg1 : IVec S2x160000x2 32) (main_arg2 : FVec F S2x160000x64 .f32) (main_arg3 : FVec F S320x256 .f32) (main_arg4 : FVec F S256 .f32) (main_arg5 : FVec F S256x256 .f32) (main_arg6 : FVec F S256 .f32) (main_arg7 : FVec F S384x256 .f32) (main_arg8 : FVec F S256 .f32) (main_arg9 : FVec F S256x128 .f32) (main_arg10 : FVec F S128 .f32) : IVec S_ 1 :=
  let main_v0 : FVec F S2x10000x128 .f32 := Host.absf main_arg0
  let main_cst : FVec F S_ .f32 := constant S_ .f32 0x7F800000#32
  let main_v1 : FVec F S2x10000x128 .f32 := broadcastInDim S2x10000x128 ![] bcast_S_S2x10000x128 main_cst
  let main_v2 : IVec S2x10000x128 1 := cmpf .olt main_v0 main_v1
  let main_c : IVec S_ 1 := constantI S_ 1 1#1
  let main_v3 : IVec S_ 1 := (fun x v => Host.reduce IntOp.andi x v reducesTo_S2x10000x128_S_d0_1_2 h_S_) main_v2 main_c
  let main_v4 : FVec F S2x160000x64 .f32 := Host.absf main_arg2
  let main_cst_0 : FVec F S_ .f32 := constant S_ .f32 0x7F800000#32
  let main_v5 : FVec F S2x160000x64 .f32 := broadcastInDim S2x160000x64 ![] bcast_S_S2x160000x64 main_cst_0
  let main_v6 : IVec S2x160000x64 1 := cmpf .olt main_v4 main_v5
  let main_c_1 : IVec S_ 1 := constantI S_ 1 1#1
  let main_v7 : IVec S_ 1 := (fun x v => Host.reduce IntOp.andi x v reducesTo_S2x160000x64_S_d0_1_2 h_S_) main_v6 main_c_1
  let main_v8 : IVec S_ 1 := andi main_v3 main_v7
  let main_v9 : FVec F S320x256 .f32 := Host.absf main_arg3
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S2x10000x128 : Shape := ⟨3, ![2, 10000, 128]⟩
abbrev S2x160000x2 : Shape := ⟨3, ![2, 160000, 2]⟩
abbrev S2x160000x64 : Shape := ⟨3, ![2, 160000, 64]⟩
abbrev S320x256 : Shape := ⟨2, ![320, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S2x160000x1 : Shape := ⟨3, ![2, 160000, 1]⟩
abbrev S2x160000 : Shape := ⟨2, ![2, 160000]⟩
abbrev S_ : Shape := ⟨0, ![]⟩
abbrev S1 : Shape := ⟨1, ![1]⟩
abbrev S1x1x1 : Shape := ⟨3, ![1, 1, 1]⟩
abbrev S2x160000x128 : Shape := ⟨3, ![2, 160000, 128]⟩
abbrev S320000x128 : Shape := ⟨2, ![320000, 128]⟩
abbrev S320000x64 : Shape := ⟨2, ![320000, 64]⟩
abbrev S128x256 : Shape := ⟨2, ![128, 256]⟩
abbrev S64x256 : Shape := ⟨2, ![64, 256]⟩
abbrev S1x256 : Shape := ⟨2, ![1, 256]⟩
abbrev S320000x256 : Shape := ⟨2, ![320000, 256]⟩
abbrev S4000x128 : Shape := ⟨2, ![4000, 128]⟩
abbrev S4000x64 : Shape := ⟨2, ![4000, 64]⟩
abbrev S4000x256 : Shape := ⟨2, ![4000, 256]⟩
abbrev S2 : Shape := ⟨1, ![2]⟩
abbrev S2x1 : Shape := ⟨2, ![2, 1]⟩
abbrev S320000 : Shape := ⟨1, ![320000]⟩
abbrev S20000x256 : Shape := ⟨2, ![20000, 256]⟩
abbrev S320000x1 : Shape := ⟨2, ![320000, 1]⟩
abbrev S20000x128 : Shape := ⟨2, ![20000, 128]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 89
  | .vmem => 25
  | .smem => 0
  | _ => 0

abbrev bufTy : (tb : Table) → Fin (tcTables nBuf tb) → BufTy
  | .hbm, ⟨0, _⟩ => ⟨S2x10000x128, .f32⟩
  | .hbm, ⟨1, _⟩ => ⟨S2x160000x2, .i32⟩
  | .hbm, ⟨2, _⟩ => ⟨S2x160000x64, .f32⟩
  | .hbm, ⟨3, _⟩ => ⟨S320x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S384x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S2x160000x1, .i32⟩
  | .hbm, ⟨12, _⟩ => ⟨S2x160000, .i32⟩
  | .hbm, ⟨13, _⟩ => ⟨S2x160000x1, .i32⟩
  | .hbm, ⟨14, _⟩ => ⟨S2x160000, .i32⟩
  | .hbm, ⟨15, _⟩ => ⟨S2x160000x1, .i32⟩
  | .hbm, ⟨16, _⟩ => ⟨S_, .i32⟩
  | .hbm, ⟨17, _⟩ => ⟨S2x160000x1, .i32⟩
  | .hbm, ⟨18, _⟩ => ⟨S2x160000x1, .i1⟩
  | .hbm, ⟨19, _⟩ => ⟨S_, .i32⟩
  | .hbm, ⟨20, _⟩ => ⟨S2x160000x1, .i32⟩
  | .hbm, ⟨21, _⟩ => ⟨S2x160000x1, .i32⟩
  | .hbm, ⟨22, _⟩ => ⟨S2x160000x1, .i32⟩
  | .hbm, ⟨23, _⟩ => ⟨S1, .i32⟩
  | .hbm, ⟨24, _⟩ => ⟨S_, .i32⟩
  | .hbm, ⟨25, _⟩ => ⟨S2x160000x1, .i32⟩
  | .hbm, ⟨26, _⟩ => ⟨S2x160000x1, .i1⟩
  | .hbm, ⟨27, _⟩ => ⟨S1x1x1, .i32⟩
  | .hbm, ⟨28, _⟩ => ⟨S2x160000x1, .i32⟩
  | .hbm, ⟨29, _⟩ => ⟨S2x160000x1, .i1⟩
  | .hbm, ⟨30, _⟩ => ⟨S2x160000x1, .i1⟩
  | .hbm, ⟨31, _⟩ => ⟨S_, .i1⟩
  | .hbm, ⟨32, _⟩ => ⟨S2x160000, .i1⟩
  | .hbm, ⟨33, _⟩ => ⟨S2x160000x128, .f32⟩
  | .hbm, ⟨34, _⟩ => ⟨S2x160000x128, .i1⟩
  | .hbm, ⟨35, _⟩ => ⟨S_, .f32⟩
  | .hbm, ⟨36, _⟩ => ⟨S2x160000x128, .f32⟩
  | .hbm, ⟨37, _⟩ => ⟨S2x160000x128, .f32⟩
  | .hbm, ⟨38, _⟩ => ⟨S2x160000x1, .i32⟩
  | .hbm, ⟨39, _⟩ => ⟨S_, .i32⟩
  | .hbm, ⟨40, _⟩ => ⟨S2x160000x1, .i32⟩
  | .hbm, ⟨41, _⟩ => ⟨S2x160000x1, .i1⟩
  | .hbm, ⟨42, _⟩ => ⟨S_, .i32⟩
  | .hbm, ⟨43, _⟩ => ⟨S2x160000x1, .i32⟩
  | .hbm, ⟨44, _⟩ => ⟨S2x160000x1, .i32⟩
  | .hbm, ⟨45, _⟩ => ⟨S2x160000x1, .i32⟩
  | .hbm, ⟨46, _⟩ => ⟨S1, .i32⟩
  | .hbm, ⟨47, _⟩ => ⟨S_, .i32⟩
  | .hbm, ⟨48, _⟩ => ⟨S2x160000x1, .i32⟩
  | .hbm, ⟨49, _⟩ => ⟨S2x160000x1, .i1⟩
  | .hbm, ⟨50, _⟩ => ⟨S1x1x1, .i32⟩
  | .hbm, ⟨51, _⟩ => ⟨S2x160000x1, .i32⟩
  | .hbm, ⟨52, _⟩ => ⟨S2x160000x1, .i1⟩
  | .hbm, ⟨53, _⟩ => ⟨S2x160000x1, .i1⟩
  | .hbm, ⟨54, _⟩ => ⟨S_, .i1⟩
  | .hbm, ⟨55, _⟩ => ⟨S2x160000, .i1⟩
  | .hbm, ⟨56, _⟩ => ⟨S2x160000x128, .f32⟩
  | .hbm, ⟨57, _⟩ => ⟨S2x160000x128, .i1⟩
  | .hbm, ⟨58, _⟩ => ⟨S_, .f32⟩
  | .hbm, ⟨59, _⟩ => ⟨S2x160000x128, .f32⟩
  | .hbm, ⟨60, _⟩ => ⟨S2x160000x128, .f32⟩
  | .hbm, ⟨61, _⟩ => ⟨S320000x128, .f32⟩
  | .hbm, ⟨62, _⟩ => ⟨S320000x128, .f32⟩
  | .hbm, ⟨63, _⟩ => ⟨S320000x64, .f32⟩
  | .hbm, ⟨64, _⟩ => ⟨S128x256, .f32⟩
  | .hbm, ⟨65, _⟩ => ⟨S128x256, .f32⟩
  | .hbm, ⟨66, _⟩ => ⟨S64x256, .f32⟩
  | .hbm, ⟨67, _⟩ => ⟨S1x256, .f32⟩
  | .hbm, ⟨68, _⟩ => ⟨S1x256, .f32⟩
  | .hbm, ⟨69, _⟩ => ⟨S320000x256, .f32⟩
  | .hbm, ⟨70, _⟩ => ⟨S2, .i32⟩
  | .hbm, ⟨71, _⟩ => ⟨S2x1, .i32⟩
  | .hbm, ⟨72, _⟩ => ⟨S_, .i32⟩
  | .hbm, ⟨73, _⟩ => ⟨S2x1, .i32⟩
  | .hbm, ⟨74, _⟩ => ⟨S2x1, .i32⟩
  | .hbm, ⟨75, _⟩ => ⟨S2x160000, .i32⟩
  | .hbm, ⟨76, _⟩ => ⟨S2x160000, .i32⟩
  | .hbm, ⟨77, _⟩ => ⟨S320000, .i32⟩
  | .hbm, ⟨78, _⟩ => ⟨S_, .f32⟩
  | .hbm, ⟨79, _⟩ => ⟨S20000x256, .f32⟩
  | .hbm, ⟨80, _⟩ => ⟨S320000x1, .i32⟩
  | .hbm, ⟨81, _⟩ => ⟨S20000x256, .f32⟩
  | .hbm, ⟨82, _⟩ => ⟨S20000x128, .f32⟩
  | .hbm, ⟨83, _⟩ => ⟨S128x256, .f32⟩
  | .hbm, ⟨84, _⟩ => ⟨S256x256, .f32⟩
  | .hbm, ⟨85, _⟩ => ⟨S1x256, .f32⟩
  | .hbm, ⟨86, _⟩ => ⟨S1x128, .f32⟩
  | .hbm, ⟨87, _⟩ => ⟨S20000x128, .f32⟩
  | .hbm, ⟨88, _⟩ => ⟨S2x10000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S128x256, .f32⟩
  | .local _ .vmem, ⟨7, _⟩ => ⟨S128x256, .f32⟩
  | .local _ .vmem, ⟨8, _⟩ => ⟨S64x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S4000x256, .f32⟩
  | .local _ .vmem, ⟨13, _⟩ => ⟨S4000x256, .f32⟩
  | .local _ .vmem, ⟨14, _⟩ => ⟨S2000x128, .f32⟩
  | .local _ .vmem, ⟨15, _⟩ => ⟨S2000x128, .f32⟩
  | .local _ .vmem, ⟨16, _⟩ => ⟨S2000x256, .f32⟩
  | .local _ .vmem, ⟨17, _⟩ => ⟨S2000x256, .f32⟩
  | .local _ .vmem, ⟨18, _⟩ => ⟨S128x256, .f32⟩
  | .local _ .vmem, ⟨19, _⟩ => ⟨S256x256, .f32⟩
  | .local _ .vmem, ⟨20, _⟩ => ⟨S1x256, .f32⟩
  | .local _ .vmem, ⟨21, _⟩ => ⟨S256x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S2x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_c_2 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_3 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v5 : Ref sig .tc := ⟨.hbm, 37, rfl⟩
abbrev main_v6 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_c : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x160000x2_S2x160000x1_0_0_0 : S2x160000x2.Slices ![0, 0, 0] S2x160000x1
  shapeCasts_S2x160000x1_S2x160000 : S2x160000x1.ShapeCasts S2x160000
  slices_S2x160000x2_S2x160000x1_0_0_1 : S2x160000x2.Slices ![0, 0, 1] S2x160000x1
  bcast_S2x160000_S2x160000x1_0_1 : S2x160000.BroadcastsInDim S2x160000x1 (![0, 1] : Fin 2 → Fin S2x160000x1.rank)
  bcast_S_S2x160000x1 : S_.BroadcastsInDim S2x160000x1 (![] : Fin 0 → Fin S2x160000x1.rank)
  bcast_S1_S1x1x1_2 : S1.BroadcastsInDim S1x1x1 (![2] : Fin 1 → Fin S1x1x1.rank)
  bcast_S1x1x1_S2x160000x1_0_1_2 : S1x1x1.BroadcastsInDim S2x160000x1 (![0, 1, 2] : Fin 3 → Fin S2x160000x1.rank)
  reducesTo_S2x160000x1_S2x160000_d2 : S2x160000x1.ReducesTo [2] S2x160000
  h_S_ : 0 < S_.numel
  bcast_S2x160000_S2x160000x128_0_1 : S2x160000.BroadcastsInDim S2x160000x128 (![0, 1] : Fin 2 → Fin S2x160000x128.rank)
  bcast_S_S2x160000x128 : S_.BroadcastsInDim S2x160000x128 (![] : Fin 0 → Fin S2x160000x128.rank)
  shapeCasts_S2x160000x128_S320000x128 : S2x160000x128.ShapeCasts S320000x128
  shapeCasts_S2x160000x64_S320000x64 : S2x160000x64.ShapeCasts S320000x64
  slices_S320x256_S128x256_0_0 : S320x256.Slices ![0, 0] S128x256
  slices_S320x256_S128x256_128_0 : S320x256.Slices ![128, 0] S128x256
  slices_S320x256_S64x256_256_0 : S320x256.Slices ![256, 0] S64x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  bcast_S2_S2x1_0 : S2.BroadcastsInDim S2x1 (![0] : Fin 1 → Fin S2x1.rank)
  bcast_S_S2x1 : S_.BroadcastsInDim S2x1 (![] : Fin 0 → Fin S2x1.rank)
  bcast_S2x1_S2x160000_0_1 : S2x1.BroadcastsInDim S2x160000 (![0, 1] : Fin 2 → Fin S2x160000.rank)
  shapeCasts_S2x160000_S320000 : S2x160000.ShapeCasts S320000
  bcast_S_S20000x256 : S_.BroadcastsInDim S20000x256 (![] : Fin 0 → Fin S20000x256.rank)
  bcast_S320000_S320000x1_0 : S320000.BroadcastsInDim S320000x1 (![0] : Fin 1 → Fin S320000x1.rank)
  shapeCasts_S2x10000x128_S20000x128 : S2x10000x128.ShapeCasts S20000x128
  slices_S384x256_S128x256_0_0 : S384x256.Slices ![0, 0] S128x256
  slices_S384x256_S256x256_128_0 : S384x256.Slices ![128, 0] S256x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S256x256_S256x256 : S256x256.ShapeCasts S256x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S20000x128_S2x10000x128 : S20000x128.ShapeCasts S2x10000x128
  gather_S2x10000x128_S2x160000x1_S2x160000x128_2_1_0_0_1_2_11128_wf : GatherDims.WF S2x10000x128 S2x160000x1 S2x160000x128 [2] [1] [0] [1] [0] 2 ![1, 1, 128]
  dot_S4000x128_S128x256_S4000x256_1_0_0_1_n_n_wf : DotDims.WF S4000x128 S128x256 S4000x256 [1] [0] [0] [1] [] []
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  scatter_S20000x256_S320000x1_S320000x256_1_0_0_1_wf : ScatterDims.WF S20000x256 S320000x1 S320000x256 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S320000x64.size a
  hwx0_2 : ∀ i : grid0.Coords, EltTy.bits .f32 = 32 ∨ (Rect.block (s := S320000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S320000x256.size a
  hwx0_9 : ∀ i : grid0.Coords, EltTy.bits .f32 = 32 ∨ (Rect.block (s := S320000x256) S4000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S20000x128.size a
  hwx1_7 : ∀ i : grid1.Coords, EltTy.bits .f32 = 32 ∨ (Rect.block (s := S20000x128) S2000x128.size (cc1_transform_7 i) (hinb1_7 i)).WholeWords (EltTy.packing .f32)

variable [Facts₀]

def gather_S2x10000x128_S2x160000x1_S2x160000x128_2_1_0_0_1_2_11128 : GatherDims S2x10000x128 S2x160000x1 S2x160000x128 where
  offsetDims := [2]
  collapsedSliceDims := [1]
  operandBatchingDims := [0]
  startIndicesBatchingDims := [0]
  startIndexMap := [1]
  indexVectorDim := 2
  sliceSizes := ![1, 1, 128]
  wf := gather_S2x10000x128_S2x160000x1_S2x160000x128_2_1_0_0_1_2_11128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v8) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x10000x128 : Shape := ⟨3, ![2, 10000, 128]⟩
abbrev S2x160000x2 : Shape := ⟨3, ![2, 160000, 2]⟩
abbrev S2x160000x64 : Shape := ⟨3, ![2, 160000, 64]⟩
abbrev S320x256 : Shape := ⟨2, ![320, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S2x160000x1 : Shape := ⟨3, ![2, 160000, 1]⟩
abbrev S2x160000 : Shape := ⟨2, ![2, 160000]⟩
abbrev S_ : Shape := ⟨0, ![]⟩
abbrev S1 : Shape := ⟨1, ![1]⟩
abbrev S1x1x1 : Shape := ⟨3, ![1, 1, 1]⟩
abbrev S2x160000x128 : Shape := ⟨3, ![2, 160000, 128]⟩
abbrev S2x160000x320 : Shape := ⟨3, ![2, 160000, 320]⟩
abbrev S2x160000x256 : Shape := ⟨3, ![2, 160000, 256]⟩
abbrev S1x1x256 : Shape := ⟨3, ![1, 1, 256]⟩
abbrev S2 : Shape := ⟨1, ![2]⟩
abbrev S2x1 : Shape := ⟨2, ![2, 1]⟩
abbrev S320000 : Shape := ⟨1, ![320000]⟩
abbrev S320000x256 : Shape := ⟨2, ![320000, 256]⟩
abbrev S20000x256 : Shape := ⟨2, ![20000, 256]⟩
abbrev S320000x1 : Shape := ⟨2, ![320000, 1]⟩
abbrev S2x10000x256 : Shape := ⟨3, ![2, 10000, 256]⟩
abbrev S2x10000x384 : Shape := ⟨3, ![2, 10000, 384]⟩
abbrev S1x1x128 : Shape := ⟨3, ![1, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S2x10000x128, .f32⟩
  | .hbm, ⟨1, _⟩ => ⟨S2x160000x2, .i32⟩
  | .hbm, ⟨2, _⟩ => ⟨S2x160000x64, .f32⟩
  | .hbm, ⟨3, _⟩ => ⟨S320x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S384x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S2x160000x1, .i32⟩
  | .hbm, ⟨12, _⟩ => ⟨S2x160000, .i32⟩
  | .hbm, ⟨13, _⟩ => ⟨S2x160000x1, .i32⟩
  | .hbm, ⟨14, _⟩ => ⟨S2x160000, .i32⟩
  | .hbm, ⟨15, _⟩ => ⟨S2x160000x1, .i32⟩
  | .hbm, ⟨16, _⟩ => ⟨S_, .i32⟩
  | .hbm, ⟨17, _⟩ => ⟨S2x160000x1, .i32⟩
  | .hbm, ⟨18, _⟩ => ⟨S2x160000x1, .i1⟩
  | .hbm, ⟨19, _⟩ => ⟨S_, .i32⟩
  | .hbm, ⟨20, _⟩ => ⟨S2x160000x1, .i32⟩
  | .hbm, ⟨21, _⟩ => ⟨S2x160000x1, .i32⟩
  | .hbm, ⟨22, _⟩ => ⟨S2x160000x1, .i32⟩
  | .hbm, ⟨23, _⟩ => ⟨S1, .i32⟩
  | .hbm, ⟨24, _⟩ => ⟨S_, .i32⟩
  | .hbm, ⟨25, _⟩ => ⟨S2x160000x1, .i32⟩
  | .hbm, ⟨26, _⟩ => ⟨S2x160000x1, .i1⟩
  | .hbm, ⟨27, _⟩ => ⟨S1x1x1, .i32⟩
  | .hbm, ⟨28, _⟩ => ⟨S2x160000x1, .i32⟩
  | .hbm, ⟨29, _⟩ => ⟨S2x160000x1, .i1⟩
  | .hbm, ⟨30, _⟩ => ⟨S2x160000x1, .i1⟩
  | .hbm, ⟨31, _⟩ => ⟨S_, .i1⟩
  | .hbm, ⟨32, _⟩ => ⟨S2x160000, .i1⟩
  | .hbm, ⟨33, _⟩ => ⟨S2x160000x128, .f32⟩
  | .hbm, ⟨34, _⟩ => ⟨S2x160000x128, .i1⟩
  | .hbm, ⟨35, _⟩ => ⟨S_, .f32⟩
  | .hbm, ⟨36, _⟩ => ⟨S2x160000x128, .f32⟩
  | .hbm, ⟨37, _⟩ => ⟨S2x160000x128, .f32⟩
  | .hbm, ⟨38, _⟩ => ⟨S2x160000x1, .i32⟩
  | .hbm, ⟨39, _⟩ => ⟨S_, .i32⟩
  | .hbm, ⟨40, _⟩ => ⟨S2x160000x1, .i32⟩
  | .hbm, ⟨41, _⟩ => ⟨S2x160000x1, .i1⟩
  | .hbm, ⟨42, _⟩ => ⟨S_, .i32⟩
  | .hbm, ⟨43, _⟩ => ⟨S2x160000x1, .i32⟩
  | .hbm, ⟨44, _⟩ => ⟨S2x160000x1, .i32⟩
  | .hbm, ⟨45, _⟩ => ⟨S2x160000x1, .i32⟩
  | .hbm, ⟨46, _⟩ => ⟨S1, .i32⟩
  | .hbm, ⟨47, _⟩ => ⟨S_, .i32⟩
  | .hbm, ⟨48, _⟩ => ⟨S2x160000x1, .i32⟩
  | .hbm, ⟨49, _⟩ => ⟨S2x160000x1, .i1⟩
  | .hbm, ⟨50, _⟩ => ⟨S1x1x1, .i32⟩
  | .hbm, ⟨51, _⟩ => ⟨S2x160000x1, .i32⟩
  | .hbm, ⟨52, _⟩ => ⟨S2x160000x1, .i1⟩
  | .hbm, ⟨53, _⟩ => ⟨S2x160000x1, .i1⟩
  | .hbm, ⟨54, _⟩ => ⟨S_, .i1⟩
  | .hbm, ⟨55, _⟩ => ⟨S2x160000, .i1⟩
  | .hbm, ⟨56, _⟩ => ⟨S2x160000x128, .f32⟩
  | .hbm, ⟨57, _⟩ => ⟨S2x160000x128, .i1⟩
  | .hbm, ⟨58, _⟩ => ⟨S_, .f32⟩
  | .hbm, ⟨59, _⟩ => ⟨S2x160000x128, .f32⟩
  | .hbm, ⟨60, _⟩ => ⟨S2x160000x128, .f32⟩
  | .hbm, ⟨61, _⟩ => ⟨S2x160000x320, .f32⟩
  | .hbm, ⟨62, _⟩ => ⟨S2x160000x256, .f32⟩
  | .hbm, ⟨63, _⟩ => ⟨S1x1x256, .f32⟩
  | .hbm, ⟨64, _⟩ => ⟨S2x160000x256, .f32⟩
  | .hbm, ⟨65, _⟩ => ⟨S2x160000x256, .f32⟩
  | .hbm, ⟨66, _⟩ => ⟨S2x160000x256, .f32⟩
  | .hbm, ⟨67, _⟩ => ⟨S2x160000x256, .f32⟩
  | .hbm, ⟨68, _⟩ => ⟨S_, .f32⟩
  | .hbm, ⟨69, _⟩ => ⟨S2x160000x256, .f32⟩
  | .hbm, ⟨70, _⟩ => ⟨S2x160000x256, .f32⟩
  | .hbm, ⟨71, _⟩ => ⟨S2x160000x256, .f32⟩
  | .hbm, ⟨72, _⟩ => ⟨S_, .f32⟩
  | .hbm, ⟨73, _⟩ => ⟨S2x160000x256, .f32⟩
  | .hbm, ⟨74, _⟩ => ⟨S2x160000x256, .f32⟩
  | .hbm, ⟨75, _⟩ => ⟨S2x160000x256, .f32⟩
  | .hbm, ⟨76, _⟩ => ⟨S_, .f32⟩
  | .hbm, ⟨77, _⟩ => ⟨S2x160000x256, .f32⟩
  | .hbm, ⟨78, _⟩ => ⟨S2x160000x256, .f32⟩
  | .hbm, ⟨79, _⟩ => ⟨S_, .f32⟩
  | .hbm, ⟨80, _⟩ => ⟨S2x160000x256, .f32⟩
  | .hbm, ⟨81, _⟩ => ⟨S2x160000x256, .f32⟩
  | .hbm, ⟨82, _⟩ => ⟨S2x160000x256, .f32⟩
  | .hbm, ⟨83, _⟩ => ⟨S2x160000x256, .f32⟩
  | .hbm, ⟨84, _⟩ => ⟨S1x1x256, .f32⟩
  | .hbm, ⟨85, _⟩ => ⟨S2x160000x256, .f32⟩
  | .hbm, ⟨86, _⟩ => ⟨S2x160000x256, .f32⟩
  | .hbm, ⟨87, _⟩ => ⟨S2, .i32⟩
  | .hbm, ⟨88, _⟩ => ⟨S2x1, .i32⟩
  | .hbm, ⟨89, _⟩ => ⟨S_, .i32⟩
  | .hbm, ⟨90, _⟩ => ⟨S2x1, .i32⟩
  | .hbm, ⟨91, _⟩ => ⟨S2x1, .i32⟩
  | .hbm, ⟨92, _⟩ => ⟨S2x160000, .i32⟩
  | .hbm, ⟨93, _⟩ => ⟨S2x160000, .i32⟩
  | .hbm, ⟨94, _⟩ => ⟨S320000, .i32⟩
  | .hbm, ⟨95, _⟩ => ⟨S320000x256, .f32⟩
  | .hbm, ⟨96, _⟩ => ⟨S_, .f32⟩
  | .hbm, ⟨97, _⟩ => ⟨S20000x256, .f32⟩
  | .hbm, ⟨98, _⟩ => ⟨S320000x1, .i32⟩
  | .hbm, ⟨99, _⟩ => ⟨S20000x256, .f32⟩
  | .hbm, ⟨100, _⟩ => ⟨S2x10000x256, .f32⟩
  | .hbm, ⟨101, _⟩ => ⟨S2x10000x384, .f32⟩
  | .hbm, ⟨102, _⟩ => ⟨S2x10000x256, .f32⟩
  | .hbm, ⟨103, _⟩ => ⟨S1x1x256, .f32⟩
  | .hbm, ⟨104, _⟩ => ⟨S2x10000x256, .f32⟩
  | .hbm, ⟨105, _⟩ => ⟨S2x10000x256, .f32⟩
  | .hbm, ⟨106, _⟩ => ⟨S2x10000x256, .f32⟩
  | .hbm, ⟨107, _⟩ => ⟨S2x10000x256, .f32⟩
  | .hbm, ⟨108, _⟩ => ⟨S_, .f32⟩
  | .hbm, ⟨109, _⟩ => ⟨S2x10000x256, .f32⟩
  | .hbm, ⟨110, _⟩ => ⟨S2x10000x256, .f32⟩
  | .hbm, ⟨111, _⟩ => ⟨S2x10000x256, .f32⟩
  | .hbm, ⟨112, _⟩ => ⟨S_, .f32⟩
  | .hbm, ⟨113, _⟩ => ⟨S2x10000x256, .f32⟩
  | .hbm, ⟨114, _⟩ => ⟨S2x10000x256, .f32⟩
  | .hbm, ⟨115, _⟩ => ⟨S2x10000x256, .f32⟩
  | .hbm, ⟨116, _⟩ => ⟨S_, .f32⟩
  | .hbm, ⟨117, _⟩ => ⟨S2x10000x256, .f32⟩
  | .hbm, ⟨118, _⟩ => ⟨S2x10000x256, .f32⟩
  | .hbm, ⟨119, _⟩ => ⟨S_, .f32⟩
  | .hbm, ⟨120, _⟩ => ⟨S2x10000x256, .f32⟩
  | .hbm, ⟨121, _⟩ => ⟨S2x10000x256, .f32⟩
  | .hbm, ⟨122, _⟩ => ⟨S2x10000x256, .f32⟩
  | .hbm, ⟨123, _⟩ => ⟨S2x10000x128, .f32⟩
  | .hbm, ⟨124, _⟩ => ⟨S1x1x128, .f32⟩
  | .hbm, ⟨125, _⟩ => ⟨S2x10000x128, .f32⟩
  | .hbm, ⟨126, _⟩ => ⟨S2x10000x128, .f32⟩
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_c_2 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_3 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v5 : Ref sig .tc := ⟨.hbm, 37, rfl⟩
abbrev main_v6 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_cst_0 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_1 : Ref sig .tc := ⟨.hbm, 76, rfl⟩
abbrev main_v21 : Ref sig .tc := ⟨.hbm, 77, rfl⟩
abbrev main_v22 : Ref sig .tc := ⟨.hbm, 78, rfl⟩
abbrev main_cst_2 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_c : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_3 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_4 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_5 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_6 : Ref sig .tc := ⟨.hbm, 116, rfl⟩
abbrev main_v55 : Ref sig .tc := ⟨.hbm, 117, rfl⟩
abbrev main_v56 : Ref sig .tc := ⟨.hbm, 118, rfl⟩
abbrev main_cst_7 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩

abbrev nD : Nat := 1
abbrev τ : Topo := Topo.v7x

variable {F : FTy → Type} [FloatOps F]

class Facts₀ : Prop where
  slices_S2x160000x2_S2x160000x1_0_0_0 : S2x160000x2.Slices ![0, 0, 0] S2x160000x1
  shapeCasts_S2x160000x1_S2x160000 : S2x160000x1.ShapeCasts S2x160000
  slices_S2x160000x2_S2x160000x1_0_0_1 : S2x160000x2.Slices ![0, 0, 1] S2x160000x1
  bcast_S2x160000_S2x160000x1_0_1 : S2x160000.BroadcastsInDim S2x160000x1 (![0, 1] : Fin 2 → Fin S2x160000x1.rank)
  bcast_S_S2x160000x1 : S_.BroadcastsInDim S2x160000x1 (![] : Fin 0 → Fin S2x160000x1.rank)
  bcast_S1_S1x1x1_2 : S1.BroadcastsInDim S1x1x1 (![2] : Fin 1 → Fin S1x1x1.rank)
  bcast_S1x1x1_S2x160000x1_0_1_2 : S1x1x1.BroadcastsInDim S2x160000x1 (![0, 1, 2] : Fin 3 → Fin S2x160000x1.rank)
  reducesTo_S2x160000x1_S2x160000_d2 : S2x160000x1.ReducesTo [2] S2x160000
  h_S_ : 0 < S_.numel
  bcast_S2x160000_S2x160000x128_0_1 : S2x160000.BroadcastsInDim S2x160000x128 (![0, 1] : Fin 2 → Fin S2x160000x128.rank)
  bcast_S_S2x160000x128 : S_.BroadcastsInDim S2x160000x128 (![] : Fin 0 → Fin S2x160000x128.rank)
  concatenates_S2x160000x128_S2x160000x128_S2x160000x64_S2x160000x320_d2 : Shape.Concatenates [S2x160000x128, S2x160000x128, S2x160000x64] S2x160000x320 2
  bcast_S256_S1x1x256_2 : S256.BroadcastsInDim S1x1x256 (![2] : Fin 1 → Fin S1x1x256.rank)
  bcast_S1x1x256_S2x160000x256_0_1_2 : S1x1x256.BroadcastsInDim S2x160000x256 (![0, 1, 2] : Fin 3 → Fin S2x160000x256.rank)
  bcast_S_S2x160000x256 : S_.BroadcastsInDim S2x160000x256 (![] : Fin 0 → Fin S2x160000x256.rank)
  bcast_S2_S2x1_0 : S2.BroadcastsInDim S2x1 (![0] : Fin 1 → Fin S2x1.rank)
  bcast_S_S2x1 : S_.BroadcastsInDim S2x1 (![] : Fin 0 → Fin S2x1.rank)
  bcast_S2x1_S2x160000_0_1 : S2x1.BroadcastsInDim S2x160000 (![0, 1] : Fin 2 → Fin S2x160000.rank)
  shapeCasts_S2x160000_S320000 : S2x160000.ShapeCasts S320000
  shapeCasts_S2x160000x256_S320000x256 : S2x160000x256.ShapeCasts S320000x256
  bcast_S_S20000x256 : S_.BroadcastsInDim S20000x256 (![] : Fin 0 → Fin S20000x256.rank)
  bcast_S320000_S320000x1_0 : S320000.BroadcastsInDim S320000x1 (![0] : Fin 1 → Fin S320000x1.rank)
  shapeCasts_S20000x256_S2x10000x256 : S20000x256.ShapeCasts S2x10000x256
  concatenates_S2x10000x128_S2x10000x256_S2x10000x384_d2 : Shape.Concatenates [S2x10000x128, S2x10000x256] S2x10000x384 2
  bcast_S1x1x256_S2x10000x256_0_1_2 : S1x1x256.BroadcastsInDim S2x10000x256 (![0, 1, 2] : Fin 3 → Fin S2x10000x256.rank)
  bcast_S_S2x10000x256 : S_.BroadcastsInDim S2x10000x256 (![] : Fin 0 → Fin S2x10000x256.rank)
  bcast_S128_S1x1x128_2 : S128.BroadcastsInDim S1x1x128 (![2] : Fin 1 → Fin S1x1x128.rank)
  bcast_S1x1x128_S2x10000x128_0_1_2 : S1x1x128.BroadcastsInDim S2x10000x128 (![0, 1, 2] : Fin 3 → Fin S2x10000x128.rank)
  gather_S2x10000x128_S2x160000x1_S2x160000x128_2_1_0_0_1_2_11128_wf : GatherDims.WF S2x10000x128 S2x160000x1 S2x160000x128 [2] [1] [0] [1] [0] 2 ![1, 1, 128]
  dot_S2x160000x320_S320x256_S2x160000x256_2_0_01_1_n_n_wf : DotDims.WF S2x160000x320 S320x256 S2x160000x256 [2] [0] [0, 1] [1] [] []
  dot_S2x160000x256_S256x256_S2x160000x256_2_0_01_1_n_n_wf : DotDims.WF S2x160000x256 S256x256 S2x160000x256 [2] [0] [0, 1] [1] [] []
  scatter_S20000x256_S320000x1_S320000x256_1_0_0_1_wf : ScatterDims.WF S20000x256 S320000x1 S320000x256 [1] [0] [0] 1
  dot_S2x10000x384_S384x256_S2x10000x256_2_0_01_1_n_n_wf : DotDims.WF S2x10000x384 S384x256 S2x10000x256 [2] [0] [0, 1] [1] [] []
  dot_S2x10000x256_S256x128_S2x10000x128_2_0_01_1_n_n_wf : DotDims.WF S2x10000x256 S256x128 S2x10000x128 [2] [0] [0, 1] [1] [] []

variable [Facts₀]

def gather_S2x10000x128_S2x160000x1_S2x160000x128_2_1_0_0_1_2_11128 : GatherDims S2x10000x128 S2x160000x1 S2x160000x128 where
  offsetDims := [2]
  collapsedSliceDims := [1]
  operandBatchingDims := [0]
  startIndicesBatchingDims := [0]
  startIndexMap := [1]
  indexVectorDim := 2
  sliceSizes := ![1, 1, 128]
  wf := gather_S2x10000x128_S2x160000x1_S2x160000x128_2_1_0_0_1_2_11128_wf
def dot_S2x160000x320_S320x256_S2x160000x256_2_0_01_1_n_n : DotDims S2x160000x320 S320x256 S2x160000x256 where
  lhsContracting := [2]
  rhsContracting := [0]
  lhsNonContracting := [0, 1]
  rhsNonContracting := [1]
  lhsBatch := []
  rhsBatch := []
  wf := dot_S2x160000x320_S320x256_S2x160000x256_2_0_01_1_n_n_wf
def dot_S2x160000x256_S256x256_S2x160000x256_2_0_01_1_n_n : DotDims S2x160000x256 S256x256 S2x160000x256 where
  lhsContracting := [2]
  rhsContracting := [0]
  lhsNonContracting := [0, 1]
  rhsNonContracting := [1]
  lhsBatch := []
  rhsBatch := []
  wf := dot_S2x160000x256_S256x256_S2x160000x256_2_0_01_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2x10000x384_S384x256_S2x10000x256_2_0_01_1_n_n : DotDims S2x10000x384 S384x256 S2x10000x256 where
  lhsContracting := [2]
  rhsContracting := [0]
  lhsNonContracting := [0, 1]
  rhsNonContracting := [1]
  lhsBatch := []
  rhsBatch := []
  wf := dot_S2x10000x384_S384x256_S2x10000x256_2_0_01_1_n_n_wf
def dot_S2x10000x256_S256x128_S2x10000x128_2_0_01_1_n_n : DotDims S2x10000x256 S256x128 S2x10000x128 where
  lhsContracting := [2]
  rhsContracting := [0]
  lhsNonContracting := [0, 1]
  rhsNonContracting := [1]
  lhsBatch := []
  rhsBatch := []
  wf := dot_S2x10000x256_S256x128_S2x10000x128_2_0_01_1_n_n_wf

class Facts : Prop extends Facts₀ where

variable [Facts]
-- ==== Proof.KernelRun.lean ====
/-
  The tiled program's run, with its result named.

  The program is nine stretches in a row: five stretches of host operations (slicing the endpoint indices out
  of the edge list, the two row gathers, and the reshapes and weight slices that lay the operands out for the
  first tiled region), the message network's region, one more host stretch (the flattened destination index,
  the scatter-add of the messages into the node rows, and the operands of the second region), the update
  network's region, and the final reshape back to `[batch, node, feature]`.

  The buffer contents at every boundary between stretches are a fold from the launch memory; this module runs the
  program once more with the result buffer read off the last of these contents, beside the arguments that the
  frame already reads. What those contents ARE, as a function of the arguments, is read stretch by stretch in
  KernelValue.lean.
-/
import proofs.«138037_j66194035965974_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer ends at the contents the last
    boundary gives it, and the eleven argument arrays end as launched. -/
theorem run_named : θ_run defs (onTc (τ := τ) (main (F := F))) ⟨m, fun _ => 0, ρ⟩ (fun r => ∀ c : Dev nD,
      r.2.mem ((c.tc : Thread nD τ).loc main_v33) = W9 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v33 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Run

end
-- ==== Proof.Spec.lean ====
/-
  The mathematics both programs compute, stated once, over the extended reals.

  A message-passing layer on a batch of graphs: every edge carries a message, the output of a two-layer
  perceptron applied to the features of its two endpoints and its own features; every node sums the messages
  of the edges that point at it; and a second two-layer perceptron maps a node's features together with that sum
  to the node's new features. Both perceptrons use the tanh form of GELU between their layers.

  With the batch axis folded into the rows (edge row `r` of 320000, node row `r` of 20000), and the first
  layer's weight matrix cut into the row bands that meet each part of the concatenated input:

    hidden_msg r h = (Σ_j src r j · W_s j h + Σ_j dst r j · W_d j h) + Σ_j edge r j · W_e j h + b₁ h
    message r o    = Σ_k gelu (hidden_msg r k) · W₂ k o + b₂ o
    hidden_upd r h = (Σ_j node r j · W_n j h + Σ_j agg r j · W_a j h) + b₁ h
    updated r o    = Σ_k gelu (hidden_upd r k) · W₂ k o + b₂ o

  The grouping of the partial sums is the one in which the tiled program adds its partial products; on the
  extended reals addition is commutative and associative, so any other grouping (one sum over the concatenated
  axis) is the same number. Biases are rows `[1, n]`, as the tiled program passes them.
-/
import Idealize.ShloMosaic.PureOps.Ideal
import Idealize.ShloMosaic.Lib.ValueIdx

noncomputable section

namespace Cert.MsgPass

open Idealize.ShloMosaic Idealize.ShloMosaic.ValueIdx

/-- A matrix of extended reals with `a` rows and `b` columns, as a function of its index. -/
abbrev Mat (a b : Nat) : Type := (⟨2, ![a, b]⟩ : Shape).Idx → EReal

/-- GELU in its tanh form, `x · (½ · (1 + tanh (κ · (x + γ · x³))))`, with `x³` grouped as `x · (x · x)`.
    The four constants `½`, `1`, `κ ≈ √(2/π)` and `γ ≈ 0.044715` are the binary32 words both programs
    carry; nothing here depends on their values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The hidden layer of the message network before its activation, at edge row `r` and hidden unit `h`:
    the three partial products (source endpoint, destination endpoint, edge features) and the bias. -/
def msgHidden (src dst : Mat 320000 128) (edge : Mat 320000 64) (wS wD : Mat 128 256) (wE : Mat 64 256)
    (b1 : Mat 1 256) (r : Fin 320000) (h : Fin 256) : EReal :=
  (((∑ j : Fin 128, src (ix2 r j) * wS (ix2 j h)) + (∑ j : Fin 128, dst (ix2 r j) * wD (ix2 j h)))
    + (∑ j : Fin 64, edge (ix2 r j) * wE (ix2 j h))) + b1 (ix2 0 h)

/-- The message of edge row `r`, output unit `o`. -/
def msgAt (src dst : Mat 320000 128) (edge : Mat 320000 64) (wS wD : Mat 128 256) (wE : Mat 64 256)
    (b1 : Mat 1 256) (w2 : Mat 256 256) (b2 : Mat 1 256) (r : Fin 320000) (o : Fin 256) : EReal :=
  (∑ k : Fin 256, gelu (msgHidden src dst edge wS wD wE b1 r k) * w2 (ix2 k o)) + b2 (ix2 0 o)

/-- All messages, one row per edge. -/
def messages (src dst : Mat 320000 128) (edge : Mat 320000 64) (wS wD : Mat 128 256) (wE : Mat 64 256)
    (b1 : Mat 1 256) (w2 : Mat 256 256) (b2 : Mat 1 256) : Mat 320000 256 :=
  fun i => msgAt src dst edge wS wD wE b1 w2 b2 (i 0) (i 1)

theorem messages_apply (src dst : Mat 320000 128) (edge : Mat 320000 64) (wS wD : Mat 128 256) (wE : Mat 64 256)
    (b1 : Mat 1 256) (w2 : Mat 256 256) (b2 : Mat 1 256) (r : Fin 320000) (o : Fin 256) :
    messages src dst edge wS wD wE b1 w2 b2 (ix2 r o) = msgAt src dst edge wS wD wE b1 w2 b2 r o := rfl

/-- The hidden layer of the update network before its activation, at node row `r` and hidden unit `h`:
    the two partial products (the node's own features, the sum of its incoming messages) and the bias. -/
def updHidden (node : Mat 20000 128) (agg : Mat 20000 256) (wN : Mat 128 256) (wA : Mat 256 256)
    (b1 : Mat 1 256) (r : Fin 20000) (h : Fin 256) : EReal :=
  ((∑ j : Fin 128, node (ix2 r j) * wN (ix2 j h)) + (∑ j : Fin 256, agg (ix2 r j) * wA (ix2 j h))) + b1 (ix2 0 h)

/-- The new feature `o` of node row `r`. -/
def updAt (node : Mat 20000 128) (agg : Mat 20000 256) (wN : Mat 128 256) (wA : Mat 256 256)
    (b1 : Mat 1 256) (w2 : Mat 256 128) (b2 : Mat 1 128) (r : Fin 20000) (o : Fin 128) : EReal :=
  (∑ k : Fin 256, gelu (updHidden node agg wN wA b1 r k) * w2 (ix2 k o)) + b2 (ix2 0 o)

/-- All new node features, one row per node. -/
def updated (node : Mat 20000 128) (agg : Mat 20000 256) (wN : Mat 128 256) (wA : Mat 256 256)
    (b1 : Mat 1 256) (w2 : Mat 256 128) (b2 : Mat 1 128) : Mat 20000 128 :=
  fun i => updAt node agg wN wA b1 w2 b2 (i 0) (i 1)

theorem updated_apply (node : Mat 20000 128) (agg : Mat 20000 256) (wN : Mat 128 256) (wA : Mat 256 256)
    (b1 : Mat 1 256) (w2 : Mat 256 128) (b2 : Mat 1 128) (r : Fin 20000) (o : Fin 128) :
    updated node agg wN wA b1 w2 b2 (ix2 r o) = updAt node agg wN wA b1 w2 b2 r o := rfl

end Cert.MsgPass

end
-- ==== Proof.RefLayer.lean ====
/-
  The layer as ONE term of the eleven argument arrays, in the vocabulary of the specification.

  Reading the reference program top to bottom: the two endpoint gathers (rows of the node features taken at the
  source and at the destination index of every edge; kept here as the program's own terms, never opened), the
  message network on the flattened edge rows, the scatter-add of the messages into the rows of their destination
  nodes (again the program's own term), the update network on the flattened node rows, and the result folded back
  to `[batch, node, feature]`.

  The layout steps are spelt the way the tiled program lays its operands out: the batch axis folded into the rows,
  the first layers' weight matrices cut into the row bands that meet each part of the concatenated input, the
  biases as one-row matrices. Both programs are shown equal to this term.
-/
import proofs.«138037_j66194035965974_1_alg».proof.Proof.RefReadPatched
import proofs.«138037_j66194035965974_1_alg».proof.Proof.Spec

noncomputable section

namespace Cert.ReferenceIdeal.RefValue

open Cert.ReferenceIdeal Cert.ReferenceIdeal.ReadP Idealize.ShloMosaic Idealize.ShloMosaic.TcCoe

/-- The messages of all edges: the message network applied to the gathered endpoint rows and the edge features,
    one flattened row per (batch, edge). -/
def edgeMessages (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) : Cert.MsgPass.Mat 320000 256 :=
  Cert.MsgPass.messages
    (shapeCast ⟨2, ![320000, 128]⟩ (val_main_v5 (F := Ideal) x0 x1) (by decide))
    (shapeCast ⟨2, ![320000, 128]⟩ (val_main_v7 (F := Ideal) x0 x1) (by decide))
    (shapeCast ⟨2, ![320000, 64]⟩ x2 (by decide))
    (extractStridedSlice ⟨2, ![128, 256]⟩ ![0, 0] x3 (by decide))
    (extractStridedSlice ⟨2, ![128, 256]⟩ ![128, 0] x3 (by decide))
    (extractStridedSlice ⟨2, ![64, 256]⟩ ![256, 0] x3 (by decide))
    (shapeCast ⟨2, ![1, 256]⟩ x4 (by decide)) x5 (shapeCast ⟨2, ![1, 256]⟩ x6 (by decide))

/-- Every node's sum of the messages of the edges pointing at it: the program's scatter-add, from zero, at the
    flattened destination index, of `edgeMessages`. -/
def aggregated (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) : Cert.MsgPass.Mat 20000 256 :=
  Host.scatterAdd (F := Ideal) (φ := .f32) scatter_S20000x256_S320000x1_S320000x256_1_0_0_1 (val_main_v38 (F := Ideal))
    (val_main_v39 (F := Ideal) x1) (edgeMessages x0 x1 x2 x3 x4 x5 x6)

/-- The whole layer: the update network applied to the node rows and their aggregated messages, folded back to
    `[batch, node, feature]`. -/
def layer (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S384x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) : (⟨S2x10000x128, .f32⟩ : BufTy).Contents (Elt Ideal) :=
  shapeCast S2x10000x128
    (Cert.MsgPass.updated
      (shapeCast ⟨2, ![20000, 128]⟩ x0 (by decide))
      (aggregated x0 x1 x2 x3 x4 x5 x6)
      (extractStridedSlice ⟨2, ![128, 256]⟩ ![0, 0] x7 (by decide))
      (extractStridedSlice ⟨2, ![256, 256]⟩ ![128, 0] x7 (by decide))
      (shapeCast ⟨2, ![1, 256]⟩ x8 (by decide)) x9 (shapeCast ⟨2, ![1, 128]⟩ x10 (by decide)))
    (by decide)

end Cert.ReferenceIdeal.RefValue

end
-- ==== Proof.KernelEntryCast.lean ====
/-
  Transport along an equation between a type and itself is the identity.

  The operations of a called function hand their operands over at the value's declared type and store their result
  at the buffer's type; the two are the same type, and the hand-over is a `cast` along a proof of that. This lemma
  removes such a cast. It is PROVED (from the general fact that a cast is heterogeneously equal to its argument)
  rather than stated as a definitional unfolding: a rewrite with it is then justified at the place where it
  happens, by a congruence, and the terms around the cast are never compared by unfolding them.
-/

namespace Cert.KernelIdeal.Run

/-- A cast along `h : α = α` does nothing. -/
theorem cast_self {α : Sort _} (h : α = α) (a : α) : cast h a = a :=
  eq_of_heq (cast_heq h a)

end Cert.KernelIdeal.Run
-- ==== Proof.KernelEntryGather.lean ====
/-
  The gathered endpoint rows, as the message region finds them.

  Before its first region the tiled program computes, on the host, exactly what the reference computes first: the
  two columns of endpoint indices, and for each the rows of the node features taken at those indices (the index
  brought into range, the row replaced by NaN where it was out of range), and then folds the batch axis into the
  rows. Operation for operation these are the reference's own terms, so each array is stated as the reference's
  value of the launch memory's arguments, and the two programs' texts are compared, never evaluated: the gather and
  the reduction inside it are kept closed.
-/
import proofs.«138037_j66194035965974_1_alg».proof.Proof.Gen.KernelIdeal.Frame
import proofs.«138037_j66194035965974_1_alg».proof.Proof.RefLayer
import Idealize.ShloMosaic.Lib.StableHlo.Run
import proofs.«138037_j66194035965974_1_alg».proof.Proof.KernelEntryCast

noncomputable section

namespace Cert.KernelIdeal.Run

open Cert.KernelIdeal Cert.KernelIdeal.Gen
open Idealize.ShloMosaic Idealize.ShloMosaic.TcCoe Idealize.SL.Sem Idealize.ShloMosaic.StableHlo
open Cert.ReferenceIdeal.ReadP (val_main_v3 val_main_v5 val_main_v7)

variable (m : (ℓ : Loc nD τ sig) → Buf (Elt Ideal) ℓ) (ρ : Dev nD → PrngReg)

attribute [local irreducible] Host.reduce Host.gather

/-- The source-endpoint operand of the message region: the reference's gathered source rows, batch folded into
    the rows. -/
theorem entry_src (c : Dev nD) :
    W5 m ρ c (Proc.devRef .tc main_v8)
      = shapeCast ⟨2, ![320000, 128]⟩
          (val_main_v5 (F := Ideal) (m ((c.tc : Thread nD τ).loc main_arg0)) (m ((c.tc : Thread nD τ).loc main_arg1)))
          (by decide) := by
  show StableHlo.after hostOps0_4 (StableHlo.after hostOps0_3 (StableHlo.after hostOps0_2 (StableHlo.after hostOps0_1
    (StableHlo.after hostOps0 (W0 m ρ c))))) (Proc.devRef .tc main_v8) = _
  after_results_simp
  simp only [TRef.toBuf, TRef.ofBuf, cast_self]
  rfl

/-- The destination-endpoint operand of the message region: the reference's gathered destination rows, batch
    folded into the rows. -/
theorem entry_dst (c : Dev nD) :
    W5 m ρ c (Proc.devRef .tc main_v9)
      = shapeCast ⟨2, ![320000, 128]⟩
          (val_main_v7 (F := Ideal) (m ((c.tc : Thread nD τ).loc main_arg0)) (m ((c.tc : Thread nD τ).loc main_arg1)))
          (by decide) := by
  show StableHlo.after hostOps0_4 (StableHlo.after hostOps0_3 (StableHlo.after hostOps0_2 (StableHlo.after hostOps0_1
    (StableHlo.after hostOps0 (W0 m ρ c))))) (Proc.devRef .tc main_v9) = _
  after_results_simp
  simp only [TRef.toBuf, TRef.ofBuf, cast_self]
  rfl

/-- The column of destination indices is still, at the region's entry, the reference's. -/
theorem dstIdx_at5 (c : Dev nD) :
    W5 m ρ c (Proc.devRef .tc main_v3) = val_main_v3 (F := Ideal) (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v3) = _
  after_results_simp
  rfl

end Cert.KernelIdeal.Run

end
-- ==== Proof.KernelEntryLayout.lean ====
/-
  The other operands of the message region, as it finds them.

  Besides the gathered rows the region reads the edge features with the batch axis folded into the rows, the three
  row bands of the first-layer matrix (rows 0–127, 128–255 and 256–319: the parts that meet the source rows, the
  destination rows and the edge features of the joined input), and the two biases as one-row matrices. Each is one
  layout operation applied to an argument of the launch memory; no earlier operation writes that argument, so it
  is read as launched.
-/
import proofs.«138037_j66194035965974_1_alg».proof.Proof.Gen.KernelIdeal.Frame
import proofs.«138037_j66194035965974_1_alg».proof.Proof.RefLayer
import Idealize.ShloMosaic.Lib.StableHlo.Run

noncomputable section

namespace Cert.KernelIdeal.Run

open Cert.KernelIdeal Cert.KernelIdeal.Gen
open Idealize.ShloMosaic Idealize.ShloMosaic.TcCoe Idealize.SL.Sem Idealize.ShloMosaic.StableHlo
open Cert.ReferenceIdeal.ReadP (val_main_v3 val_main_v5 val_main_v7)

variable (m : (ℓ : Loc nD τ sig) → Buf (Elt Ideal) ℓ) (ρ : Dev nD → PrngReg)

/-- The edge features, batch folded into the rows. -/
theorem entry_edge (c : Dev nD) :
    W5 m ρ c (Proc.devRef .tc main_v10)
      = shapeCast (s := S2x160000x64) ⟨2, ![320000, 64]⟩ (m ((c.tc : Thread nD τ).loc main_arg2)) (by decide) := by
  show StableHlo.after hostOps0_4 (StableHlo.after hostOps0_3 (StableHlo.after hostOps0_2 (StableHlo.after hostOps0_1
    (StableHlo.after hostOps0 (W0 m ρ c))))) (Proc.devRef .tc main_v10) = _
  after_results_simp
  rfl

/-- Rows 0–127 of the first-layer matrix: the band that meets the source endpoint. -/
theorem entry_wS (c : Dev nD) :
    W5 m ρ c (Proc.devRef .tc main_v11)
      = extractStridedSlice (s := S320x256) ⟨2, ![128, 256]⟩ ![0, 0] (m ((c.tc : Thread nD τ).loc main_arg3)) (by decide) := by
  show StableHlo.after hostOps0_4 (StableHlo.after hostOps0_3 (StableHlo.after hostOps0_2 (StableHlo.after hostOps0_1
    (StableHlo.after hostOps0 (W0 m ρ c))))) (Proc.devRef .tc main_v11) = _
  after_results_simp

/-- Rows 128–255 of the first-layer matrix: the band that meets the destination endpoint. -/
theorem entry_wD (c : Dev nD) :
    W5 m ρ c (Proc.devRef .tc main_v12)
      = extractStridedSlice (s := S320x256) ⟨2, ![128, 256]⟩ ![128, 0] (m ((c.tc : Thread nD τ).loc main_arg3)) (by decide) := by
  show StableHlo.after hostOps0_4 (StableHlo.after hostOps0_3 (StableHlo.after hostOps0_2 (StableHlo.after hostOps0_1
    (StableHlo.after hostOps0 (W0 m ρ c))))) (Proc.devRef .tc main_v12) = _
  after_results_simp

/-- Rows 256–319 of the first-layer matrix: the band that meets the edge features. -/
theorem entry_wE (c : Dev nD) :
    W5 m ρ c (Proc.devRef .tc main_v13)
      = extractStridedSlice (s := S320x256) ⟨2, ![64, 256]⟩ ![256, 0] (m ((c.tc : Thread nD τ).loc main_arg3)) (by decide) := by
  show StableHlo.after hostOps0_4 (StableHlo.after hostOps0_3 (StableHlo.after hostOps0_2 (StableHlo.after hostOps0_1
    (StableHlo.after hostOps0 (W0 m ρ c))))) (Proc.devRef .tc main_v13) = _
  after_results_simp

/-- The first bias as a one-row matrix. -/
theorem entry_b1 (c : Dev nD) :
    W5 m ρ c (Proc.devRef .tc main_v14)
      = shapeCast (s := S256) ⟨2, ![1, 256]⟩ (m ((c.tc : Thread nD τ).loc main_arg4)) (by decide) := by
  show StableHlo.after hostOps0_4 (StableHlo.after hostOps0_3 (StableHlo.after hostOps0_2 (StableHlo.after hostOps0_1
    (StableHlo.after hostOps0 (W0 m ρ c))))) (Proc.devRef .tc main_v14) = _
  after_results_simp
  rfl

/-- The second bias as a one-row matrix. -/
theorem entry_b2 (c : Dev nD) :
    W5 m ρ c (Proc.devRef .tc main_v15)
      = shapeCast (s := S256) ⟨2, ![1, 256]⟩ (m ((c.tc : Thread nD τ).loc main_arg6)) (by decide) := by
  show StableHlo.after hostOps0_4 (StableHlo.after hostOps0_3 (StableHlo.after hostOps0_2 (StableHlo.after hostOps0_1
    (StableHlo.after hostOps0 (W0 m ρ c))))) (Proc.devRef .tc main_v15) = _
  after_results_simp
  rfl

end Cert.KernelIdeal.Run

end
-- ==== Proof.KernelEntryArgs.lean ====
/-
  The arguments that reach the message region, and the later stretches, untouched.

  No host operation before the first region writes an argument of the program: each operation writes the buffer of
  its own result. So at the region's entry an argument's buffer still holds what the launch memory holds.
-/
import proofs.«138037_j66194035965974_1_alg».proof.Proof.Gen.KernelIdeal.Frame
import proofs.«138037_j66194035965974_1_alg».proof.Proof.RefLayer
import Idealize.ShloMosaic.Lib.StableHlo.Run

noncomputable section

namespace Cert.KernelIdeal.Run

open Cert.KernelIdeal Cert.KernelIdeal.Gen
open Idealize.ShloMosaic Idealize.ShloMosaic.TcCoe Idealize.SL.Sem Idealize.ShloMosaic.StableHlo
open Cert.ReferenceIdeal.ReadP (val_main_v3 val_main_v5 val_main_v7)

variable (m : (ℓ : Loc nD τ sig) → Buf (Elt Ideal) ℓ) (ρ : Dev nD → PrngReg)

/-- The second-layer matrix of the message network is read as launched. -/
theorem entry_w2 (c : Dev nD) :
    W5 m ρ c (Proc.devRef .tc main_arg5)
      = (m ((c.tc : Thread nD τ).loc main_arg5)) := by
  show StableHlo.after hostOps0_4 (StableHlo.after hostOps0_3 (StableHlo.after hostOps0_2 (StableHlo.after hostOps0_1
    (StableHlo.after hostOps0 (W0 m ρ c))))) (Proc.devRef .tc main_arg5) = _
  after_results_simp

/-- The node features are as launched. -/
theorem arg0_at5 (c : Dev nD) :
    W5 m ρ c (Proc.devRef .tc main_arg0)
      = (m ((c.tc : Thread nD τ).loc main_arg0)) := by
  show StableHlo.after hostOps0_4 (StableHlo.after hostOps0_3 (StableHlo.after hostOps0_2 (StableHlo.after hostOps0_1
    (StableHlo.after hostOps0 (W0 m ρ c))))) (Proc.devRef .tc main_arg0) = _
  after_results_simp

/-- The first-layer matrix of the update network is as launched. -/
theorem arg7_at5 (c : Dev nD) :
    W5 m ρ c (Proc.devRef .tc main_arg7)
      = (m ((c.tc : Thread nD τ).loc main_arg7)) := by
  show StableHlo.after hostOps0_4 (StableHlo.after hostOps0_3 (StableHlo.after hostOps0_2 (StableHlo.after hostOps0_1
    (StableHlo.after hostOps0 (W0 m ρ c))))) (Proc.devRef .tc main_arg7) = _
  after_results_simp

/-- The first bias of the update network is as launched. -/
theorem arg8_at5 (c : Dev nD) :
    W5 m ρ c (Proc.devRef .tc main_arg8)
      = (m ((c.tc : Thread nD τ).loc main_arg8)) := by
  show StableHlo.after hostOps0_4 (StableHlo.after hostOps0_3 (StableHlo.after hostOps0_2 (StableHlo.after hostOps0_1
    (StableHlo.after hostOps0 (W0 m ρ c))))) (Proc.devRef .tc main_arg8) = _
  after_results_simp

/-- The second-layer matrix of the update network is as launched. -/
theorem arg9_at5 (c : Dev nD) :
    W5 m ρ c (Proc.devRef .tc main_arg9)
      = (m ((c.tc : Thread nD τ).loc main_arg9)) := by
  show StableHlo.after hostOps0_4 (StableHlo.after hostOps0_3 (StableHlo.after hostOps0_2 (StableHlo.after hostOps0_1
    (StableHlo.after hostOps0 (W0 m ρ c))))) (Proc.devRef .tc main_arg9) = _
  after_results_simp

/-- The second bias of the update network is as launched. -/
theorem arg10_at5 (c : Dev nD) :
    W5 m ρ c (Proc.devRef .tc main_arg10)
      = (m ((c.tc : Thread nD τ).loc main_arg10)) := by
  show StableHlo.after hostOps0_4 (StableHlo.after hostOps0_3 (StableHlo.after hostOps0_2 (StableHlo.after hostOps0_1
    (StableHlo.after hostOps0 (W0 m ρ c))))) (Proc.devRef .tc main_arg10) = _
  after_results_simp

end Cert.KernelIdeal.Run

end
-- ==== Proof.KernelEntry.lean ====
/-
  What the message region finds in each of its operand arrays, and what the later stretches still read of the
  launch memory — gathered in one module: the gathered endpoint rows and the destination indices
  (KernelEntryGather), the folded edge features, the weight bands and the bias rows (KernelEntryLayout), and the
  arguments no host operation writes (KernelEntryArgs).
-/
import proofs.«138037_j66194035965974_1_alg».proof.Proof.KernelEntryGather
import proofs.«138037_j66194035965974_1_alg».proof.Proof.KernelEntryLayout
import proofs.«138037_j66194035965974_1_alg».proof.Proof.KernelEntryArgs
-- ==== Proof.MsgProduct.lean ====
/-
  A matrix product into a zero accumulator, read at one entry.

  Over the extended reals the matrix unit's product of an `M × K` matrix `a` with a `K × N` matrix `w`, added
  into an accumulator that is zero everywhere, is at row `p` and column `q` the plain sum

      Σ_{k < K}  a (p, k) · w (k, q).

  Nothing is rounded and no order of accumulation is left in it. The one thing to prove is a re-indexing: the
  operation sums over the positions of its "contraction shape" (here a shape with the single axis `K`), and
  names the operands' entries through its dimension numbers; for the plain dimension numbers (contract the left
  operand's columns with the right operand's rows, no batch axis) the position `k` meets `a (p, k)` and `w (k, q)`.

  The message network multiplies three times with these dimension numbers in its first layer (contraction lengths
  128, 128 and 64) and once in its second (length 256); the generated program names each product's dimension
  numbers by a record of its own, equal to the plain one by unfolding.
-/
import proofs.«138037_j66194035965974_1_alg».proof.Proof.Gen.KernelIdeal
import Idealize.ShloMosaic.PureOps.Ideal.Laws
import Idealize.ShloMosaic.Lib.ValueIdx

noncomputable section

open Idealize.ShloMosaic Idealize.ShloMosaic.ValueIdx
open Cert.KernelIdeal Cert.KernelIdeal.Gen

namespace Cert.KernelIdeal.MsgRegion

/-- The product with the plain dimension numbers into the zero accumulator, at entry `(p, q)`: the sum over the
    contracted axis. The sum over the one-axis contraction shape is carried to a sum over `Fin K` along the
    bijection "a position is its one coordinate"; under it the left operand is read at `(p, k)` (its row is the
    result's row, its column the position) and the right operand at `(k, q)`. -/
theorem matmul_zero_apply {M K N : Nat} {φ₁ φ₂ : FTy} (prec : Option ContractPrecision)
    (a : FVec Ideal ⟨2, ![M, K]⟩ φ₁) (w : FVec Ideal ⟨2, ![K, N]⟩ φ₂) (p : Fin M) (q : Fin N) :
    matmul (DotDims.plain M K N) prec a w (constant ⟨2, ![M, N]⟩ .f32 0x00000000#32) (ix2 p q)
      = ∑ k : Fin K, a (ix2 p k) * w (ix2 k q) := by
  refine (Ideal.matmul_constant_zero_apply _ prec a w (ix2 p q)).trans ?_
  rw [← Equiv.sum_comp (contrEquiv1 (DotDims.plain M K N) K rfl rfl).symm]
  refine Finset.sum_congr rfl fun k _ => ?_
  -- the position that corresponds to `k` has `k` as its one coordinate
  have hk := contrEquiv1_symm_val (DotDims.plain M K N) K rfl rfl k
  -- the left operand's index there: the result's row, then the position
  have el : (DotDims.plain M K N).lhsIdx (ix2 p q) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  -- the right operand's index there: the position, then the result's column
  have er : (DotDims.plain M K N).rhsIdx (ix2 p q) ((contrEquiv1 (DotDims.plain M K N) K rfl rfl).symm k) = ix2 k q :=
    funext fun ax => Fin.ext (by
      match ax with
      | ⟨0, _⟩ => exact ((DotDims.plain M K N).rhsIdx_val_of_single rfl _ _).trans hk
      | ⟨1, _⟩ => rfl)
  rw [el, er]

/-- A block of 4000 rows times a `128 × 256` weight matrix (the source and the destination endpoints' products). -/
theorem prod128_apply (a : FVec Ideal S4000x128 .bf16) (w : FVec Ideal S128x256 .bf16) (p : Fin 4000) (q : Fin 256) :
    matmul dot_S4000x128_S128x256_S4000x256_1_0_0_1_n_n none a w (constant S4000x256 .f32 0x00000000#32) (ix2 p q)
      = ∑ k : Fin 128, a (ix2 p k) * w (ix2 k q) :=
  matmul_zero_apply none a w p q

/-- A block of 4000 rows times the `64 × 256` weight matrix (the edge features' product). -/
theorem prod64_apply (a : FVec Ideal S4000x64 .bf16) (w : FVec Ideal S64x256 .bf16) (p : Fin 4000) (q : Fin 256) :
    matmul dot_S4000x64_S64x256_S4000x256_1_0_0_1_n_n none a w (constant S4000x256 .f32 0x00000000#32) (ix2 p q)
      = ∑ k : Fin 64, a (ix2 p k) * w (ix2 k q) :=
  matmul_zero_apply none a w p q

/-- A block of 4000 rows times the `256 × 256` weight matrix (the second layer's product). -/
theorem prod256_apply (a : FVec Ideal S4000x256 .bf16) (w : FVec Ideal S256x256 .bf16) (p : Fin 4000) (q : Fin 256) :
    matmul dot_S4000x256_S256x256_S4000x256_1_0_0_1_n_n none a w (constant S4000x256 .f32 0x00000000#32) (ix2 p q)
      = ∑ k : Fin 256, a (ix2 p k) * w (ix2 k q) :=
  matmul_zero_apply none a w p q

end Cert.KernelIdeal.MsgRegion

end
-- ==== Proof.MsgBody.lean ====
/-
  What the message network's body computes, read at one entry of its output block.

  At each point of its grid the body holds nine blocks: 4000 rows of the source-endpoint features, of the
  destination-endpoint features and of the edge features, and, whole, the three bands of the first layer's weight
  matrix, the first bias row, the second layer's weight matrix and the second bias row. From them it forms

      hidden (p, h) = (Σ_j x₀ (p, j) · x₃ (j, h) + Σ_j x₁ (p, j) · x₄ (j, h)) + Σ_j x₂ (p, j) · x₅ (j, h) + x₆ (0, h)
      gate (p, h)   = 1 + tanh (κ · (hidden + γ · (hidden · (hidden · hidden))))
      out (p, q)    = Σ_k (hidden (p, k) · (½ · gate (p, k))) · x₇ (k, q) + x₈ (0, q)

  (every rounding to bfloat16 on the way into a product is the identity on the extended reals, and a cast of a
  block to its own shape changes nothing). Row `p` of the output block therefore depends on row `p` of the
  three moving blocks only. So if row `p` of those blocks is row `r` of the three edge arrays and the six
  resident blocks are the six parameter arrays, `out (p, q)` is the specification's message of edge `r`, output
  unit `q` — with the same grouping of the partial sums, so no law of arithmetic is used.
-/
import proofs.«138037_j66194035965974_1_alg».proof.Proof.Gen.KernelIdeal.Skeleton
import proofs.«138037_j66194035965974_1_alg».proof.Proof.Spec
import proofs.«138037_j66194035965974_1_alg».proof.Proof.MsgProduct
import Idealize.ShloMosaic.Lib.ValueLayout

noncomputable section

open Idealize.ShloMosaic Idealize.ShloMosaic.ValueIdx
open Cert.KernelIdeal Cert.KernelIdeal.Gen
open Cert.MsgPass (Mat gelu msgHidden msgAt)

namespace Cert.KernelIdeal.MsgRegion

/-- The gate `1 + tanh (κ · (x + γ · (x · (x · x))))` is formed entrywise from the hidden layer `x`. -/
theorem gate_apply (x0 x1 : Vec Ideal S4000x128 .f32) (x2 : Vec Ideal S4000x64 .f32) (x3 x4 : Vec Ideal S128x256 .f32)
    (x5 : Vec Ideal S64x256 .f32) (x6 : Vec Ideal S1x256 .f32) (i : S4000x256.Idx) :
    k0_pay3 x0 x1 x2 x3 x4 x5 x6 i
      = Ideal.ofBits .f32 0x3F800000#32 + Ideal.tanh (Ideal.ofBits .f32 0x3F4C422A#32
          * (k0_pay2 x0 x1 x2 x3 x4 x5 x6 i + Ideal.ofBits .f32 0x3D372713#32
            * (k0_pay2 x0 x1 x2 x3 x4 x5 x6 i * (k0_pay2 x0 x1 x2 x3 x4 x5 x6 i * k0_pay2 x0 x1 x2 x3 x4 x5 x6 i)))) :=
  rfl

/-- The factor `½` is the same word at every entry. -/
theorem half_apply (i : S4000x256.Idx) : k0_pay4 (F := Ideal) i = Ideal.ofBits .f32 0x3F000000#32 := rfl

/-- The second layer at entry `(p, q)`, from ANY hidden layer `h`, gate `g` and constant factor `c`: the
    activation `h · (c · g)` is formed entrywise, multiplied with the weight block `w`, and the bias row `b` is
    added to every row. -/
theorem out_apply (h g c : FVec Ideal S4000x256 .f32) (w : Vec Ideal S256x256 .f32) (b : Vec Ideal S1x256 .f32)
    (p : Fin 4000) (q : Fin 256) :
    k0_pay1 h g c w b (ix2 p q)
      = (∑ k : Fin 256, (h (ix2 p k) * (c (ix2 p k) * g (ix2 p k))) * w (ix2 k q)) + b (ix2 0 q) := by
  unfold k0_pay1
  simp only [shapeCast_self, addf_apply, prod256_apply, truncf_apply, mulf_apply, broadcastTo_1b_ab_apply]

section Rows

/- The nine arrays of the specification, the nine blocks the body holds, a row `p` of the blocks and the row `r` of
   the arrays it is: the three moving blocks agree with their arrays along that row, the six resident blocks agree
   with theirs everywhere. -/
variable (src dst : Mat 320000 128) (edge : Mat 320000 64) (wS wD : Mat 128 256) (wE : Mat 64 256)
  (b1 : Mat 1 256) (w2 : Mat 256 256) (b2 : Mat 1 256)
  (x0 x1 : Vec Ideal S4000x128 .f32) (x2 : Vec Ideal S4000x64 .f32) (x3 x4 : Vec Ideal S128x256 .f32)
  (x5 : Vec Ideal S64x256 .f32) (x6 : Vec Ideal S1x256 .f32) (x7 : Vec Ideal S256x256 .f32) (x8 : Vec Ideal S1x256 .f32)
  (r : Fin 320000) (p : Fin 4000)
  (h0 : ∀ j : Fin 128, x0 (ix2 p j) = src (ix2 r j)) (h1 : ∀ j : Fin 128, x1 (ix2 p j) = dst (ix2 r j))
  (h2 : ∀ j : Fin 64, x2 (ix2 p j) = edge (ix2 r j))
  (h3 : ∀ (j : Fin 128) (h : Fin 256), x3 (ix2 j h) = wS (ix2 j h))
  (h4 : ∀ (j : Fin 128) (h : Fin 256), x4 (ix2 j h) = wD (ix2 j h))
  (h5 : ∀ (j : Fin 64) (h : Fin 256), x5 (ix2 j h) = wE (ix2 j h))
  (h6 : ∀ h : Fin 256, x6 (ix2 0 h) = b1 (ix2 0 h))
  (h7 : ∀ (k : Fin 256) (o : Fin 256), x7 (ix2 k o) = w2 (ix2 k o))
  (h8 : ∀ o : Fin 256, x8 (ix2 0 o) = b2 (ix2 0 o))

include h0 h1 h2 h3 h4 h5 h6 in
/-- The first layer before its activation, at row `p` of the block and hidden unit `h`, is the specification's
    hidden layer of edge row `r`: three products into zero accumulators added in the order
    (source + destination) + edge, then the bias row. -/
theorem hidden_eq (h : Fin 256) :
    k0_pay2 x0 x1 x2 x3 x4 x5 x6 (ix2 p h) = msgHidden src dst edge wS wD wE b1 r h := by
  unfold k0_pay2 msgHidden
  simp only [shapeCast_self, addf_apply, prod128_apply, prod64_apply, truncf_apply, broadcastTo_1b_ab_apply,
    h0, h1, h2, h3, h4, h5, h6]

include h0 h1 h2 h3 h4 h5 h6 h7 h8 in
/-- THE BODY'S VALUE: what it stores at entry `(p, q)` of its output block is the message of edge row `r`, output
    unit `q`. The summand at hidden unit `k` is `gelu (hidden r k) · W₂ (k, q)` once the gate and the hidden
    layer are read at `(p, k)`; the activation's grouping `x · (½ · (1 + tanh …))` is the specification's. -/
theorem payload_eq_msgAt (q : Fin 256) :
    k0_pay1 (k0_pay2 x0 x1 x2 x3 x4 x5 x6) (k0_pay3 x0 x1 x2 x3 x4 x5 x6) k0_pay4 x7 x8 (ix2 p q)
      = msgAt src dst edge wS wD wE b1 w2 b2 r q := by
  refine (out_apply _ _ _ x7 x8 p q).trans ?_
  unfold msgAt
  rw [h8 q]
  refine congrArg (· + b2 (ix2 0 q)) (Finset.sum_congr rfl fun k _ => ?_)
  rw [gate_apply, half_apply, h7 k q,
    hidden_eq src dst edge wS wD wE b1 x0 x1 x2 x3 x4 x5 x6 r p h0 h1 h2 h3 h4 h5 h6 k]
  rfl

end Rows

end Cert.KernelIdeal.MsgRegion

end
-- ==== Proof.MsgBlocks.lean ====
/-
  Where the message network's blocks sit in their arrays.

  The grid has 80 points. At point `t` the three edge arrays (source-endpoint features, destination-endpoint
  features, edge features) and the output array are seen through blocks of 4000 rows and all columns, block
  number `t` along the rows; the six parameter arrays (the three bands of the first weight matrix, the first bias
  row, the second weight matrix, the second bias row) are seen whole, block number 0 on both axes, at every point.
  An entry of a block sits in its array, on each axis, at (block number) × (block extent) + (its coordinate in the
  block). Hence row `p` of a moving block at point `t` is row `4000·t + p` of its array, and a resident block is
  its array.

  The block numbers are the program's index maps evaluated at the point; they are decided once, for all 80
  points and all ten windows.
-/
import proofs.«138037_j66194035965974_1_alg».proof.Proof.Gen.KernelIdeal.Frame
import Idealize.ShloMosaic.Lib.ValueIdx

noncomputable section

open Idealize.ShloMosaic Idealize.ShloMosaic.TcCoe Idealize.SL.Sem Idealize.ShloMosaic.ValueIdx
open Cert.KernelIdeal Cert.KernelIdeal.Gen

namespace Cert.KernelIdeal.MsgRegion

/-- The block numbers at every point: the point's number along the rows and 0 along the columns for the three
    edge arrays and the output; 0 on both axes for the six parameter arrays. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/- The contents of the arrays when the region is entered, and the core. -/
variable (V : (c : Dev nD) → (b : Ref sig .tc) → Buf (Elt Ideal) ((c : Thread nD τ).loc b)) (c : Dev nD)

/-! ## The three moving input blocks: row `p` at point `t` is row `r = 4000·t + p` of the array -/

/-- Source-endpoint features. -/
theorem src_block (t : Fin cfg0.N) (p : Fin 4000) (j : Fin 128) (r : Fin 320000) (hr : r.val = 4000 * t.val + p.val) :
    iblk0 V c 0 t (ix2 p j) = V c main_v8 (ix2 r j) := by
  obtain ⟨⟨e0, e1⟩, -⟩ := index_facts t
  unfold iblk0
  show V c main_v8 (((cfg0.win 0).blk t).view.emb (ix2 p j)) = V c main_v8 (ix2 r j)
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * j.val = j.val; omega

/-- Destination-endpoint features. -/
theorem dst_block (t : Fin cfg0.N) (p : Fin 4000) (j : Fin 128) (r : Fin 320000) (hr : r.val = 4000 * t.val + p.val) :
    iblk0 V c 1 t (ix2 p j) = V c main_v9 (ix2 r j) := by
  obtain ⟨-, ⟨e0, e1⟩, -⟩ := index_facts t
  unfold iblk0
  show V c main_v9 (((cfg0.win 1).blk t).view.emb (ix2 p j)) = V c main_v9 (ix2 r j)
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * j.val = j.val; omega

/-- Edge features. -/
theorem edge_block (t : Fin cfg0.N) (p : Fin 4000) (j : Fin 64) (r : Fin 320000) (hr : r.val = 4000 * t.val + p.val) :
    iblk0 V c 2 t (ix2 p j) = V c main_v10 (ix2 r j) := by
  obtain ⟨-, -, ⟨e0, e1⟩, -⟩ := index_facts t
  unfold iblk0
  show V c main_v10 (((cfg0.win 2).blk t).view.emb (ix2 p j)) = V c main_v10 (ix2 r j)
  refine congrArg _ (funext fun a => Fin.ext ?_)
  match a with
  | ⟨0, _⟩ => show win0_2.index t (0 : Fin 2) * 4000 + 1 * p.val = r.val; omega
  | ⟨1, _⟩ => show win0_2.index t (1 : Fin 2) * 64 + 1 * j.val = j.val; omega

/-! ## The six resident blocks: each is its array, at every point -/

/-- The first weight matrix's band that meets the source endpoint's features. -/
theorem wS_block (t : Fin cfg0.N) (j : Fin 128) (h : Fin 256) :
    iblk0 V c 3 t (ix2 j h) = V c main_v11 (ix2 j h) := by
  obtain ⟨-, -, -, ⟨e0, e1⟩, -⟩ := index_facts t
  unfold iblk0
  show V c main_v11 (((cfg0.win 3).blk t).view.emb (ix2 j h)) = V c main_v11 (ix2 j h)
  refine congrArg _ (funext fun a => Fin.ext ?_)
  match a with
  | ⟨0, _⟩ => show win0_3.index t (0 : Fin 2) * 128 + 1 * j.val = j.val; omega
  | ⟨1, _⟩ => show win0_3.index t (1 : Fin 2) * 256 + 1 * h.val = h.val; omega

/-- The band that meets the destination endpoint's features. -/
theorem wD_block (t : Fin cfg0.N) (j : Fin 128) (h : Fin 256) :
    iblk0 V c 4 t (ix2 j h) = V c main_v12 (ix2 j h) := by
  obtain ⟨-, -, -, -, ⟨e0, e1⟩, -⟩ := index_facts t
  unfold iblk0
  show V c main_v12 (((cfg0.win 4).blk t).view.emb (ix2 j h)) = V c main_v12 (ix2 j h)
  refine congrArg _ (funext fun a => Fin.ext ?_)
  match a with
  | ⟨0, _⟩ => show win0_4.index t (0 : Fin 2) * 128 + 1 * j.val = j.val; omega
  | ⟨1, _⟩ => show win0_4.index t (1 : Fin 2) * 256 + 1 * h.val = h.val; omega

/-- The band that meets the edge features. -/
theorem wE_block (t : Fin cfg0.N) (j : Fin 64) (h : Fin 256) :
    iblk0 V c 5 t (ix2 j h) = V c main_v13 (ix2 j h) := by
  obtain ⟨-, -, -, -, -, ⟨e0, e1⟩, -⟩ := index_facts t
  unfold iblk0
  show V c main_v13 (((cfg0.win 5).blk t).view.emb (ix2 j h)) = V c main_v13 (ix2 j h)
  refine congrArg _ (funext fun a => Fin.ext ?_)
  match a with
  | ⟨0, _⟩ => show win0_5.index t (0 : Fin 2) * 64 + 1 * j.val = j.val; omega
  | ⟨1, _⟩ => show win0_5.index t (1 : Fin 2) * 256 + 1 * h.val = h.val; omega

/-- The first bias row. -/
theorem b1_block (t : Fin cfg0.N) (h : Fin 256) :
    iblk0 V c 6 t (ix2 (0 : Fin 1) h) = V c main_v14 (ix2 (0 : Fin 1) h) := by
  obtain ⟨-, -, -, -, -, -, ⟨e0, e1⟩, -⟩ := index_facts t
  unfold iblk0
  show V c main_v14 (((cfg0.win 6).blk t).view.emb (ix2 (0 : Fin 1) h)) = V c main_v14 (ix2 (0 : Fin 1) h)
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * h.val = h.val; omega

/-- The second weight matrix. -/
theorem w2_block (t : Fin cfg0.N) (k : Fin 256) (o : Fin 256) :
    iblk0 V c 7 t (ix2 k o) = V c main_arg5 (ix2 k o) := by
  obtain ⟨-, -, -, -, -, -, -, ⟨e0, e1⟩, -⟩ := index_facts t
  unfold iblk0
  show V c main_arg5 (((cfg0.win 7).blk t).view.emb (ix2 k o)) = V c main_arg5 (ix2 k o)
  refine congrArg _ (funext fun a => Fin.ext ?_)
  match a with
  | ⟨0, _⟩ => show win0_7.index t (0 : Fin 2) * 256 + 1 * k.val = k.val; omega
  | ⟨1, _⟩ => show win0_7.index t (1 : Fin 2) * 256 + 1 * o.val = o.val; omega

/-- The second bias row. -/
theorem b2_block (t : Fin cfg0.N) (o : Fin 256) :
    iblk0 V c 8 t (ix2 (0 : Fin 1) o) = V c main_v15 (ix2 (0 : Fin 1) o) := by
  obtain ⟨-, -, -, -, -, -, -, -, ⟨e0, e1⟩, -⟩ := index_facts t
  unfold iblk0
  show V c main_v15 (((cfg0.win 8).blk t).view.emb (ix2 (0 : Fin 1) o)) = V c main_v15 (ix2 (0 : Fin 1) o)
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * o.val = o.val; omega

/-! ## The output block -/

/-- Entry `(p, q)` of the output block at point `t` is entry `(4000·t + p, q)` of the output array. -/
theorem out_emb (t : Fin cfg0.N) (p : Fin 4000) (q : Fin 256) (r : Fin 320000) (hr : r.val = 4000 * t.val + p.val) :
    ((cfg0.win 9).blk t).view.emb (ix2 p q) = ix2 r q := by
  obtain ⟨-, -, -, -, -, -, -, -, -, e0, e1⟩ := index_facts t
  refine funext fun a => Fin.ext ?_
  match a with
  | ⟨0, _⟩ => show win0_9.index t (0 : Fin 2) * 4000 + 1 * p.val = r.val; omega
  | ⟨1, _⟩ => show win0_9.index t (1 : Fin 2) * 256 + 1 * q.val = q.val; omega

end Cert.KernelIdeal.MsgRegion

end
-- ==== Proof.MsgFlush.lean ====
/-
  What one grid point of the message network writes back.

  At point `t` the body leaves in its output block, at entry `(p, q)`, its value on the nine input blocks of that
  point. Row `p` of the three moving blocks is row `4000·t + p` of the edge arrays and the six resident blocks
  are the parameter arrays, so that value is the message of edge `4000·t + p`, output unit `q`; and entry
  `(p, q)` of the output block is written back to entry `(4000·t + p, q)` of the output array. In other words:
  what point `t` writes back is block `t` of the specification's array of all messages.
-/
import proofs.«138037_j66194035965974_1_alg».proof.Proof.MsgBody
import proofs.«138037_j66194035965974_1_alg».proof.Proof.MsgBlocks
import Idealize.ShloMosaic.Lib.Pipeline.Value

noncomputable section

open Idealize.ShloMosaic Idealize.ShloMosaic.TcCoe Idealize.SL.Sem Idealize.ShloMosaic.ValueIdx
open Cert.KernelIdeal Cert.KernelIdeal.Gen
open Cert.MsgPass (messages messages_apply)

namespace Cert.KernelIdeal.MsgRegion

/- The contents of the arrays when the region is entered, and the core. -/
variable (V : (c : Dev nD) → (b : Ref sig .tc) → Buf (Elt Ideal) ((c : Thread nD τ).loc b)) (c : Dev nD)

/-- The body loads and stores its whole staging buffers: through the rectangle at offsets `(0, 0)`. -/
theorem zero_offsets : (![0, 0] : Fin 2 → Nat) = fun _ => 0 := funext fun a => by fin_cases a <;> rfl

/-- The body's value on the blocks of point `t`, at an entry `y` of the output block, is the array of all messages
    at the place of the output array where that entry sits: with `y = (p, q)` that place is `(4000·t + p, q)`
    (below 320000 because `t < 80` and `p < 4000`), and the nine blocks agree with the nine arrays along the
    rows that the body's value at row `p` reads. -/
theorem block_entry (t : Fin cfg0.N) (y : S4000x256.Idx) :
    k0_pay1 (k0_pay2 (iblk0 V c 0 t) (iblk0 V c 1 t) (iblk0 V c 2 t) (iblk0 V c 3 t) (iblk0 V c 4 t) (iblk0 V c 5 t) (iblk0 V c 6 t))
        (k0_pay3 (iblk0 V c 0 t) (iblk0 V c 1 t) (iblk0 V c 2 t) (iblk0 V c 3 t) (iblk0 V c 4 t) (iblk0 V c 5 t) (iblk0 V c 6 t))
        k0_pay4 (iblk0 V c 7 t) (iblk0 V c 8 t) y
      = messages (V c main_v8) (V c main_v9) (V c main_v10) (V c main_v11) (V c main_v12) (V c main_v13)
          (V c main_v14) (V c main_arg5) (V c main_v15) (((cfg0.win 9).blk t).view.emb y) := by
  obtain ⟨p, q, rfl⟩ : ∃ (p : Fin 4000) (q : Fin 256), y = ix2 p q := ⟨y 0, y 1, eq_ix2 y⟩
  have hN : cfg0.N = 80 := N_0
  have hr : 4000 * t.val + p.val < 320000 := by have := t.isLt; have := p.isLt; omega
  rw [out_emb t p q ⟨_, hr⟩ rfl, messages_apply]
  exact payload_eq_msgAt _ _ _ _ _ _ _ _ _ _ _ _ _ _ _ _ _ _ ⟨_, hr⟩ p
    (fun j => src_block V c t p j _ rfl) (fun j => dst_block V c t p j _ rfl) (fun j => edge_block V c t p j _ rfl)
    (wS_block V c t) (wD_block V c t) (wE_block V c t) (b1_block V c t) (w2_block V c t) (b2_block V c t) q

/-- WHAT POINT `t` WRITES BACK is block `t` of the array of all messages of the arrays as the region finds them.
    The output buffer after the body holds the one store's value (a store through the whole buffer leaves its
    value, a load through a whole buffer reads its contents), and the write-back moves all of it. -/
theorem flushed_eq (t : Fin cfg0.N) :
    (dat0 (F := Ideal) V c).flushed 9 t
      = ((cfg0.win 9).blk t).view.read (Elt Ideal)
          (messages (V c main_v8) (V c main_v9) (V c main_v10) (V c main_v11) (V c main_v12) (V c main_v13)
            (V c main_v14) (V c main_arg5) (V c main_v15)) := by
  show (cfg0.win 9).cut (grid0.coords t) ((dat0 V c).after 9 t) = _
  rw [after0_9]
  unfold out0_9
  rw [View.canon_unit_zero zero_offsets]
  simp only [View.ld_unit_zero (S := S4000x128) zero_offsets, View.ld_unit_zero (S := S4000x64) zero_offsets,
    View.ld_unit_zero (S := S128x256) zero_offsets, View.ld_unit_zero (S := S64x256) zero_offsets,
    View.ld_unit_zero (S := S1x256) zero_offsets, View.ld_unit_zero (S := S256x256) zero_offsets]
  funext y
  exact block_entry V c t y

end Cert.KernelIdeal.MsgRegion

end
-- ==== Proof.MsgCover.lean ====
/-
  The output blocks of the message network tile the output array.

  The output array has 320000 rows and 256 columns; the block of point `t` is rows `4000·t … 4000·t + 3999`, all
  columns. Every point writes its block back. So the entry `(r, q)` lies in the block of point `r / 4000`, which is
  one of the 80 points because `r < 320000 = 80 · 4000`.
-/
import proofs.«138037_j66194035965974_1_alg».proof.Proof.MsgBlocks
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.MsgRegion

/-- An index of the output array is in point `t`'s block iff each coordinate is in the block's range on its axis:
    from (block number) × (block extent), for (block extent) places. -/
theorem mem_blk (t : Fin cfg0.N) (i : S320000x256.Idx) :
    i ∈ ((cfg0.win 9).blk t).view.set
      ↔ ∀ a : Fin 2, win0_9.index t a * S4000x256.size a ≤ (i a).val
          ∧ (i a).val < win0_9.index t a * S4000x256.size a + S4000x256.size a := by
  show i ∈ ((View.whole main_v16).slice (win0_9.rect t)).set ↔ _
  rw [View.set_slice_whole, Rect.mem_set_unit]
  exact Iff.rfl

/-- Every index of the output array is in the block of a point that writes back: the point `r / 4000` for row `r`. -/
theorem cover (i : S320000x256.Idx) :
    ∃ t : Fin cfg0.N, (cfg0.win 9).flush t = true ∧ i ∈ ((cfg0.win 9).blk t).view.set := by
  have hN : cfg0.N = 80 := N_0
  have h0 : (i 0).val < 320000 := (i 0).isLt
  have h1 : (i 1).val < 256 := (i 1).isLt
  have ht : (i 0).val / 4000 < cfg0.N := by omega
  obtain ⟨-, -, -, -, -, -, -, -, -, e0, e1⟩ := index_facts ⟨(i 0).val / 4000, ht⟩
  refine ⟨⟨(i 0).val / 4000, ht⟩, flush0_9 _, ?_⟩
  rw [mem_blk]
  intro a
  match a with
  | ⟨0, _⟩ =>
    -- rows: 4000 · (r / 4000) ≤ r < 4000 · (r / 4000) + 4000
    show win0_9.index ⟨(i 0).val / 4000, ht⟩ (0 : Fin 2) * 4000 ≤ (i 0).val
      ∧ (i 0).val < win0_9.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    -- columns: the block has them all
    show win0_9.index ⟨(i 0).val / 4000, ht⟩ (1 : Fin 2) * 256 ≤ (i 1).val
      ∧ (i 1).val < win0_9.index ⟨(i 0).val / 4000, ht⟩ (1 : Fin 2) * 256 + 256
    rw [e1]
    omega

end Cert.KernelIdeal.MsgRegion

end
-- ==== Proof.MsgArray.lean ====
/-
  The array the message network leaves: all messages.

  Every one of the 80 grid points writes back block `t` of the specification's array `messages` of the nine
  operand arrays as the region finds them, and the blocks tile the output array. An entry of the output array
  therefore ends at the value the last point covering it wrote — and every point covering it wrote the same
  function's value there.
-/
import proofs.«138037_j66194035965974_1_alg».proof.Proof.MsgFlush
import proofs.«138037_j66194035965974_1_alg».proof.Proof.MsgCover

noncomputable section

open Idealize.ShloMosaic Idealize.ShloMosaic.TcCoe Idealize.SL.Sem
open Cert.KernelIdeal Cert.KernelIdeal.Gen

namespace Cert.KernelIdeal.MsgRegion

/-- THE MESSAGE REGION'S VALUE: after its 80 points the output array holds the message of every edge, whatever the
    arrays held when the region was entered. -/
theorem final (V : (c : Dev nD) → (b : Ref sig .tc) → Buf (Elt Ideal) ((c : Thread nD τ).loc b)) (c : Dev nD) :
    (dat0 (F := Ideal) V c).arrAt 9 cfg0.N
      = Cert.MsgPass.messages (V c main_v8) (V c main_v9) (V c main_v10) (V c main_v11) (V c main_v12) (V c main_v13)
          (V c main_v14) (V c main_arg5) (V c main_v15) :=
  (dat0 V c).arrAt_eq_of_cover 9 _ (fun t _ => flushed_eq V c t) cover

end Cert.KernelIdeal.MsgRegion

end
-- ==== Proof.UpdMatmul.lean ====
/-
  A matrix product into a zero accumulator, read at one entry.

  Over the extended reals the matrix unit's product of an `m × k` matrix `a` and a `k × n` matrix `b`, added
  into an accumulator that holds zero everywhere, has at row `p` and column `q` the value

      Σ_κ a p κ · b κ q ,

  the sum running over the `k` positions of the contracted axis. The library states this with the operands read at
  the index functions of the product's dimension numbers and the sum taken over the contraction's own index type;
  here the dimension numbers are those of the plain product (rows by columns, one contracted axis, no batch axis),
  the index functions are evaluated, and the contraction's index type is exchanged for `Fin k`.

  The update network uses three such products: the node features by their weights (2000 × 128 by 128 × 256), the
  summed messages by theirs (2000 × 256 by 256 × 256), and the activated hidden layer by the second layer's
  weights (2000 × 256 by 256 × 128).
-/
import proofs.«138037_j66194035965974_1_alg».proof.Proof.Gen.KernelIdeal
import Idealize.ShloMosaic.Lib.ValueIdx
import Idealize.ShloMosaic.PureOps.Ideal.Laws

noncomputable section

open Idealize.ShloMosaic Idealize.ShloMosaic.ValueIdx
open Cert.KernelIdeal

namespace Cert.KernelIdeal.UpdRegion

/-- THE PLAIN PRODUCT INTO ZERO, AT AN ENTRY. `D` is any record of dimension numbers between the shapes
    `[m, k]`, `[k, n]` and `[m, n]` that contracts one axis of extent `k` (`hr`, `hs`) and whose index functions
    are the plain product's: the left operand is read at the result's row and the contraction position (`hl0`,
    `hl1`), the right operand at the contraction position and the result's column (`hr0`, `hr1`). Then the product
    into the zero accumulator is the sum of the `k` products along the contracted axis.

    The library gives the sum over the contraction's index type; the bijection between that type and `Fin k`
    (a one-axis index is its one coordinate) re-indexes it, and under the sum the two operand indices are
    compared coordinate by coordinate. -/
theorem matmul_zero_ix2 {m k n : Nat} {φ₁ φ₂ : FTy}
    (D : DotDims ⟨2, ![m, k]⟩ ⟨2, ![k, n]⟩ ⟨2, ![m, n]⟩) (hr : D.contr.rank = 1)
    (hs : D.contr.size ⟨0, by omega⟩ = k)
    (hl0 : ∀ j κ, (D.lhsIdx j κ 0).val = (j 0).val)
    (hl1 : ∀ j κ, (D.lhsIdx j κ 1).val = (κ ⟨0, by omega⟩).val)
    (hr0 : ∀ j κ, (D.rhsIdx j κ 0).val = (κ ⟨0, by omega⟩).val)
    (hr1 : ∀ j κ, (D.rhsIdx j κ 1).val = (j 1).val)
    (prec : Option ContractPrecision) (a : FVec Ideal ⟨2, ![m, k]⟩ φ₁) (b : FVec Ideal ⟨2, ![k, n]⟩ φ₂)
    (p : Fin m) (q : Fin n) :
    matmul D prec a b (constant (F := Ideal) ⟨2, ![m, n]⟩ .f32 0x00000000#32) (ix2 p q)
      = ∑ κ : Fin k, a (ix2 p κ) * b (ix2 κ q) := by
  -- zero plus the sum over the contraction's index type, the zero dropped
  refine (Ideal.matmul_constant_zero_apply D prec a b (ix2 p q)).trans ?_
  -- the same sum over `Fin k`
  rw [← Equiv.sum_comp (contrEquiv1 D k hr hs).symm]
  refine Finset.sum_congr rfl fun κ _ => ?_
  -- the contraction index that `κ` names has `κ` as its one coordinate
  have hκ := contrEquiv1_symm_val D k hr hs κ
  -- the left operand is read at row `p`, column `κ`
  have el : D.lhsIdx (ix2 p q) ((contrEquiv1 D k hr hs).symm κ) = ix2 p κ := funext fun ax => Fin.ext (by
    match ax with
    | ⟨0, _⟩ => exact hl0 _ _
    | ⟨1, _⟩ => exact (hl1 _ _).trans hκ)
  -- the right operand at row `κ`, column `q`
  have er : D.rhsIdx (ix2 p q) ((contrEquiv1 D k hr hs).symm κ) = ix2 κ q := funext fun ax => Fin.ext (by
    match ax with
    | ⟨0, _⟩ => exact (hr0 _ _).trans hκ
    | ⟨1, _⟩ => exact hr1 _ _)
  rw [el, er]

/-! ## The update network's three products

Each program record below contracts the left operand's columns with the right operand's rows, has no batch axis,
and lists the left operand's rows and then the right operand's columns as the result's axes. On the two axes that
are not contracted its index functions compute to the result's coordinate (`rfl`); on the contracted axis they
are the contraction position, by the library's lemma for a single contracted axis. -/

/-- Node features (rounded to bf16, which changes nothing over the extended reals) by their weights:
    2000 × 128 by 128 × 256. -/
theorem nodeProduct_apply {φ₁ φ₂ : FTy} (a : FVec Ideal S2000x128 φ₁) (b : FVec Ideal S128x256 φ₂) (p : Fin 2000) (h : Fin 256) :
    matmul dot_S2000x128_S128x256_S2000x256_1_0_0_1_n_n none a b (constant (F := Ideal) S2000x256 .f32 0x00000000#32) (ix2 p h)
      = ∑ j : Fin 128, a (ix2 p j) * b (ix2 j h) :=
  matmul_zero_ix2 dot_S2000x128_S128x256_S2000x256_1_0_0_1_n_n rfl rfl
    (fun _ _ => rfl) (fun j κ => dot_S2000x128_S128x256_S2000x256_1_0_0_1_n_n.lhsIdx_val_of_single rfl j κ)
    (fun j κ => dot_S2000x128_S128x256_S2000x256_1_0_0_1_n_n.rhsIdx_val_of_single rfl j κ) (fun _ _ => rfl) none a b p h

/-- Summed messages by their weights: 2000 × 256 by 256 × 256. -/
theorem aggProduct_apply {φ₁ φ₂ : FTy} (a : FVec Ideal S2000x256 φ₁) (b : FVec Ideal S256x256 φ₂) (p : Fin 2000) (h : Fin 256) :
    matmul dot_S2000x256_S256x256_S2000x256_1_0_0_1_n_n none a b (constant (F := Ideal) S2000x256 .f32 0x00000000#32) (ix2 p h)
      = ∑ j : Fin 256, a (ix2 p j) * b (ix2 j h) :=
  matmul_zero_ix2 dot_S2000x256_S256x256_S2000x256_1_0_0_1_n_n rfl rfl
    (fun _ _ => rfl) (fun j κ => dot_S2000x256_S256x256_S2000x256_1_0_0_1_n_n.lhsIdx_val_of_single rfl j κ)
    (fun j κ => dot_S2000x256_S256x256_S2000x256_1_0_0_1_n_n.rhsIdx_val_of_single rfl j κ) (fun _ _ => rfl) none a b p h

/-- Activated hidden layer by the second layer's weights: 2000 × 256 by 256 × 128. -/
theorem outProduct_apply {φ₁ φ₂ : FTy} (a : FVec Ideal S2000x256 φ₁) (b : FVec Ideal S256x128 φ₂) (p : Fin 2000) (o : Fin 128) :
    matmul dot_S2000x256_S256x128_S2000x128_1_0_0_1_n_n none a b (constant (F := Ideal) S2000x128 .f32 0x00000000#32) (ix2 p o)
      = ∑ k : Fin 256, a (ix2 p k) * b (ix2 k o) :=
  matmul_zero_ix2 dot_S2000x256_S256x128_S2000x128_1_0_0_1_n_n rfl rfl
    (fun _ _ => rfl) (fun j κ => dot_S2000x256_S256x128_S2000x128_1_0_0_1_n_n.lhsIdx_val_of_single rfl j κ)
    (fun j κ => dot_S2000x256_S256x128_S2000x128_1_0_0_1_n_n.rhsIdx_val_of_single rfl j κ) (fun _ _ => rfl) none a b p o

end Cert.KernelIdeal.UpdRegion

end
-- ==== Proof.UpdBody.lean ====
/-
  What one step of the tiled update network computes, entry by entry.

  At every grid point the body holds, in its staging buffers, 2000 rows of the node features (`x0`, 2000 × 128)
  and of the summed messages (`x1`, 2000 × 256), and the whole of the two first-layer weight matrices (`x2`,
  128 × 256; `x3`, 256 × 256), the first bias row (`x4`, 1 × 256), the second-layer weights (`x5`, 256 × 128)
  and the second bias row (`x6`, 1 × 128). It stores the 2000 × 128 array whose entry at row `p`, column `o` is

      hidden p h = (Σ_j x0 p j · x2 j h + Σ_j x1 p j · x3 j h) + x4 0 h
      result p o = Σ_k gelu (hidden p k) · x5 k o + x6 0 o .

  `payload_apply` reads the stored value at an entry and finds exactly this. Two things make it short. Over the
  extended reals a change of number format is the identity, so the roundings to bf16 in front of each product
  disappear; and a product into a zero accumulator is the plain sum along the contracted axis (the three lemmas
  of the sibling module on products). What is left is pointwise: the activation, written out on whole arrays, is
  `gelu` of each entry (`gelu_apply`), and a bias row broadcast down the 2000 rows is read at its own column.

  `block_row` then says what tiling needs: row `p` of the result depends on row `p` of the two row blocks only,
  so if those two rows are row `r` of the full arrays, the result's row `p` is row `r` of the specification's
  `updated`.
-/
import proofs.«138037_j66194035965974_1_alg».proof.Proof.Gen.KernelIdeal.Skeleton
import proofs.«138037_j66194035965974_1_alg».proof.Proof.Spec
import proofs.«138037_j66194035965974_1_alg».proof.Proof.UpdMatmul
import Idealize.ShloMosaic.Lib.ValueLayout

noncomputable section

open Idealize.ShloMosaic Idealize.ShloMosaic.ValueIdx
open Cert.KernelIdeal Cert.KernelIdeal.Gen

namespace Cert.KernelIdeal.UpdRegion

/-- THE ACTIVATION IS POINTWISE. The body computes the tanh form of GELU on a whole array `h`, one array
    operation at a time: `h · (½ · (1 + tanh (κ · (h + γ · (h · (h · h))))))`, each constant a scalar spread over
    the shape. Every one of these operations acts entry by entry, so the entry at `i` is the specification's
    `gelu` of `h i`: the two sides are the same expression, by unfolding. -/
theorem gelu_apply {s : Shape} (h : FVec Ideal s .f32) (i : s.Idx) :
    mulf h (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf h (mulf (broadcast s (Scalar.ofBits (F := Ideal) .f32 0x3D372713#32)) (mulf h (mulf h h)))))))) i
      = Cert.MsgPass.gelu (h i) := rfl

/-- THE STORED VALUE AT AN ENTRY: row `p`, column `o` of what the body stores is the two-layer perceptron of
    row `p` of the two row blocks. -/
theorem payload_apply (x0 : Vec Ideal S2000x128 .f32) (x1 : Vec Ideal S2000x256 .f32) (x2 : Vec Ideal S128x256 .f32)
    (x3 : Vec Ideal S256x256 .f32) (x4 : Vec Ideal S1x256 .f32) (x5 : Vec Ideal S256x128 .f32) (x6 : Vec Ideal S1x128 .f32)
    (p : Fin 2000) (o : Fin 128) :
    k1_pay1 (F := Ideal) (k1_pay2 x0 x1 x2 x3 x4 x5) (k1_pay3 x6) (ix2 p o)
      = (∑ k : Fin 256, Cert.MsgPass.gelu (((∑ j : Fin 128, x0 (ix2 p j) * x2 (ix2 j k))
            + (∑ j : Fin 256, x1 (ix2 p j) * x3 (ix2 j k))) + x4 (ix2 0 k)) * x5 (ix2 k o)) + x6 (ix2 0 o) := by
  -- the last operation: the second layer's product plus the second bias row, broadcast down the rows
  unfold k1_pay1 k1_pay3
  dsimp only
  rw [addf_apply, broadcastTo_1b_ab_apply, shapeCast_self]
  refine congrArg (· + x6 (ix2 0 o)) ?_
  -- the second layer's product: a sum over the 256 hidden units
  unfold k1_pay2
  refine (outProduct_apply _ _ p o).trans ?_
  refine Finset.sum_congr rfl fun k _ => ?_
  -- its two factors, the roundings to bf16 dropped: the activated hidden unit and the weight
  rw [truncf_apply, truncf_apply]
  refine congrArg (· * x5 (ix2 k o)) ?_
  -- the activation is `gelu` of the hidden unit before activation
  refine (gelu_apply _ _).trans ?_
  refine congrArg Cert.MsgPass.gelu ?_
  -- which is the two first-layer products added, plus the first bias row
  rw [addf_apply, addf_apply, nodeProduct_apply, aggProduct_apply, broadcastTo_1b_ab_apply, shapeCast_self]
  simp only [truncf_apply, shapeCast_self]

/-- ROW BY ROW. If row `p` of the node block and of the message block are row `r` of the full arrays `node` and
    `agg`, then row `p` of what the body stores is row `r` of `updated` of those arrays and of the weights and
    biases in the other five buffers: the two sums over `j` are the only places the row blocks are read. -/
theorem block_row (node : Cert.MsgPass.Mat 20000 128) (agg : Cert.MsgPass.Mat 20000 256)
    (x0 : Vec Ideal S2000x128 .f32) (x1 : Vec Ideal S2000x256 .f32) (x2 : Vec Ideal S128x256 .f32)
    (x3 : Vec Ideal S256x256 .f32) (x4 : Vec Ideal S1x256 .f32) (x5 : Vec Ideal S256x128 .f32) (x6 : Vec Ideal S1x128 .f32)
    (p : Fin 2000) (o : Fin 128) (r : Fin 20000)
    (h0 : ∀ j : Fin 128, x0 (ix2 p j) = node (ix2 r j)) (h1 : ∀ j : Fin 256, x1 (ix2 p j) = agg (ix2 r j)) :
    k1_pay1 (F := Ideal) (k1_pay2 x0 x1 x2 x3 x4 x5) (k1_pay3 x6) (ix2 p o)
      = Cert.MsgPass.updated node agg x2 x3 x4 x5 x6 (ix2 r o) := by
  rw [payload_apply, Cert.MsgPass.updated_apply]
  unfold Cert.MsgPass.updAt Cert.MsgPass.updHidden
  simp only [h0, h1]

end Cert.KernelIdeal.UpdRegion

end
-- ==== Proof.UpdOut.lean ====
/-
  What the body leaves in the output's staging buffer, row by row.

  The body makes one store, of the whole 2000 × 128 staging buffer, and reads each of its seven inputs once, whole.
  So the buffer it leaves is the stored value itself, computed from the seven buffers' contents (`out_eq`); and
  by the row-by-row reading of that value (the sibling module on the body), its row `p` is row `r` of the
  specification's `updated` of seven full arrays as soon as rows `p` of the two row blocks are rows `r` of the first
  two arrays and the other five buffers hold the other five arrays (`out_row`). Everything here is stated for
  arbitrary contents of the buffers; the pipeline's blocks are put in later.
-/
import proofs.«138037_j66194035965974_1_alg».proof.Proof.Gen.KernelIdeal.Frame
import proofs.«138037_j66194035965974_1_alg».proof.Proof.UpdBody
import Idealize.ShloMosaic.Lib.Pipeline.Value

noncomputable section

open Idealize.ShloMosaic Idealize.ShloMosaic.ValueIdx
open Cert.KernelIdeal Cert.KernelIdeal.Gen

namespace Cert.KernelIdeal.UpdRegion

/-- The body's loads and its store all start at offsets (0, 0). -/
theorem zero_offsets : (![0, 0] : Fin 2 → Nat) = fun _ => 0 := funext fun a => by fin_cases a <;> rfl

/-- One store covering the whole buffer leaves its value there, and a load of a whole buffer reads its contents:
    the output buffer after the body is the stored value of the seven input buffers' contents. -/
theorem out_eq (x0 : Vec Ideal S2000x128 .f32) (x1 : Vec Ideal S2000x256 .f32) (x2 : Vec Ideal S128x256 .f32)
    (x3 : Vec Ideal S256x256 .f32) (x4 : Vec Ideal S1x256 .f32) (x5 : Vec Ideal S256x128 .f32) (x6 : Vec Ideal S1x128 .f32) :
    out1_7 (F := Ideal) x0 x1 x2 x3 x4 x5 x6 = k1_pay1 (k1_pay2 x0 x1 x2 x3 x4 x5) (k1_pay3 x6) := by
  unfold out1_7
  rw [View.canon_unit_zero zero_offsets]
  simp only [View.ld_unit_zero (S := S2000x128) zero_offsets, View.ld_unit_zero (S := S2000x256) zero_offsets,
    View.ld_unit_zero (S := S128x256) zero_offsets, View.ld_unit_zero (S := S256x256) zero_offsets,
    View.ld_unit_zero (S := S1x256) zero_offsets, View.ld_unit_zero (S := S256x128) zero_offsets,
    View.ld_unit_zero (S := S1x128) zero_offsets]

/-- ROW `p` OF THE OUTPUT BUFFER IS ROW `r` OF `updated`, when row `p` of the node block and of the message block
    are row `r` of `node` and `agg` (`h0`, `h1`) and the five other buffers hold the weights and biases
    (`h2` … `h6`). -/
theorem out_row (node : Cert.MsgPass.Mat 20000 128) (agg : Cert.MsgPass.Mat 20000 256)
    (wN : Cert.MsgPass.Mat 128 256) (wA : Cert.MsgPass.Mat 256 256) (b1 : Cert.MsgPass.Mat 1 256)
    (w2 : Cert.MsgPass.Mat 256 128) (b2 : Cert.MsgPass.Mat 1 128)
    (x0 : Vec Ideal S2000x128 .f32) (x1 : Vec Ideal S2000x256 .f32) (x2 : Vec Ideal S128x256 .f32)
    (x3 : Vec Ideal S256x256 .f32) (x4 : Vec Ideal S1x256 .f32) (x5 : Vec Ideal S256x128 .f32) (x6 : Vec Ideal S1x128 .f32)
    (p : Fin 2000) (o : Fin 128) (r : Fin 20000)
    (h0 : ∀ j : Fin 128, x0 (ix2 p j) = node (ix2 r j)) (h1 : ∀ j : Fin 256, x1 (ix2 p j) = agg (ix2 r j))
    (h2 : x2 = wN) (h3 : x3 = wA) (h4 : x4 = b1) (h5 : x5 = w2) (h6 : x6 = b2) :
    out1_7 (F := Ideal) x0 x1 x2 x3 x4 x5 x6 (ix2 p o) = Cert.MsgPass.updated node agg wN wA b1 w2 b2 (ix2 r o) := by
  subst h2 h3 h4 h5 h6
  rw [out_eq]
  exact block_row node agg x0 x1 x2 x3 x4 x5 x6 p o r h0 h1

end Cert.KernelIdeal.UpdRegion

end
-- ==== Proof.UpdBlocks.lean ====
/-
  The update region's input blocks, read as pieces of the arrays they come from.

  The region runs over a grid of 10 points. At point `t` the pipeline hands the body one block of each of its
  seven input arrays. Two of them move with the point: the node features (20000 × 128) and the summed messages
  (20000 × 256) are cut into ten bands of 2000 rows, and point `t` gets band `t`: rows 2000·t … 2000·t + 1999,
  all columns. The other five (the two first-layer weight matrices, the first bias row, the second-layer weights,
  the second bias row) are not cut at all: their one block is the whole array, at every point.

  A block's element at coordinate `y` sits in the array, on each axis, at

      (the block's index on that axis) × (the block's size on that axis) + y .

  So everything here comes from the block indices, which the program gives as printed index maps of the grid
  coordinate. `block_indices` evaluates them once, at each of the ten points. The two moving windows then read
  row `2000·t + p` of their arrays at row `p` of the block (`nodeBlock_apply`, `aggBlock_apply`), and the five
  fixed windows' blocks are their arrays (`nodeWeights_block` … `outBias_block`).

  The arrays are read as the region finds them: `V` is the contents of every buffer at the region's entry, an
  arbitrary parameter here.
-/
import proofs.«138037_j66194035965974_1_alg».proof.Proof.Gen.KernelIdeal.Frame
import Idealize.ShloMosaic.Lib.ValueIdx

noncomputable section

open Idealize.ShloMosaic Idealize.ShloMosaic.TcCoe Idealize.SL.Sem Idealize.ShloMosaic.ValueIdx
open Cert.KernelIdeal Cert.KernelIdeal.Gen

namespace Cert.KernelIdeal.UpdRegion

variable (V : (c : Dev nD) → (b : Ref sig .tc) → Buf (Elt Ideal) ((c : Thread nD τ).loc b))

/-- THE BLOCK INDICES, at every point of the grid: the two row-banded inputs and the output are at band `t` of
    the rows and at the one band of the columns; the five uncut inputs are at block (0, 0). The index maps are
    closed terms of the grid coordinate and the grid has ten points, so this is decided by evaluation. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- A point of the grid is one of ten, with the bound written as the numeral. -/
theorem point_lt (t : Fin cfg1.N) : t.val < 10 := lt_of_lt_of_eq t.isLt N_1

/-! ## The two row-banded inputs -/

/-- Row `p` of the node-feature block at point `t` is row `2000·t + p` of the node features: on the row axis the
    block index is `t` and the block size 2000; on the column axis the index is 0, so the column is kept. -/
theorem nodeBlock_apply (c : Dev nD) (t : Fin cfg1.N) (p : Fin 2000) (j : Fin 128) (r : Fin 20000)
    (hr : r.val = 2000 * t.val + p.val) :
    (iblk1 V c 0 t : Vec Ideal S2000x128 .f32) (ix2 p j) = (V c main_v27 : S20000x128.Idx → EReal) (ix2 r j) := by
  obtain ⟨e0, e1, -⟩ := block_indices t
  unfold iblk1
  show V c main_v27 (((cfg1.win 0).blk t).view.emb (ix2 p j)) = V c main_v27 (ix2 r j)
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * j.val = j.val; rw [e1]; omega

/-- Row `p` of the summed-message block at point `t` is row `2000·t + p` of the summed messages. -/
theorem aggBlock_apply (c : Dev nD) (t : Fin cfg1.N) (p : Fin 2000) (j : Fin 256) (r : Fin 20000)
    (hr : r.val = 2000 * t.val + p.val) :
    (iblk1 V c 1 t : Vec Ideal S2000x256 .f32) (ix2 p j) = (V c main_v26 : S20000x256.Idx → EReal) (ix2 r j) := by
  obtain ⟨-, -, e0, e1, -⟩ := block_indices t
  unfold iblk1
  show V c main_v26 (((cfg1.win 1).blk t).view.emb (ix2 p j)) = V c main_v26 (ix2 r j)
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * j.val = j.val; rw [e1]; omega

/-! ## The five uncut inputs

Each is one block, the size of its array, at block index (0, 0): an element's coordinates in the block are its
coordinates in the array. -/

/-- The node-feature weights (128 × 256), whole at every point. -/
theorem nodeWeights_block (c : Dev nD) (t : Fin cfg1.N) :
    (iblk1 V c 2 t : Vec Ideal S128x256 .f32) = (V c main_v28 : S128x256.Idx → EReal) := by
  obtain ⟨-, -, -, -, -, -, e0, e1, -⟩ := block_indices t
  unfold iblk1
  funext x
  show V c main_v28 (((cfg1.win 2).blk t).view.emb x) = V c main_v28 x
  refine congrArg _ (funext fun a => Fin.ext ?_)
  match a with
  | ⟨0, _⟩ => show win1_2.index t (0 : Fin 2) * 128 + 1 * (x 0).val = (x 0).val; rw [e0]; omega
  | ⟨1, _⟩ => show win1_2.index t (1 : Fin 2) * 256 + 1 * (x 1).val = (x 1).val; rw [e1]; omega

/-- The summed-message weights (256 × 256), whole at every point. -/
theorem aggWeights_block (c : Dev nD) (t : Fin cfg1.N) :
    (iblk1 V c 3 t : Vec Ideal S256x256 .f32) = (V c main_v29 : S256x256.Idx → EReal) := by
  obtain ⟨-, -, -, -, -, -, -, -, e0, e1, -⟩ := block_indices t
  unfold iblk1
  funext x
  show V c main_v29 (((cfg1.win 3).blk t).view.emb x) = V c main_v29 x
  refine congrArg _ (funext fun a => Fin.ext ?_)
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- The first layer's bias row (1 × 256), whole at every point. -/
theorem hiddenBias_block (c : Dev nD) (t : Fin cfg1.N) :
    (iblk1 V c 4 t : Vec Ideal S1x256 .f32) = (V c main_v30 : S1x256.Idx → EReal) := by
  obtain ⟨-, -, -, -, -, -, -, -, -, -, e0, e1, -⟩ := block_indices t
  unfold iblk1
  funext x
  show V c main_v30 (((cfg1.win 4).blk t).view.emb x) = V c main_v30 x
  refine congrArg _ (funext fun a => Fin.ext ?_)
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The second layer's weights (256 × 128), whole at every point. -/
theorem outWeights_block (c : Dev nD) (t : Fin cfg1.N) :
    (iblk1 V c 5 t : Vec Ideal S256x128 .f32) = (V c main_arg9 : S256x128.Idx → EReal) := by
  obtain ⟨-, -, -, -, -, -, -, -, -, -, -, -, e0, e1, -⟩ := block_indices t
  unfold iblk1
  funext x
  show V c main_arg9 (((cfg1.win 5).blk t).view.emb x) = V c main_arg9 x
  refine congrArg _ (funext fun a => Fin.ext ?_)
  match a with
  | ⟨0, _⟩ => show win1_5.index t (0 : Fin 2) * 256 + 1 * (x 0).val = (x 0).val; rw [e0]; omega
  | ⟨1, _⟩ => show win1_5.index t (1 : Fin 2) * 128 + 1 * (x 1).val = (x 1).val; rw [e1]; omega

/-- The second layer's bias row (1 × 128), whole at every point. -/
theorem outBias_block (c : Dev nD) (t : Fin cfg1.N) :
    (iblk1 V c 6 t : Vec Ideal S1x128 .f32) = (V c main_v31 : S1x128.Idx → EReal) := by
  obtain ⟨-, -, -, -, -, -, -, -, -, -, -, -, -, -, e0, e1⟩ := block_indices t
  unfold iblk1
  funext x
  show V c main_v31 (((cfg1.win 6).blk t).view.emb x) = V c main_v31 x
  refine congrArg _ (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

end Cert.KernelIdeal.UpdRegion

end
-- ==== Proof.UpdArray.lean ====
/-
  From the ten blocks to the array: after the update region the output array is `updated`.

  At grid point `t` the pipeline writes the output's staging buffer back to band `t` of the output array: rows
  2000·t … 2000·t + 1999, all 128 columns. Three facts give the array after the run.

  * `flushed_eq`: what point `t` writes back is band `t` of the ONE array `updated node agg wN wA b1 w2 b2`, the
    specification's function of the seven input arrays as the region finds them. Row `p` of the staging buffer is
    row `2000·t + p` of the output array; at point `t` the two row blocks hold rows 2000·t … of `node` and `agg`
    and the five other buffers hold the weights and biases whole; so the row-by-row reading of the body's result
    applies with `r = 2000·t + p`.
  * `cover`: every index of the output array lies in some point's band: row `r` lies in band `r / 2000`.
  * The library's statement for a pipelined output whose every written block is a block of one function and whose
    blocks cover the array: the array ends holding that function (`final`). The order of the write-backs does not
    matter, and no point of the grid is ever enumerated except to evaluate the block indices.
-/
import proofs.«138037_j66194035965974_1_alg».proof.Proof.Gen.KernelIdeal.Frame
import proofs.«138037_j66194035965974_1_alg».proof.Proof.Spec
import proofs.«138037_j66194035965974_1_alg».proof.Proof.UpdOut
import proofs.«138037_j66194035965974_1_alg».proof.Proof.UpdBlocks
import Idealize.ShloMosaic.Lib.Pipeline.Value

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.UpdRegion

variable (V : (c : Dev nD) → (b : Ref sig .tc) → Buf (Elt Ideal) ((c : Thread nD τ).loc b))

/-- WHAT POINT `t` WRITES BACK is band `t` of `updated` of the seven arrays as the region finds them. -/
theorem flushed_eq (c : Dev nD) (t : Fin cfg1.N) :
    (dat1 V c).flushed 7 t = ((cfg1.win 7).blk t).view.read (Elt Ideal)
      (Cert.MsgPass.updated (V c main_v27) (V c main_v26) (V c main_v28) (V c main_v29) (V c main_v30) (V c main_arg9)
        (V c main_v31)) := by
  -- what is written back is the staging buffer after the body (the window is not cut at the array's end)
  show (cfg1.win 7).cut (grid1.coords t) ((dat1 V c).after 7 t) = _
  rw [after1_7]
  -- compare at one element `y` of the block: row `y 0` below 2000, column `y 1` below 128
  funext y
  have ht : t.val < 10 := point_lt t
  have hy0 : (y 0).val < 2000 := (y 0).isLt
  have hy1 : (y 1).val < 128 := (y 1).isLt
  obtain ⟨-, -, -, -, e0, e1, -⟩ := block_indices t
  -- its place in the staging buffer …
  have hy : (cfg1.win 7).xinj (grid1.coords t) y = ix2 (⟨(y 0).val, hy0⟩ : Fin 2000) (⟨(y 1).val, hy1⟩ : Fin 128) :=
    funext fun a => by match a with | ⟨0, _⟩ => rfl | ⟨1, _⟩ => rfl
  -- … and in the output array: block index × block size + the coordinate in the block, on each axis
  have hi : ((cfg1.win 7).blk t).view.emb y
      = ix2 (⟨2000 * t.val + (y 0).val, by omega⟩ : Fin 20000) (⟨(y 1).val, hy1⟩ : Fin 128) :=
    funext fun a => Fin.ext (by
      match a with
      | ⟨0, _⟩ => show win1_7.index t (0 : Fin 2) * 2000 + 1 * (y 0).val = 2000 * t.val + (y 0).val; rw [e0]; omega
      | ⟨1, _⟩ => show win1_7.index t (1 : Fin 2) * 128 + 1 * (y 1).val = (y 1).val; rw [e1]; omega)
  show out1_7 (F := Ideal) (iblk1 V c 0 t) (iblk1 V c 1 t) (iblk1 V c 2 t) (iblk1 V c 3 t) (iblk1 V c 4 t) (iblk1 V c 5 t)
      (iblk1 V c 6 t) ((cfg1.win 7).xinj (grid1.coords t) y)
    = Cert.MsgPass.updated (V c main_v27) (V c main_v26) (V c main_v28) (V c main_v29) (V c main_v30) (V c main_arg9)
      (V c main_v31) (((cfg1.win 7).blk t).view.emb y)
  rw [hy, hi]
  -- the row-by-row reading of the body's result, with the seven blocks read off their arrays
  exact out_row _ _ _ _ _ _ _ _ _ _ _ _ _ _ _ _ _
    (fun j => nodeBlock_apply V c t _ j _ rfl) (fun j => aggBlock_apply V c t _ j _ rfl)
    (nodeWeights_block V c t) (aggWeights_block V c t) (hiddenBias_block V c t) (outWeights_block V c t)
    (outBias_block V c t)

/-- An index of the output array is in point `t`'s band iff each coordinate is in the band's range on its axis. -/
theorem mem_blk (t : Fin cfg1.N) (i : S20000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v32).slice (win1_7.rect t)).set ↔ _
  rw [View.set_slice_whole, Rect.mem_set_unit]
  exact Iff.rfl

/-- THE BANDS COVER THE ARRAY: row `r` is in the band of point `r / 2000` (one of the ten, since `r < 20000`), and
    every point writes its band back. -/
theorem cover (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  have hN : cfg1.N = 10 := N_1
  let t : Fin cfg1.N := ⟨(i 0).val / 2000, by rw [hN]; omega⟩
  obtain ⟨-, -, -, -, e0, e1, -⟩ := block_indices t
  have e0' : win1_7.index t (0 : Fin 2) = (i 0).val / 2000 := e0
  refine ⟨t, flush1_7 t, ?_⟩
  rw [mem_blk]
  intro a
  match a with
  | ⟨0, _⟩ =>
    show win1_7.index t (0 : Fin 2) * 2000 ≤ (i 0).val ∧ (i 0).val < win1_7.index t (0 : Fin 2) * 2000 + 2000
    rw [e0']; omega
  | ⟨1, _⟩ =>
    show win1_7.index t (1 : Fin 2) * 128 ≤ (i 1).val ∧ (i 1).val < win1_7.index t (1 : Fin 2) * 128 + 128
    rw [e1]; omega

/-- THE OUTPUT ARRAY AFTER THE REGION is `updated` of the seven input arrays as the region finds them, whatever
    those contents `V` are. -/
theorem final (c : Dev nD) :
    (dat1 (F := Ideal) V c).arrAt 7 cfg1.N
      = Cert.MsgPass.updated (V c main_v27) (V c main_v26) (V c main_v28) (V c main_v29) (V c main_v30) (V c main_arg9)
          (V c main_v31) :=
  (dat1 V c).arrAt_eq_of_cover 7 _ (fun t _ => flushed_eq V c t) cover

end Cert.KernelIdeal.UpdRegion

end
-- ==== Proof.KernelValue.lean ====
/-
  What the tiled program's result buffer holds at the end, as a function of the eleven argument arrays.

  The buffer contents at the boundaries between the program's stretches are a fold from the launch memory. Read
  forwards from the first region's entry (where each operand array is a relaid piece of an argument, or one of the
  two gathers): the message region leaves the specification's messages of the gathered rows in its output array
  and touches no other buffer; the host stretch between the regions scatter-adds those messages into the node rows
  at the flattened destination index and lays out the second region's operands (the node features with the batch
  folded into the rows, the two row bands of the first weight matrix, the biases as one-row matrices); the update
  region leaves the specification's new node features; the last operation folds the rows back to
  `[batch, node, feature]`. Put together this is the term `layer` of the arguments.

  Each host operation is the same operation the plain array program applies, so every value read off a stretch is
  stated with that program's own stage (the gathers, the destination index) and the two spellings meet by
  unfolding definitions; the reductions, gathers and the scatter-add themselves are never opened.
-/
import proofs.«138037_j66194035965974_1_alg».proof.Proof.Gen.KernelIdeal.Frame
import proofs.«138037_j66194035965974_1_alg».proof.Proof.RefLayer
import proofs.«138037_j66194035965974_1_alg».proof.Proof.KernelEntry
import proofs.«138037_j66194035965974_1_alg».proof.Proof.MsgArray
import proofs.«138037_j66194035965974_1_alg».proof.Proof.UpdArray
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Cert.ReferenceIdeal.ReadP (val_main_v3 val_main_v5 val_main_v7 val_main_v38 val_main_v39)
open Cert.ReferenceIdeal.RefValue (edgeMessages aggregated layer)

/-- A buffer that no operation of a stretch writes holds after the stretch what it held before it: the side
    condition, that the buffer is none of the stretch's result buffers, decided operation by operation. -/
macro "not_written_by " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

-- the two programs spell the arguments of these three differently (each its own record of dimension numbers);
-- comparing them argument by argument is all that is ever needed, and unfolding them (folds over every index of a
-- full-size array) never is
attribute [local irreducible] Host.reduce Host.gather Host.scatterAdd

variable (m : (ℓ : Loc nD τ sig) → Buf (Elt Ideal) ℓ) (ρ : Dev nD → PrngReg)

/-! ## The message region: its output array is the specification's messages of the gathered rows -/

theorem messages_at6 (c : Dev nD) : W6 m ρ c (Proc.devRef .tc main_v16) = edgeMessages (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_arr m ρ c 9).trans ((Cert.KernelIdeal.MsgRegion.final (V5 m ρ) c).trans ?_)
  show Cert.MsgPass.messages (W5 m ρ c (Proc.devRef .tc main_v8)) (W5 m ρ c (Proc.devRef .tc main_v9))
    (W5 m ρ c (Proc.devRef .tc main_v10)) (W5 m ρ c (Proc.devRef .tc main_v11)) (W5 m ρ c (Proc.devRef .tc main_v12))
    (W5 m ρ c (Proc.devRef .tc main_v13)) (W5 m ρ c (Proc.devRef .tc main_v14)) (W5 m ρ c (Proc.devRef .tc main_arg5))
    (W5 m ρ c (Proc.devRef .tc main_v15)) = _
  rw [entry_src, entry_dst, entry_edge, entry_wS, entry_wD, entry_wE, entry_b1, entry_w2, entry_b2]
  rfl

/-! ## Between the regions: the scatter-add and the update region's operands -/

/-- A buffer that is none of the message region's arrays leaves the region as it entered it. -/
theorem dstIdx_at6 (c : Dev nD) : W6 m ρ c (Proc.devRef .tc main_v3) = val_main_v3 (F := Ideal) (m ((c.tc : Thread nD τ).loc main_arg1)) :=
  (W6_of_ne m ρ c main_v3 (by decide)).trans (dstIdx_at5 m ρ c)
theorem arg0_at6 (c : Dev nD) : W6 m ρ c (Proc.devRef .tc main_arg0) = (m ((c.tc : Thread nD τ).loc main_arg0)) :=
  (W6_of_ne m ρ c main_arg0 (by decide)).trans (arg0_at5 m ρ c)
theorem arg7_at6 (c : Dev nD) : W6 m ρ c (Proc.devRef .tc main_arg7) = (m ((c.tc : Thread nD τ).loc main_arg7)) :=
  (W6_of_ne m ρ c main_arg7 (by decide)).trans (arg7_at5 m ρ c)
theorem arg8_at6 (c : Dev nD) : W6 m ρ c (Proc.devRef .tc main_arg8) = (m ((c.tc : Thread nD τ).loc main_arg8)) :=
  (W6_of_ne m ρ c main_arg8 (by decide)).trans (arg8_at5 m ρ c)
theorem arg9_at6 (c : Dev nD) : W6 m ρ c (Proc.devRef .tc main_arg9) = (m ((c.tc : Thread nD τ).loc main_arg9)) :=
  (W6_of_ne m ρ c main_arg9 (by decide)).trans (arg9_at5 m ρ c)
theorem arg10_at6 (c : Dev nD) : W6 m ρ c (Proc.devRef .tc main_arg10) = (m ((c.tc : Thread nD τ).loc main_arg10)) :=
  (W6_of_ne m ρ c main_arg10 (by decide)).trans (arg10_at5 m ρ c)

set_option maxHeartbeats 4000000 in
set_option maxRecDepth 65536 in
/-- Every node row's sum of incoming messages, as the update region finds it. -/
theorem aggregate_at7 (c : Dev nD) : W7 m ρ c (Proc.devRef .tc main_v26) = aggregated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h16 := messages_at6 m ρ c
  have h3 := dstIdx_at6 m ρ c
  show StableHlo.after hostOps1 (W6 m ρ c) (Proc.devRef .tc main_v26) = _
  generalize W6 m ρ c = V at h16 h3 ⊢
  after_results_simp
  rw [h16, h3]
  rfl

set_option maxHeartbeats 4000000 in
theorem node_at7 (c : Dev nD) : W7 m ρ c (Proc.devRef .tc main_v27) = shapeCast (s := S2x10000x128) ⟨2, ![20000, 128]⟩ (m ((c.tc : Thread nD τ).loc main_arg0)) (by decide) := by
  have h := arg0_at6 m ρ c
  show StableHlo.after hostOps1 (W6 m ρ c) (Proc.devRef .tc main_v27) = _
  generalize W6 m ρ c = V at h ⊢
  after_results_simp
  rw [h]
  rfl

set_option maxHeartbeats 4000000 in
theorem wN_at7 (c : Dev nD) : W7 m ρ c (Proc.devRef .tc main_v28) = extractStridedSlice (s := S384x256) ⟨2, ![128, 256]⟩ ![0, 0] (m ((c.tc : Thread nD τ).loc main_arg7)) (by decide) := by
  have h := arg7_at6 m ρ c
  show StableHlo.after hostOps1 (W6 m ρ c) (Proc.devRef .tc main_v28) = _
  generalize W6 m ρ c = V at h ⊢
  after_results_simp
  rw [h]

set_option maxHeartbeats 4000000 in
theorem wA_at7 (c : Dev nD) : W7 m ρ c (Proc.devRef .tc main_v29) = extractStridedSlice (s := S384x256) ⟨2, ![256, 256]⟩ ![128, 0] (m ((c.tc : Thread nD τ).loc main_arg7)) (by decide) := by
  have h := arg7_at6 m ρ c
  show StableHlo.after hostOps1 (W6 m ρ c) (Proc.devRef .tc main_v29) = _
  generalize W6 m ρ c = V at h ⊢
  after_results_simp
  rw [h]

set_option maxHeartbeats 4000000 in
theorem b1_at7 (c : Dev nD) : W7 m ρ c (Proc.devRef .tc main_v30) = shapeCast (s := S256) ⟨2, ![1, 256]⟩ (m ((c.tc : Thread nD τ).loc main_arg8)) (by decide) := by
  have h := arg8_at6 m ρ c
  show StableHlo.after hostOps1 (W6 m ρ c) (Proc.devRef .tc main_v30) = _
  generalize W6 m ρ c = V at h ⊢
  after_results_simp
  rw [h]
  rfl

theorem w2_at7 (c : Dev nD) : W7 m ρ c (Proc.devRef .tc main_arg9) = (m ((c.tc : Thread nD τ).loc main_arg9)) := by
  refine Eq.trans ?_ (arg9_at6 m ρ c)
  show StableHlo.after hostOps1 (W6 m ρ c) (Proc.devRef .tc main_arg9) = _
  not_written_by hostOps1

set_option maxHeartbeats 4000000 in
theorem b2_at7 (c : Dev nD) : W7 m ρ c (Proc.devRef .tc main_v31) = shapeCast (s := S128) ⟨2, ![1, 128]⟩ (m ((c.tc : Thread nD τ).loc main_arg10)) (by decide) := by
  have h := arg10_at6 m ρ c
  show StableHlo.after hostOps1 (W6 m ρ c) (Proc.devRef .tc main_v31) = _
  generalize W6 m ρ c = V at h ⊢
  after_results_simp
  rw [h]
  rfl

/-! ## The update region and the last reshape -/

theorem updated_at8 (c : Dev nD) : W8 m ρ c (Proc.devRef .tc main_v32)
    = Cert.MsgPass.updated (shapeCast (s := S2x10000x128) ⟨2, ![20000, 128]⟩ (m ((c.tc : Thread nD τ).loc main_arg0)) (by decide)) (aggregated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
        (extractStridedSlice (s := S384x256) ⟨2, ![128, 256]⟩ ![0, 0] (m ((c.tc : Thread nD τ).loc main_arg7)) (by decide)) (extractStridedSlice (s := S384x256) ⟨2, ![256, 256]⟩ ![128, 0] (m ((c.tc : Thread nD τ).loc main_arg7)) (by decide))
        (shapeCast (s := S256) ⟨2, ![1, 256]⟩ (m ((c.tc : Thread nD τ).loc main_arg8)) (by decide)) (m ((c.tc : Thread nD τ).loc main_arg9)) (shapeCast (s := S128) ⟨2, ![1, 128]⟩ (m ((c.tc : Thread nD τ).loc main_arg10)) (by decide)) := by
  refine (W8_arr m ρ c 7).trans ((Cert.KernelIdeal.UpdRegion.final (V7 m ρ) c).trans ?_)
  show Cert.MsgPass.updated (W7 m ρ c (Proc.devRef .tc main_v27)) (W7 m ρ c (Proc.devRef .tc main_v26))
    (W7 m ρ c (Proc.devRef .tc main_v28)) (W7 m ρ c (Proc.devRef .tc main_v29)) (W7 m ρ c (Proc.devRef .tc main_v30))
    (W7 m ρ c (Proc.devRef .tc main_arg9)) (W7 m ρ c (Proc.devRef .tc main_v31)) = _
  rw [node_at7, aggregate_at7, wN_at7, wA_at7, b1_at7, w2_at7, b2_at7]

/-- The result buffer's final contents: the layer of the eleven argument arrays. -/
theorem result_eq_layer (c : Dev nD) : W9 m ρ c (Proc.devRef .tc main_v33) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h := updated_at8 m ρ c
  show StableHlo.after hostOps2 (W8 m ρ c) (Proc.devRef .tc main_v33) = _
  generalize W8 m ρ c = V at h ⊢
  after_results_simp
  rw [h]
  rfl

end Cert.KernelIdeal.Run

end
-- ==== Proof.RefRunArgs.lean ====
/-
  The reference program never writes its arguments.

  The reference's @main is a straight line of 116 host operations; each writes one buffer, the buffer of the value
  it defines, and none of these is one of the eleven argument buffers. So whatever part of the line has run, from
  whatever contents, the argument buffers hold what they held: in particular, after any number of the ten
  stretches the line is cut into, they still hold the launch contents.
-/
import proofs.«138037_j66194035965974_1_alg».proof.Proof.RefRunPatched

noncomputable section

open Cert.ReferenceIdeal Cert.ReferenceIdeal.Gen Idealize.ShloMosaic Idealize.ShloMosaic.TcCoe Idealize.SL.Sem Idealize.ShloMosaic.StableHlo
open Cert.ReferenceIdeal.ValueP

namespace Cert.ReferenceIdeal.RefRun

variable {F : FTy → Type} [FloatOps F]

/-! ## No operation writes an argument

One fact per argument buffer: the buffer is none of the 116 result buffers (each operation's written set is the
singleton of its result; distinct references are distinct buffers). -/

theorem no_write_arg0 : ∀ op ∈ (ops : List (HloOp τ sig (Elt F))), Proc.devRef .tc main_arg0 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg1 : ∀ op ∈ (ops : List (HloOp τ sig (Elt F))), Proc.devRef .tc main_arg1 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg2 : ∀ op ∈ (ops : List (HloOp τ sig (Elt F))), Proc.devRef .tc main_arg2 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg3 : ∀ op ∈ (ops : List (HloOp τ sig (Elt F))), Proc.devRef .tc main_arg3 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg4 : ∀ op ∈ (ops : List (HloOp τ sig (Elt F))), Proc.devRef .tc main_arg4 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg5 : ∀ op ∈ (ops : List (HloOp τ sig (Elt F))), Proc.devRef .tc main_arg5 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg6 : ∀ op ∈ (ops : List (HloOp τ sig (Elt F))), Proc.devRef .tc main_arg6 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg7 : ∀ op ∈ (ops : List (HloOp τ sig (Elt F))), Proc.devRef .tc main_arg7 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg8 : ∀ op ∈ (ops : List (HloOp τ sig (Elt F))), Proc.devRef .tc main_arg8 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg9 : ∀ op ∈ (ops : List (HloOp τ sig (Elt F))), Proc.devRef .tc main_arg9 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))
theorem no_write_arg10 : ∀ op ∈ (ops : List (HloOp τ sig (Elt F))), Proc.devRef .tc main_arg10 ∉ op.writes :=
  List.forall_iff_forall_mem.mp (by
    simp only [ops, List.Forall, nullary_writes, unary_writes, binary_writes, ternary_writes, reshape_writes,
      nary_writes, Finset.mem_singleton]
    repeat' apply And.intro
    all_goals exact devRef_ne_of_ne (by decide))

/-! ## Each stretch is part of the line -/

theorem seg1_sub : ∀ op ∈ (seg1 : List (HloOp τ sig (Elt F))), op ∈ (ops : List (HloOp τ sig (Elt F))) := fun op h => by
  rw [ops_split]; simp only [List.mem_append, h, true_or, or_true]
theorem seg2_sub : ∀ op ∈ (seg2 : List (HloOp τ sig (Elt F))), op ∈ (ops : List (HloOp τ sig (Elt F))) := fun op h => by
  rw [ops_split]; simp only [List.mem_append, h, true_or, or_true]
theorem seg3_sub : ∀ op ∈ (seg3 : List (HloOp τ sig (Elt F))), op ∈ (ops : List (HloOp τ sig (Elt F))) := fun op h => by
  rw [ops_split]; simp only [List.mem_append, h, true_or, or_true]
theorem seg4_sub : ∀ op ∈ (seg4 : List (HloOp τ sig (Elt F))), op ∈ (ops : List (HloOp τ sig (Elt F))) := fun op h => by
  rw [ops_split]; simp only [List.mem_append, h, true_or, or_true]
theorem seg5_sub : ∀ op ∈ (seg5 : List (HloOp τ sig (Elt F))), op ∈ (ops : List (HloOp τ sig (Elt F))) := fun op h => by
  rw [ops_split]; simp only [List.mem_append, h, true_or, or_true]
theorem seg6_sub : ∀ op ∈ (seg6 : List (HloOp τ sig (Elt F))), op ∈ (ops : List (HloOp τ sig (Elt F))) := fun op h => by
  rw [ops_split]; simp only [List.mem_append, h, true_or, or_true]
theorem seg7_sub : ∀ op ∈ (seg7 : List (HloOp τ sig (Elt F))), op ∈ (ops : List (HloOp τ sig (Elt F))) := fun op h => by
  rw [ops_split]; simp only [List.mem_append, h, true_or, or_true]
theorem seg8_sub : ∀ op ∈ (seg8 : List (HloOp τ sig (Elt F))), op ∈ (ops : List (HloOp τ sig (Elt F))) := fun op h => by
  rw [ops_split]; simp only [List.mem_append, h, true_or, or_true]
theorem seg9_sub : ∀ op ∈ (seg9 : List (HloOp τ sig (Elt F))), op ∈ (ops : List (HloOp τ sig (Elt F))) := fun op h => by
  rw [ops_split]; simp only [List.mem_append, h, true_or, or_true]
theorem seg10_sub : ∀ op ∈ (seg10 : List (HloOp τ sig (Elt F))), op ∈ (ops : List (HloOp τ sig (Elt F))) := fun op h => by
  rw [ops_split]; simp only [List.mem_append, h, true_or, or_true]

/-! ## The argument buffers at the launch contents -/

/-- The eleven argument buffers of core `c` hold, in the valuation `V`, what the launch memory `m` gave them. -/
structure ArgsAt (m : (ℓ : Loc nD τ sig) → Buf (Elt F) ℓ) (c : Dev nD) (V : Valuation τ sig (Elt F)) : Prop where
  a0 : V (Proc.devRef .tc main_arg0) = m ((c.tc : Thread nD τ).loc main_arg0)
  a1 : V (Proc.devRef .tc main_arg1) = m ((c.tc : Thread nD τ).loc main_arg1)
  a2 : V (Proc.devRef .tc main_arg2) = m ((c.tc : Thread nD τ).loc main_arg2)
  a3 : V (Proc.devRef .tc main_arg3) = m ((c.tc : Thread nD τ).loc main_arg3)
  a4 : V (Proc.devRef .tc main_arg4) = m ((c.tc : Thread nD τ).loc main_arg4)
  a5 : V (Proc.devRef .tc main_arg5) = m ((c.tc : Thread nD τ).loc main_arg5)
  a6 : V (Proc.devRef .tc main_arg6) = m ((c.tc : Thread nD τ).loc main_arg6)
  a7 : V (Proc.devRef .tc main_arg7) = m ((c.tc : Thread nD τ).loc main_arg7)
  a8 : V (Proc.devRef .tc main_arg8) = m ((c.tc : Thread nD τ).loc main_arg8)
  a9 : V (Proc.devRef .tc main_arg9) = m ((c.tc : Thread nD τ).loc main_arg9)
  a10 : V (Proc.devRef .tc main_arg10) = m ((c.tc : Thread nD τ).loc main_arg10)

/-- They do at the launch. -/
theorem ArgsAt.launch (m : (ℓ : Loc nD τ sig) → Buf (Elt F) ℓ) (c : Dev nD) : ArgsAt m c (launchContents m c) :=
  ⟨rfl, rfl, rfl, rfl, rfl, rfl, rfl, rfl, rfl, rfl, rfl⟩

/-- And any part `l` of the line keeps them there: no operation of `l` writes an argument buffer, so each is read
    after `l` as before it. -/
theorem ArgsAt.after {m : (ℓ : Loc nD τ sig) → Buf (Elt F) ℓ} {c : Dev nD} {V : Valuation τ sig (Elt F)}
    {l : List (HloOp τ sig (Elt F))} (hl : ∀ op ∈ l, op ∈ (ops : List (HloOp τ sig (Elt F)))) (h : ArgsAt m c V) :
    ArgsAt m c (after l V) :=
  ⟨(after_of_forall_not_mem l V fun op hop => no_write_arg0 op (hl op hop)).trans h.a0,
    (after_of_forall_not_mem l V fun op hop => no_write_arg1 op (hl op hop)).trans h.a1,
    (after_of_forall_not_mem l V fun op hop => no_write_arg2 op (hl op hop)).trans h.a2,
    (after_of_forall_not_mem l V fun op hop => no_write_arg3 op (hl op hop)).trans h.a3,
    (after_of_forall_not_mem l V fun op hop => no_write_arg4 op (hl op hop)).trans h.a4,
    (after_of_forall_not_mem l V fun op hop => no_write_arg5 op (hl op hop)).trans h.a5,
    (after_of_forall_not_mem l V fun op hop => no_write_arg6 op (hl op hop)).trans h.a6,
    (after_of_forall_not_mem l V fun op hop => no_write_arg7 op (hl op hop)).trans h.a7,
    (after_of_forall_not_mem l V fun op hop => no_write_arg8 op (hl op hop)).trans h.a8,
    (after_of_forall_not_mem l V fun op hop => no_write_arg9 op (hl op hop)).trans h.a9,
    (after_of_forall_not_mem l V fun op hop => no_write_arg10 op (hl op hop)).trans h.a10⟩

end Cert.ReferenceIdeal.RefRun

end
-- ==== Proof.RefRunA.lean ====
/-
  The reference program's first five stretches, each read from an arbitrary starting valuation.

  The reference's @main is a straight line of host operations, cut into ten consecutive stretches. The buffers'
  contents after a line `l₁ ++ l₂` from contents `V` are those after `l₂` from (those after `l₁` from `V`), so
  the whole line is read one stretch at a time. For a stretch we prove only what later stretches read: the value
  it leaves in the one or two buffers that are read again, as the generated one-operation-at-a-time reading of
  the program names it (`val_…` of the argument arrays), given that the buffers the stretch itself reads hold
  such values; and that it leaves alone the earlier values that are read after it.

  Each statement is about an ARBITRARY valuation `V` with hypotheses on the few buffers read: nothing about how
  `V` arose can be unfolded, so every goal stays the size of one stretch. Inside a stretch the operations'
  results are substituted into one another in one pass; what is left is the stretch's composed term on one side
  and the `val_…` names, unfolded down to the stretch's inputs, on the other: the same term.

  The stretches here: the two endpoint columns of the edge list (1); the rows of the node array at the source
  endpoints (2), looked up by the program's row-lookup function: a negative index is wrapped by the node count, a
  gather reads the rows, and a row whose index is still out of range is replaced by a NaN row; the
  destination column (3); the rows at the destination endpoints (4); and the concatenation of the two gathers with
  the edge features, multiplied by the first layer's weight matrix, plus the bias (5).
-/
import proofs.«138037_j66194035965974_1_alg».proof.Proof.RefRunPatched
import proofs.«138037_j66194035965974_1_alg».proof.Proof.RefReadPatched

noncomputable section

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

namespace Cert.ReferenceIdeal.RefRun

variable {F : FTy → Type} [FloatOps F]

/- The three host operations whose value at an element is a fold over a whole axis or depends on another operand's
   values are never opened here: both sides of every equation apply them to the same operands. -/
attribute [local irreducible] Host.reduce Host.gather Host.scatterAdd

/-- The contents after two lines in a row are the contents after the second from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## Values moved between a buffer's own type and the type its operation states

The operations of a function called from @main (here the row lookup) are stated at the tensor types of the
function's text and moved to and from each buffer's own type, which is the same type once the buffer is a
literal. A value moved to a buffer's type and back is the value, whatever the buffer; for the three buffers a
gather stretch reads or writes from outside the call, the move itself is the identity by computing the buffer's
type. -/

/-- To the buffer's type and back. -/
theorem ofBuf_toBuf {T : BufTy} (x : TRef sig T) (v : T.Contents (Elt F)) : x.ofBuf (x.toBuf v) = v := by
  obtain ⟨r, h, h1, h2⟩ := x
  subst h
  rfl

theorem ofBuf_main_arg0 (w : main_arg0.ty.Contents (Elt F)) :
    (TRef.of (T := ⟨S2x10000x128, .f32⟩) main_arg0).ofBuf w = w := rfl
theorem ofBuf_main_v4 (w : main_v4.ty.Contents (Elt F)) :
    (TRef.of (T := ⟨S2x160000x1, .i32⟩) main_v4).ofBuf w = w := rfl
theorem ofBuf_main_v6 (w : main_v6.ty.Contents (Elt F)) :
    (TRef.of (T := ⟨S2x160000x1, .i32⟩) main_v6).ofBuf w = w := rfl
theorem toBuf_main_v5 (w : (⟨S2x160000x128, .f32⟩ : BufTy).Contents (Elt F)) :
    (TRef.of (T := ⟨S2x160000x128, .f32⟩) main_v5).toBuf w = w := rfl
theorem toBuf_main_v7 (w : (⟨S2x160000x128, .f32⟩ : BufTy).Contents (Elt F)) :
    (TRef.of (T := ⟨S2x160000x128, .f32⟩) main_v7).toBuf w = w := rfl

/-! ## Stretch 1: the two endpoint columns of the edge list -/

/-- The destination endpoints, as a `[2, 160000]` array. -/
theorem seg1_v3 (V : Valuation τ sig (Elt F)) :
    after seg1 V (Proc.devRef .tc main_v3) = val_main_v3 (V (Proc.devRef .tc main_arg1)) := by
  after_results_simp
  rfl

/-- The source endpoints, as a `[2, 160000, 1]` column. -/
theorem seg1_v4 (V : Valuation τ sig (Elt F)) :
    after seg1 V (Proc.devRef .tc main_v4) = val_main_v4 (V (Proc.devRef .tc main_arg1)) := by
  after_results_simp
  rfl

/-! ## Stretch 2: the node rows at the source endpoints -/

/-- From the node array `a0` and the source column, the gathered rows. -/
theorem seg2_v5 (V : Valuation τ sig (Elt F)) (a0 : (⟨S2x10000x128, .f32⟩ : BufTy).Contents (Elt F))
    (a1 : (⟨S2x160000x2, .i32⟩ : BufTy).Contents (Elt F))
    (h0 : V (Proc.devRef .tc main_arg0) = a0) (h4 : V (Proc.devRef .tc main_v4) = val_main_v4 a1) :
    after seg2 V (Proc.devRef .tc main_v5) = val_main_v5 a0 a1 := by
  after_results_simp
  simp only [ofBuf_toBuf]
  rw [toBuf_main_v5, ofBuf_main_v4, ofBuf_main_arg0, h0, h4]
  unfold val_main_v5 val_main_call0_v13 val_main_call0_v12 val_main_call0_v14 val_main_call0_v11 val_main_call0_v10
    val_main_call0_v9 val_main_call0_v8 val_main_call0_v7 val_main_call0_v6 val_main_call0_v5 val_main_call0_v4 val_main_call0_v3
    val_main_call0_v2 val_main_call0_v1 val_main_call0_v0 val_main_call0_c val_main_call0_c_0 val_main_call0_c_1 val_main_call0_c_2
    val_main_call0_c_3 val_main_call0_cst
  rfl

/-- The stretch leaves the destination endpoints alone. -/
theorem seg2_keeps_v3 (V : Valuation τ sig (Elt F)) :
    after seg2 V (Proc.devRef .tc main_v3) = V (Proc.devRef .tc main_v3) :=
  after_of_forall_not_mem (b := Proc.devRef .tc main_v3) _ _ (List.forall_iff_forall_mem.mp (by
    simp only [seg2, List.Forall, nullary_writes, unary_writes, binary_writes, ternary_writes, reshape_writes, nary_writes,
      Finset.mem_singleton]
    repeat' apply And.intro
    all_goals exact devRef_ne_of_ne (by decide)))

/-! ## Stretch 3: the destination endpoints as a column -/

theorem seg3_v6 (V : Valuation τ sig (Elt F)) (a1 : (⟨S2x160000x2, .i32⟩ : BufTy).Contents (Elt F))
    (h3 : V (Proc.devRef .tc main_v3) = val_main_v3 a1) :
    after seg3 V (Proc.devRef .tc main_v6) = val_main_v6 a1 := by
  after_results_simp
  rw [h3]
  rfl

theorem seg3_keeps_v3 (V : Valuation τ sig (Elt F)) :
    after seg3 V (Proc.devRef .tc main_v3) = V (Proc.devRef .tc main_v3) :=
  after_of_forall_not_mem (b := Proc.devRef .tc main_v3) _ _ (List.forall_iff_forall_mem.mp (by
    simp only [seg3, List.Forall, nullary_writes, unary_writes, binary_writes, ternary_writes, reshape_writes, nary_writes,
      Finset.mem_singleton]
    repeat' apply And.intro
    all_goals exact devRef_ne_of_ne (by decide)))

theorem seg3_keeps_v5 (V : Valuation τ sig (Elt F)) :
    after seg3 V (Proc.devRef .tc main_v5) = V (Proc.devRef .tc main_v5) :=
  after_of_forall_not_mem (b := Proc.devRef .tc main_v5) _ _ (List.forall_iff_forall_mem.mp (by
    simp only [seg3, List.Forall, nullary_writes, unary_writes, binary_writes, ternary_writes, reshape_writes, nary_writes,
      Finset.mem_singleton]
    repeat' apply And.intro
    all_goals exact devRef_ne_of_ne (by decide)))

/-! ## Stretch 4: the node rows at the destination endpoints -/

/-- The same operations as stretch 2, on the destination column. -/
theorem seg4_v7 (V : Valuation τ sig (Elt F)) (a0 : (⟨S2x10000x128, .f32⟩ : BufTy).Contents (Elt F))
    (a1 : (⟨S2x160000x2, .i32⟩ : BufTy).Contents (Elt F))
    (h0 : V (Proc.devRef .tc main_arg0) = a0) (h6 : V (Proc.devRef .tc main_v6) = val_main_v6 a1) :
    after seg4 V (Proc.devRef .tc main_v7) = val_main_v7 a0 a1 := by
  after_results_simp
  simp only [ofBuf_toBuf]
  rw [toBuf_main_v7, ofBuf_main_v6, ofBuf_main_arg0, h0, h6]
  unfold val_main_v7 val_main_call1_v13 val_main_call1_v12 val_main_call1_v14 val_main_call1_v11 val_main_call1_v10
    val_main_call1_v9 val_main_call1_v8 val_main_call1_v7 val_main_call1_v6 val_main_call1_v5 val_main_call1_v4 val_main_call1_v3
    val_main_call1_v2 val_main_call1_v1 val_main_call1_v0 val_main_call1_c val_main_call1_c_0 val_main_call1_c_1 val_main_call1_c_2
    val_main_call1_c_3 val_main_call1_cst
  rfl

theorem seg4_keeps_v3 (V : Valuation τ sig (Elt F)) :
    after seg4 V (Proc.devRef .tc main_v3) = V (Proc.devRef .tc main_v3) :=
  after_of_forall_not_mem (b := Proc.devRef .tc main_v3) _ _ (List.forall_iff_forall_mem.mp (by
    simp only [seg4, List.Forall, nullary_writes, unary_writes, binary_writes, ternary_writes, reshape_writes, nary_writes,
      Finset.mem_singleton]
    repeat' apply And.intro
    all_goals exact devRef_ne_of_ne (by decide)))

theorem seg4_keeps_v5 (V : Valuation τ sig (Elt F)) :
    after seg4 V (Proc.devRef .tc main_v5) = V (Proc.devRef .tc main_v5) :=
  after_of_forall_not_mem (b := Proc.devRef .tc main_v5) _ _ (List.forall_iff_forall_mem.mp (by
    simp only [seg4, List.Forall, nullary_writes, unary_writes, binary_writes, ternary_writes, reshape_writes, nary_writes,
      Finset.mem_singleton]
    repeat' apply And.intro
    all_goals exact devRef_ne_of_ne (by decide)))

/-! ## Stretch 5: the message network's first layer -/

/-- The two gathers and the edge features `a2` joined along the feature axis, times the weight matrix `a3`, plus
    the bias `a4` on every row. -/
theorem seg5_v12 (V : Valuation τ sig (Elt F)) (a0 : (⟨S2x10000x128, .f32⟩ : BufTy).Contents (Elt F))
    (a1 : (⟨S2x160000x2, .i32⟩ : BufTy).Contents (Elt F)) (a2 : (⟨S2x160000x64, .f32⟩ : BufTy).Contents (Elt F))
    (a3 : (⟨S320x256, .f32⟩ : BufTy).Contents (Elt F)) (a4 : (⟨S256, .f32⟩ : BufTy).Contents (Elt F))
    (h5 : V (Proc.devRef .tc main_v5) = val_main_v5 a0 a1) (h7 : V (Proc.devRef .tc main_v7) = val_main_v7 a0 a1)
    (h2 : V (Proc.devRef .tc main_arg2) = a2) (h3 : V (Proc.devRef .tc main_arg3) = a3)
    (h4 : V (Proc.devRef .tc main_arg4) = a4) :
    after seg5 V (Proc.devRef .tc main_v12) = val_main_v12 a0 a1 a2 a3 a4 := by
  after_results_simp
  -- the stretch's composed term, the three joined pieces named by their buffers
  show addf (Host.dotGeneral dot_S2x160000x320_S320x256_S2x160000x256_2_0_01_1_n_n none
      (concatenate S2x160000x320 2 [⟨S2x160000x128, V (Proc.devRef .tc main_v5)⟩, ⟨S2x160000x128, V (Proc.devRef .tc main_v7)⟩,
        ⟨S2x160000x64, V (Proc.devRef .tc main_arg2)⟩] concatenates_S2x160000x128_S2x160000x128_S2x160000x64_S2x160000x320_d2)
      (V (Proc.devRef .tc main_arg3)))
    (broadcastInDim S2x160000x256 ![0, 1, 2] bcast_S1x1x256_S2x160000x256_0_1_2
      (broadcastInDim S1x1x256 ![2] bcast_S256_S1x1x256_2 (V (Proc.devRef .tc main_arg4)))) = _
  rw [h5, h7, h2, h3, h4]
  rfl

theorem seg5_keeps_v3 (V : Valuation τ sig (Elt F)) :
    after seg5 V (Proc.devRef .tc main_v3) = V (Proc.devRef .tc main_v3) :=
  after_of_forall_not_mem (b := Proc.devRef .tc main_v3) _ _ (List.forall_iff_forall_mem.mp (by
    simp only [seg5, List.Forall, nullary_writes, unary_writes, binary_writes, ternary_writes, reshape_writes, nary_writes,
      Finset.mem_singleton]
    repeat' apply And.intro
    all_goals exact devRef_ne_of_ne (by decide)))

end Cert.ReferenceIdeal.RefRun

end
-- ==== Proof.RefRunB.lean ====
/-
  The plain program's last five stretches, each read as one step of the layer.

  The plain program is a straight line of array operations, cut here into consecutive stretches. A stretch is read
  through what it does to a VALUATION, the contents of every buffer: starting from any valuation `V`, the contents
  after the stretch are `V` with each operation's result written over its result buffer, in order. Because every
  lemma below is about an arbitrary `V`, with hypotheses only on the few buffers the stretch reads, nothing in it
  can reach back into the stretches before.

  The five stretches are the second half of the layer:

    6  the message network's activation: from the hidden layer `h` (buffer 12) to `h · (½ · (1 + tanh (κ · (h + γ · h³))))`;
    7  its second layer (a product with the weights, plus the bias spread over the rows), the destination index of
       every edge flattened over the batch (batch number × 10000 + node number), and the scatter-add, from zero, of
       the messages into the rows of their destination nodes;
    8  the update network's first layer: the node features and the aggregate joined along the feature axis, a
       product with the weights, plus the bias;
    9  its activation, the same expression as in 6;
    10 its second layer: the product with the weights plus the bias — the program's result.

  Each lemma says that the buffer the stretch ends on holds the value the program's term-by-term reading (the
  `val_…` functions of the argument arrays) gives it, provided the buffers it starts from hold theirs. The proofs
  are one computation each: write the operations' results over `V`, put the hypotheses in, and the two sides are the
  same expression. The gather, the reduction and the scatter-add are kept closed while the two sides are compared:
  they occur as the same term on both sides and nothing is to be learnt by opening them.
-/
import proofs.«138037_j66194035965974_1_alg».proof.Proof.RefRunPatched
import proofs.«138037_j66194035965974_1_alg».proof.Proof.RefReadPatched

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

attribute [local irreducible] Host.reduce Host.gather Host.scatterAdd

/-! ## Stretch 6: the message network's activation -/

/-- From the hidden layer in buffer 12 to its activation in buffer 25: seventeen pointwise operations (the cube,
    the four constants spread over the shape, the hyperbolic tangent, the products and sums around it). -/
theorem seg6_v25 (V : Valuation τ sig (Elt F)) (a0 : (⟨S2x10000x128, .f32⟩ : BufTy).Contents (Elt F)) (a1 : (⟨S2x160000x2, .i32⟩ : BufTy).Contents (Elt F)) (a2 : (⟨S2x160000x64, .f32⟩ : BufTy).Contents (Elt F)) (a3 : (⟨S320x256, .f32⟩ : BufTy).Contents (Elt F)) (a4 : (⟨S256, .f32⟩ : BufTy).Contents (Elt F))
    (h12 : V (Proc.devRef .tc main_v12) = val_main_v12 a0 a1 a2 a3 a4) :
    after seg6 V (Proc.devRef .tc main_v25) = val_main_v25 a0 a1 a2 a3 a4 := by
  after_results_simp
  rw [h12]
  rfl

/-- The stretch writes none of the buffers holding the edges' destination indices (buffer 3), which stretch 7
    reads: each of its seventeen operations writes one buffer, and none of them is buffer 3. -/
theorem seg6_keeps_v3 (V : Valuation τ sig (Elt F)) :
    after seg6 V (Proc.devRef .tc main_v3) = V (Proc.devRef .tc main_v3) :=
  after_of_forall_not_mem (b := Proc.devRef .tc main_v3) _ _ (List.forall_iff_forall_mem.mp (by
    simp only [seg6, List.Forall, nullary_writes, unary_writes, binary_writes, Finset.mem_singleton]
    repeat' apply And.intro
    all_goals exact devRef_ne_of_ne (by decide)))

/-! ## Stretch 7: the messages, and their sum into the destination nodes -/

/-- From the activated hidden layer (buffer 25), the destination indices (buffer 3) and the second layer's weights
    and bias (arguments 5 and 6) to the aggregate in buffer 40: the messages are the product plus the bias; the
    destination index of edge `e` of batch `b` is `b · 10000` plus its node number; both are flattened over the batch
    and the messages are added, from zero, into the rows their indices name. -/
theorem seg7_v40 (V : Valuation τ sig (Elt F)) (a0 : (⟨S2x10000x128, .f32⟩ : BufTy).Contents (Elt F)) (a1 : (⟨S2x160000x2, .i32⟩ : BufTy).Contents (Elt F)) (a2 : (⟨S2x160000x64, .f32⟩ : BufTy).Contents (Elt F)) (a3 : (⟨S320x256, .f32⟩ : BufTy).Contents (Elt F)) (a4 : (⟨S256, .f32⟩ : BufTy).Contents (Elt F)) (a5 : (⟨S256x256, .f32⟩ : BufTy).Contents (Elt F)) (a6 : (⟨S256, .f32⟩ : BufTy).Contents (Elt F))
    (h25 : V (Proc.devRef .tc main_v25) = val_main_v25 a0 a1 a2 a3 a4)
    (h3 : V (Proc.devRef .tc main_v3) = val_main_v3 a1)
    (h5 : V (Proc.devRef .tc main_arg5) = a5) (h6 : V (Proc.devRef .tc main_arg6) = a6) :
    after seg7 V (Proc.devRef .tc main_v40) = val_main_v40 a0 a1 a2 a3 a4 a5 a6 := by
  after_results_simp
  rw [h25, h3, h5, h6]
  rfl

/-! ## Stretch 8: the update network's first layer -/

/-- From the aggregate (buffer 40), the node features (argument 0) and the first layer's weights and bias (arguments
    7 and 8) to the hidden layer in buffer 46: the aggregate unfolded to `[batch, node, feature]`, joined to the node
    features along the feature axis, multiplied by the weights, the bias added. -/
theorem seg8_v46 (V : Valuation τ sig (Elt F)) (a0 : (⟨S2x10000x128, .f32⟩ : BufTy).Contents (Elt F)) (a1 : (⟨S2x160000x2, .i32⟩ : BufTy).Contents (Elt F)) (a2 : (⟨S2x160000x64, .f32⟩ : BufTy).Contents (Elt F)) (a3 : (⟨S320x256, .f32⟩ : BufTy).Contents (Elt F)) (a4 : (⟨S256, .f32⟩ : BufTy).Contents (Elt F)) (a5 : (⟨S256x256, .f32⟩ : BufTy).Contents (Elt F)) (a6 : (⟨S256, .f32⟩ : BufTy).Contents (Elt F)) (a7 : (⟨S384x256, .f32⟩ : BufTy).Contents (Elt F)) (a8 : (⟨S256, .f32⟩ : BufTy).Contents (Elt F))
    (h40 : V (Proc.devRef .tc main_v40) = val_main_v40 a0 a1 a2 a3 a4 a5 a6)
    (h0 : V (Proc.devRef .tc main_arg0) = a0) (h7 : V (Proc.devRef .tc main_arg7) = a7) (h8 : V (Proc.devRef .tc main_arg8) = a8) :
    after seg8 V (Proc.devRef .tc main_v46) = val_main_v46 a0 a1 a2 a3 a4 a5 a6 a7 a8 := by
  after_results
  rw [h40, h0, h7, h8]
  rfl

/-! ## Stretch 9: the update network's activation -/

/-- From the hidden layer in buffer 46 to its activation in buffer 59: the seventeen operations of stretch 6 again,
    on the node rows. -/
theorem seg9_v59 (V : Valuation τ sig (Elt F)) (a0 : (⟨S2x10000x128, .f32⟩ : BufTy).Contents (Elt F)) (a1 : (⟨S2x160000x2, .i32⟩ : BufTy).Contents (Elt F)) (a2 : (⟨S2x160000x64, .f32⟩ : BufTy).Contents (Elt F)) (a3 : (⟨S320x256, .f32⟩ : BufTy).Contents (Elt F)) (a4 : (⟨S256, .f32⟩ : BufTy).Contents (Elt F)) (a5 : (⟨S256x256, .f32⟩ : BufTy).Contents (Elt F)) (a6 : (⟨S256, .f32⟩ : BufTy).Contents (Elt F)) (a7 : (⟨S384x256, .f32⟩ : BufTy).Contents (Elt F)) (a8 : (⟨S256, .f32⟩ : BufTy).Contents (Elt F))
    (h46 : V (Proc.devRef .tc main_v46) = val_main_v46 a0 a1 a2 a3 a4 a5 a6 a7 a8) :
    after seg9 V (Proc.devRef .tc main_v59) = val_main_v59 a0 a1 a2 a3 a4 a5 a6 a7 a8 := by
  after_results_simp
  rw [h46]
  rfl

/-! ## Stretch 10: the update network's second layer, the result -/

/-- From the activated hidden layer (buffer 59) and the second layer's weights and bias (arguments 9 and 10) to the
    program's result in buffer 63: the product plus the bias spread over batch and nodes. -/
theorem seg10_v63 (V : Valuation τ sig (Elt F)) (a0 : (⟨S2x10000x128, .f32⟩ : BufTy).Contents (Elt F)) (a1 : (⟨S2x160000x2, .i32⟩ : BufTy).Contents (Elt F)) (a2 : (⟨S2x160000x64, .f32⟩ : BufTy).Contents (Elt F)) (a3 : (⟨S320x256, .f32⟩ : BufTy).Contents (Elt F)) (a4 : (⟨S256, .f32⟩ : BufTy).Contents (Elt F)) (a5 : (⟨S256x256, .f32⟩ : BufTy).Contents (Elt F)) (a6 : (⟨S256, .f32⟩ : BufTy).Contents (Elt F)) (a7 : (⟨S384x256, .f32⟩ : BufTy).Contents (Elt F)) (a8 : (⟨S256, .f32⟩ : BufTy).Contents (Elt F)) (a9 : (⟨S256x128, .f32⟩ : BufTy).Contents (Elt F)) (a10 : (⟨S128, .f32⟩ : BufTy).Contents (Elt F))
    (h59 : V (Proc.devRef .tc main_v59) = val_main_v59 a0 a1 a2 a3 a4 a5 a6 a7 a8)
    (h9 : V (Proc.devRef .tc main_arg9) = a9) (h10 : V (Proc.devRef .tc main_arg10) = a10) :
    after seg10 V (Proc.devRef .tc main_v63) = val_main_v63 a0 a1 a2 a3 a4 a5 a6 a7 a8 a9 a10 := by
  after_results_simp
  rw [h59, h9, h10]
  rfl

end Cert.ReferenceIdeal.RefRun

end
-- ==== Proof.RefRun.lean ====
/-
  The reference program's run, read stretch by stretch.

  Every weakly fair execution of the reference's @main terminates with each buffer at the fold of its 116 host
  operations over the launch contents. The fold over the whole line is the fold over its ten stretches one after
  the other. Going through them in order we keep, after each stretch, exactly the facts the later stretches read:

    after stretch  1: the destination endpoints and the source column          (read by 3, 7 and by 2)
    after stretch  2: the node rows at the source endpoints                     (read by 5)
    after stretch  3: the destination column                                    (read by 4)
    after stretch  4: the node rows at the destination endpoints                (read by 5)
    after stretch  5: the message network's hidden layer before its activation  (read by 6)
    after stretch  6: … after its activation                                    (read by 7)
    after stretch  7: the messages summed at their destination nodes            (read by 8)
    after stretch  8: the update network's hidden layer before its activation   (read by 9)
    after stretch  9: … after its activation                                    (read by 10)
    after stretch 10: the result,

  each as the generated one-operation-at-a-time reading names it (`val_…` of the eleven argument arrays); a value
  read several stretches later is carried through the stretches between, none of which writes its buffer; and the
  argument buffers hold the launch contents throughout, since no operation writes them.
-/
import proofs.«138037_j66194035965974_1_alg».proof.Proof.RefRunArgs
import proofs.«138037_j66194035965974_1_alg».proof.Proof.RefRunA
import proofs.«138037_j66194035965974_1_alg».proof.Proof.RefRunB

noncomputable section

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

namespace Cert.ReferenceIdeal.RefRun

variable {F : FTy → Type} [FloatOps F]

/-- After the whole line the argument buffers hold the launch contents. -/
theorem final_args (m : (ℓ : Loc nD τ sig) → Buf (Elt F) ℓ) (c : Dev nD) :
    ArgsAt m c (after (ops : List (HloOp τ sig (Elt F))) (launchContents m c)) :=
  (ArgsAt.launch m c).after fun _ h => h

/-- After the whole line the result buffer holds the reference's value of the eleven argument arrays. -/
theorem final_v63 (m : (ℓ : Loc nD τ sig) → Buf (Elt F) ℓ) (c : Dev nD) :
    after (ops : List (HloOp τ sig (Elt F))) (launchContents m c) (Proc.devRef .tc main_v63)
      = val_main_v63 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_split]
  simp only [after_append]
  -- the argument buffers before each stretch
  have A0 := ArgsAt.launch m c
  have A1 := A0.after (seg1_sub (F := F))
  have A2 := A1.after (seg2_sub (F := F))
  have A3 := A2.after (seg3_sub (F := F))
  have A4 := A3.after (seg4_sub (F := F))
  have A5 := A4.after (seg5_sub (F := F))
  have A6 := A5.after (seg6_sub (F := F))
  have A7 := A6.after (seg7_sub (F := F))
  have A8 := A7.after (seg8_sub (F := F))
  have A9 := A8.after (seg9_sub (F := F))
  -- stretch 1: the endpoint columns, from the edge list
  have v3_1 := (seg1_v3 (launchContents m c)).trans (congrArg val_main_v3 A0.a1)
  have v4_1 := (seg1_v4 (launchContents m c)).trans (congrArg val_main_v4 A0.a1)
  -- stretch 2: the source rows; the destination endpoints carried
  have v5_2 := seg2_v5 _ _ _ A1.a0 v4_1
  have v3_2 := (seg2_keeps_v3 _).trans v3_1
  -- stretch 3: the destination column; the source rows and the destination endpoints carried
  have v6_3 := seg3_v6 _ _ v3_2
  have v5_3 := (seg3_keeps_v5 _).trans v5_2
  have v3_3 := (seg3_keeps_v3 _).trans v3_2
  -- stretch 4: the destination rows
  have v7_4 := seg4_v7 _ _ _ A3.a0 v6_3
  have v5_4 := (seg4_keeps_v5 _).trans v5_3
  have v3_4 := (seg4_keeps_v3 _).trans v3_3
  -- stretch 5: the first layer of the message network
  have v12_5 := seg5_v12 _ _ _ _ _ _ v5_4 v7_4 A4.a2 A4.a3 A4.a4
  have v3_5 := (seg5_keeps_v3 _).trans v3_4
  -- stretch 6: its activation
  have v25_6 := seg6_v25 _ _ _ _ _ _ v12_5
  have v3_6 := (seg6_keeps_v3 _).trans v3_5
  -- stretch 7: its second layer, and the sum of the messages at their destination nodes
  have v40_7 := seg7_v40 _ _ _ _ _ _ _ _ v25_6 v3_6 A6.a5 A6.a6
  -- stretches 8–10: the update network
  have v46_8 := seg8_v46 _ _ _ _ _ _ _ _ _ _ v40_7 A7.a0 A7.a7 A7.a8
  have v59_9 := seg9_v59 _ _ _ _ _ _ _ _ _ _ v46_8
  exact seg10_v63 _ _ _ _ _ _ _ _ _ _ _ _ v59_9 A9.a9 A9.a10

/-- THE REFERENCE'S RUN: on every core the result buffer ends at the reference's value of the argument arrays as
    launched, and the argument buffers end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63)
          = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) :=
  (θ_run defs _ _).mono (fun _ h c => ⟨(h c main_v63).trans (final_v63 m c),
      (h c main_arg0).trans (final_args m c).a0,
      (h c main_arg1).trans (final_args m c).a1,
      (h c main_arg2).trans (final_args m c).a2,
      (h c main_arg3).trans (final_args m c).a3,
      (h c main_arg4).trans (final_args m c).a4,
      (h c main_arg5).trans (final_args m c).a5,
      (h c main_arg6).trans (final_args m c).a6,
      (h c main_arg7).trans (final_args m c).a7,
      (h c main_arg8).trans (final_args m c).a8,
      (h c main_arg9).trans (final_args m c).a9,
      (h c main_arg10).trans (final_args m c).a10⟩)
    (run_seq scopedRefs_eq scopedSems_eq defs main (fun _ => ops) main_eq (fun _ => ops_sub) m ρ)

end Cert.ReferenceIdeal.RefRun

end
-- ==== Proof.RefMsgLayout.lean ====
/-
  The layout steps of the layer, each read at one index.

  Between the arithmetic of the two perceptrons the program only moves numbers around: it folds the batch axis into
  the rows (an array `[B, E, n]` seen as `[B · E, n]`, row `r` being batch `r / E`, item `r % E`) and back, and it
  lays arrays side by side along the feature axis. Each lemma here says which ONE element of which operand such a
  step delivers at a given index; the positions are related by an equation between natural numbers
  (`b · E + e = r`, `k = n₁ + j`), so that a caller discharges it by arithmetic and never enumerates an axis.
-/
import Idealize.ShloMosaic.Lib.Pipeline.Value
import Idealize.ShloMosaic.Lib.ValueIdx
import Idealize.ShloMosaic.Lib.ValueLayout

namespace Cert.ReferenceIdeal.RefValue.Layout

open Idealize.ShloMosaic Idealize.ShloMosaic.ValueIdx

variable {α : Type}

/-! ## The batch axis folded into the rows, and unfolded again -/

/-- `[B, E, n]` seen as `[R, n]` with `R = B · E`: row `r = b · E + e`, column `j`, is the element `(b, e, j)`.
    Both arrays list their elements in row-major order, and `(b · E + e) · n + j` is the place of both. -/
theorem fold_rows_apply {B E n R : Nat} (y : (⟨3, ![B, E, n]⟩ : Shape).Idx → α)
    (h : (⟨3, ![B, E, n]⟩ : Shape).ShapeCasts ⟨2, ![R, n]⟩) (r : Fin R) (j : Fin n) (b : Fin B) (e : Fin E)
    (hr : b.val * E + e.val = r.val) :
    shapeCast ⟨2, ![R, n]⟩ y h (ix2 r j) = y (ix3 b e j) :=
  shapeCast_apply y h _ _ (by
    rw [Shape.rowMajor_val_three, Shape.rowMajor_val_two]
    show (b.val * E + e.val) * n + j.val = r.val * n + j.val
    rw [hr])

/-- `[R, n]` seen as `[B, E, n]` with `R = B · E`: the element `(b, e, j)` is row `r = b · E + e`, column `j`. -/
theorem unfold_rows_apply {B E n R : Nat} (y : (⟨2, ![R, n]⟩ : Shape).Idx → α)
    (h : (⟨2, ![R, n]⟩ : Shape).ShapeCasts ⟨3, ![B, E, n]⟩) (b : Fin B) (e : Fin E) (j : Fin n) (r : Fin R)
    (hr : b.val * E + e.val = r.val) :
    shapeCast ⟨3, ![B, E, n]⟩ y h (ix3 b e j) = y (ix2 r j) :=
  shapeCast_apply y h _ _ (by
    rw [Shape.rowMajor_val_three, Shape.rowMajor_val_two]
    show r.val * n + j.val = (b.val * E + e.val) * n + j.val
    rw [hr])

/-! ## Three arrays side by side along the last axis -/

section three
variable {B E n₁ n₂ n₃ N : Nat}
  (x₁ : (⟨3, ![B, E, n₁]⟩ : Shape).Idx → α) (x₂ : (⟨3, ![B, E, n₂]⟩ : Shape).Idx → α)
  (x₃ : (⟨3, ![B, E, n₃]⟩ : Shape).Idx → α)
  (h : Shape.Concatenates [⟨3, ![B, E, n₁]⟩, ⟨3, ![B, E, n₂]⟩, ⟨3, ![B, E, n₃]⟩] ⟨3, ![B, E, N]⟩ 2)
  (b : Fin B) (e : Fin E) (k : Fin N)

/-- A position inside the first array's span reads the first array, at the same position. -/
theorem concat3_apply_first (j : Fin n₁) (hk : k.val = j.val) :
    concatenate ⟨3, ![B, E, N]⟩ 2 [⟨_, x₁⟩, ⟨_, x₂⟩, ⟨_, x₃⟩] h (ix3 b e k) = x₁ (ix3 b e j) := by
  refine concatenate_apply_piece (t := ⟨3, ![B, E, N]⟩) (2 : Fin 3) [⟨_, x₁⟩, ⟨_, x₂⟩, ⟨_, x₃⟩] h (ix3 b e k)
    0 (Nat.zero_lt_succ _) _ x₁ rfl rfl 0 rfl (ix3 b e j) (fun a => ?_) ?_
  · match a with
    | ⟨0, _⟩ => exact fun _ => rfl
    | ⟨1, _⟩ => exact fun _ => rfl
    | ⟨2, _⟩ => exact fun ha => absurd rfl ha
  · show 0 + j.val = k.val
    omega

/-- A position inside the second array's span reads the second array, the first array's length further back. -/
theorem concat3_apply_second (j : Fin n₂) (hk : k.val = n₁ + j.val) :
    concatenate ⟨3, ![B, E, N]⟩ 2 [⟨_, x₁⟩, ⟨_, x₂⟩, ⟨_, x₃⟩] h (ix3 b e k) = x₂ (ix3 b e j) := by
  refine concatenate_apply_piece (t := ⟨3, ![B, E, N]⟩) (2 : Fin 3) [⟨_, x₁⟩, ⟨_, x₂⟩, ⟨_, x₃⟩] h (ix3 b e k)
    1 (Nat.succ_lt_succ (Nat.zero_lt_succ _)) _ x₂ rfl rfl n₁ rfl (ix3 b e j) (fun a => ?_) ?_
  · match a with
    | ⟨0, _⟩ => exact fun _ => rfl
    | ⟨1, _⟩ => exact fun _ => rfl
    | ⟨2, _⟩ => exact fun ha => absurd rfl ha
  · show n₁ + j.val = k.val
    omega

/-- A position inside the third array's span reads the third array, the first two arrays' lengths further back. -/
theorem concat3_apply_third (j : Fin n₃) (hk : k.val = n₁ + n₂ + j.val) :
    concatenate ⟨3, ![B, E, N]⟩ 2 [⟨_, x₁⟩, ⟨_, x₂⟩, ⟨_, x₃⟩] h (ix3 b e k) = x₃ (ix3 b e j) := by
  refine concatenate_apply_piece (t := ⟨3, ![B, E, N]⟩) (2 : Fin 3) [⟨_, x₁⟩, ⟨_, x₂⟩, ⟨_, x₃⟩] h (ix3 b e k)
    2 (Nat.lt_succ_self _) _ x₃ rfl rfl (n₁ + n₂) rfl (ix3 b e j) (fun a => ?_) ?_
  · match a with
    | ⟨0, _⟩ => exact fun _ => rfl
    | ⟨1, _⟩ => exact fun _ => rfl
    | ⟨2, _⟩ => exact fun ha => absurd rfl ha
  · show n₁ + n₂ + j.val = k.val
    omega

end three

/-! ## Two arrays side by side along the last axis -/

section two
variable {B E n₁ n₂ N : Nat}
  (x₁ : (⟨3, ![B, E, n₁]⟩ : Shape).Idx → α) (x₂ : (⟨3, ![B, E, n₂]⟩ : Shape).Idx → α)
  (h : Shape.Concatenates [⟨3, ![B, E, n₁]⟩, ⟨3, ![B, E, n₂]⟩] ⟨3, ![B, E, N]⟩ 2)
  (b : Fin B) (e : Fin E) (k : Fin N)

/-- A position inside the first array's span reads the first array, at the same position. -/
theorem concat2_apply_first (j : Fin n₁) (hk : k.val = j.val) :
    concatenate ⟨3, ![B, E, N]⟩ 2 [⟨_, x₁⟩, ⟨_, x₂⟩] h (ix3 b e k) = x₁ (ix3 b e j) := by
  refine concatenate_pair_apply_left (2 : Fin 3) x₁ x₂ h (ix3 b e k) rfl (ix3 b e j) (fun a => ?_)
  match a with
  | ⟨0, _⟩ => rfl
  | ⟨1, _⟩ => rfl
  | ⟨2, _⟩ => exact hk.symm

/-- A position inside the second array's span reads the second array, the first array's length further back. -/
theorem concat2_apply_second (j : Fin n₂) (hk : k.val = n₁ + j.val) :
    concatenate ⟨3, ![B, E, N]⟩ 2 [⟨_, x₁⟩, ⟨_, x₂⟩] h (ix3 b e k) = x₂ (ix3 b e j) := by
  refine concatenate_pair_apply_right (2 : Fin 3) x₁ x₂ h (ix3 b e k) rfl rfl (ix3 b e j) (fun a => ?_) ?_
  · match a with
    | ⟨0, _⟩ => exact fun _ => rfl
    | ⟨1, _⟩ => exact fun _ => rfl
    | ⟨2, _⟩ => exact fun ha => absurd rfl ha
  · show j.val + n₁ = k.val
    omega

end two

end Cert.ReferenceIdeal.RefValue.Layout
-- ==== Proof.LibSumBands.lean ====
/-
  A sum over a finite range, cut into consecutive bands.

  When an axis of length `n` is a concatenation of pieces of lengths `a`, `b` (and `c`), a sum over the axis is
  the sum over the first piece, plus the sum over the second piece read `a` places further on (plus the sum over the
  third read `a + b` places further on). Nothing is asked of the summands but that they live in a commutative
  monoid: on the extended reals, where `+` is commutative and associative without any finiteness hypothesis, this
  is the law that turns ONE contraction over a concatenated axis into the partial products of the pieces.

  The positions are spelt with the anonymous constructor `⟨a + j, _⟩` of the literal range `Fin n`, so that the
  statement rewrites a sum whose bound is a numeral (`Fin 320`, `Fin 384`) and leaves coordinates of literal type.
-/
import Mathlib.Algebra.BigOperators.Fin

/-! # Sums over consecutive bands of a range

`sum_two_bands` and `sum_three_bands`: a sum over `Fin n` with `n = a + b` (or `a + b + c`) is the sum of the sums
over the bands, the `j`-th position of a band being `⟨offset + j, _⟩ : Fin n`. Stated for any commutative monoid, so
in particular for the extended reals with no finiteness hypothesis. -/

namespace Cert.SumBands

open scoped BigOperators

/-- A sum over `n = a + b` positions is the sum over the first `a` plus the sum over the last `b`. -/
theorem sum_two_bands {M : Type*} [AddCommMonoid M] {n : Nat} (a b : Nat) (h : a + b = n) (f : Fin n → M) :
    ∑ k : Fin n, f k
      = (∑ j : Fin a, f ⟨j.val, by have := j.isLt; omega⟩) + (∑ j : Fin b, f ⟨a + j.val, by have := j.isLt; omega⟩) := by
  subst h
  rw [Fin.sum_univ_add]
  rfl

/-- A sum over `n = a + b + c` positions is the sum over the first `a`, plus the sum over the next `b`, plus the
    sum over the last `c` — grouped `(first + second) + third`. -/
theorem sum_three_bands {M : Type*} [AddCommMonoid M] {n : Nat} (a b c : Nat) (h : a + b + c = n) (f : Fin n → M) :
    ∑ k : Fin n, f k
      = ((∑ j : Fin a, f ⟨j.val, by have := j.isLt; omega⟩) + (∑ j : Fin b, f ⟨a + j.val, by have := j.isLt; omega⟩))
        + (∑ j : Fin c, f ⟨a + b + j.val, by have := j.isLt; omega⟩) := by
  subst h
  rw [Fin.sum_univ_add, Fin.sum_univ_add]
  rfl

end Cert.SumBands
-- ==== Proof.RefMsgHidden.lean ====
/-
  The hidden layer of the reference's message network is the specification's, edge row by edge row.

  The reference lays the two gathered endpoint rows and the edge's own features side by side (128 + 128 + 64 = 320
  numbers per edge), contracts that row with the whole first-layer matrix in ONE sum over 320 positions and adds the
  bias. The specification has the same numbers with the contraction cut where the three parts of the
  row meet: the sum over 320 positions is the sum over the first 128 (source endpoint, rows 0–127 of the matrix),
  plus the next 128 (destination endpoint, rows 128–255), plus the last 64 (edge features, rows 256–319). On the
  extended reals that regrouping is associativity and commutativity of `+` and needs no finiteness.

  The two gathers stay the program's own terms throughout: nothing here looks inside them.
-/
import proofs.«138037_j66194035965974_1_alg».proof.Proof.RefLayer
import proofs.«138037_j66194035965974_1_alg».proof.Proof.RefMsgLayout
import proofs.«138037_j66194035965974_1_alg».proof.Proof.LibSumBands

noncomputable section

namespace Cert.ReferenceIdeal.RefValue

open Cert.ReferenceIdeal Cert.ReferenceIdeal.ReadP Idealize.ShloMosaic Idealize.ShloMosaic.TcCoe
open Idealize.ShloMosaic.ValueIdx Cert.MsgPass

/-! ## Edge rows: (batch, edge) ↔ flattened row -/

/-- The batch that flattened edge row `r` belongs to. -/
def edgeBatch (r : Fin 320000) : Fin 2 := ⟨r.val / 160000, by have := r.isLt; omega⟩

/-- The place of flattened edge row `r` within its batch. -/
def edgeInBatch (r : Fin 320000) : Fin 160000 := ⟨r.val % 160000, by omega⟩

/-- Row `r` is edge `r % 160000` of batch `r / 160000`. -/
theorem edge_row (r : Fin 320000) : (edgeBatch r).val * 160000 + (edgeInBatch r).val = r.val := by
  show r.val / 160000 * 160000 + r.val % 160000 = r.val
  omega

/-! ## Which element each contraction reads -/

/-- The first contraction at `(b, e, h)`, position `k`, reads the joined row `(b, e)` at `k` … -/
theorem lidx_v9_eq (b : Fin 2) (e : Fin 160000) (h : Fin 256) (k : Fin 320) :
    lidx_main_v9 (ix3 b e h) k = ix3 b e k :=
  funext fun a => by match a with | ⟨0, _⟩ => rfl | ⟨1, _⟩ => rfl | ⟨2, _⟩ => rfl

/-- … against the first-layer matrix at `(k, h)`. -/
theorem ridx_v9_eq (b : Fin 2) (e : Fin 160000) (h : Fin 256) (k : Fin 320) :
    ridx_main_v9 (ix3 b e h) k = ix2 k h :=
  funext fun a => by match a with | ⟨0, _⟩ => rfl | ⟨1, _⟩ => rfl

/-- The first bias, broadcast over batch and edge, is read at the hidden unit alone. -/
theorem bias1_idx_eq (b : Fin 2) (e : Fin 160000) (h : Fin 256) :
    idx_main_v10 (idx_main_v11 (ix3 b e h)) = ix1 h :=
  funext fun a => by match a with | ⟨0, _⟩ => rfl

section
variable (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))

/-! ## The joined row, part by part -/

/-- Positions 0–127 of the joined row are the gathered source endpoint. -/
theorem joined_src (b : Fin 2) (e : Fin 160000) (k : Fin 320) (j : Fin 128) (hk : k.val = j.val) :
    val_main_v8 (F := Ideal) x0 x1 x2 (ix3 b e k) = val_main_v5 (F := Ideal) x0 x1 (ix3 b e j) := by
  unfold val_main_v8
  exact Layout.concat3_apply_first _ _ _ _ b e k j hk

/-- Positions 128–255 of the joined row are the gathered destination endpoint. -/
theorem joined_dst (b : Fin 2) (e : Fin 160000) (k : Fin 320) (j : Fin 128) (hk : k.val = 128 + j.val) :
    val_main_v8 (F := Ideal) x0 x1 x2 (ix3 b e k) = val_main_v7 (F := Ideal) x0 x1 (ix3 b e j) := by
  unfold val_main_v8
  exact Layout.concat3_apply_second _ _ _ _ b e k j hk

/-- Positions 256–319 of the joined row are the edge's own features. -/
theorem joined_edge (b : Fin 2) (e : Fin 160000) (k : Fin 320) (j : Fin 64) (hk : k.val = 128 + 128 + j.val) :
    val_main_v8 (F := Ideal) x0 x1 x2 (ix3 b e k) = x2 (ix3 b e j) := by
  unfold val_main_v8
  exact Layout.concat3_apply_third _ _ _ _ b e k j hk

/-! ## The hidden layer -/

/-- The hidden layer before its activation, at edge row `r` and hidden unit `h`: the one sum over the joined
    row's 320 positions is the three partial products of the specification, band by band, and the broadcast bias is
    the bias row. -/
theorem hidden_msg_apply (r : Fin 320000) (h : Fin 256) :
    val_main_v12 (F := Ideal) x0 x1 x2 x3 x4 (ix3 (edgeBatch r) (edgeInBatch r) h)
      = msgHidden
          (shapeCast ⟨2, ![320000, 128]⟩ (val_main_v5 (F := Ideal) x0 x1) (by decide))
          (shapeCast ⟨2, ![320000, 128]⟩ (val_main_v7 (F := Ideal) x0 x1) (by decide))
          (shapeCast ⟨2, ![320000, 64]⟩ x2 (by decide))
          (extractStridedSlice ⟨2, ![128, 256]⟩ ![0, 0] x3 (by decide))
          (extractStridedSlice ⟨2, ![128, 256]⟩ ![128, 0] x3 (by decide))
          (extractStridedSlice ⟨2, ![64, 256]⟩ ![256, 0] x3 (by decide))
          (shapeCast ⟨2, ![1, 256]⟩ x4 (by decide)) r h := by
  rw [val_main_v12_apply, val_main_v9_apply, val_main_v11_apply, val_main_v10_apply, Ideal.addf_def,
    bias1_idx_eq]
  unfold msgHidden
  rw [SumBands.sum_three_bands (n := 320) 128 128 64 rfl]
  refine congrArg₂ (· + ·) (congrArg₂ (· + ·) (congrArg₂ (· + ·)
    (Finset.sum_congr rfl fun j _ => ?_) (Finset.sum_congr rfl fun j _ => ?_))
    (Finset.sum_congr rfl fun j _ => ?_)) ?_
  · -- source endpoint against rows 0–127
    rw [lidx_v9_eq, ridx_v9_eq, joined_src x0 x1 x2 _ _ _ j rfl,
      Layout.fold_rows_apply _ _ r j _ _ (edge_row r),
      slice2_axis0_apply 0 x3 _ j h ⟨j.val, by have := j.isLt; omega⟩ (Nat.zero_add _).symm]
  · -- destination endpoint against rows 128–255
    rw [lidx_v9_eq, ridx_v9_eq, joined_dst x0 x1 x2 _ _ _ j rfl,
      Layout.fold_rows_apply _ _ r j _ _ (edge_row r),
      slice2_axis0_apply 128 x3 _ j h ⟨128 + j.val, by have := j.isLt; omega⟩ rfl]
  · -- edge features against rows 256–319
    rw [lidx_v9_eq, ridx_v9_eq, joined_edge x0 x1 x2 _ _ _ j rfl,
      Layout.fold_rows_apply _ _ r j _ _ (edge_row r),
      slice2_axis0_apply 256 x3 _ j h ⟨128 + 128 + j.val, by have := j.isLt; omega⟩ rfl]
  · exact (shapeCast_a_1a_apply x4 _ 0 h).symm

end

end Cert.ReferenceIdeal.RefValue

end
-- ==== Proof.RefMsgGelu.lean ====
/-
  GELU's cube, grouped either way.

  The tanh form of GELU needs `x³`. One program multiplies `x · x` first and then by `x` on the right,
  `(x · x) · x`; the specification writes `x · (x · x)`. Multiplication of extended reals is commutative, so the two
  are the same number — for every `x`, infinite ones included, and whatever the four constants are.
-/
import proofs.«138037_j66194035965974_1_alg».proof.Proof.Spec

noncomputable section

namespace Cert.ReferenceIdeal.RefValue

open Idealize.ShloMosaic Cert.MsgPass

/-- `x · (½ · (1 + tanh (κ · (x + γ · ((x · x) · x)))))` is the specification's `gelu x`: the only difference is
    the grouping of the cube, and `(x · x) · x = x · (x · x)` by commutativity. -/
theorem gelu_cube_left (x : EReal) :
    x * (Ideal.ofBits .f32 0x3F000000#32 * (Ideal.ofBits .f32 0x3F800000#32
      + Ideal.tanh (Ideal.ofBits .f32 0x3F4C422A#32 * (x + Ideal.ofBits .f32 0x3D372713#32 * (x * x * x))))) = gelu x := by
  unfold gelu
  rw [mul_comm (x * x) x]

end Cert.ReferenceIdeal.RefValue

end
-- ==== Proof.RefMsg.lean ====
/-
  The message network of the reference is the specification's: the array of all messages.

  After the hidden layer the reference applies GELU one elementwise operation at a time — the square, the cube as
  (x · x) · x, the scaling by γ, the sum with x, the scaling by κ, tanh, one plus, half of, times x —, contracts the
  activated row with the second-layer matrix, adds the second bias, and folds the batch axis into the rows. Read at
  one element, each of these steps is the specification's step; the cube's grouping is the only place the two texts
  differ, and commutativity of the product settles it.
-/
import proofs.«138037_j66194035965974_1_alg».proof.Proof.RefMsgHidden
import proofs.«138037_j66194035965974_1_alg».proof.Proof.RefMsgGelu

noncomputable section

namespace Cert.ReferenceIdeal.RefValue

open Cert.ReferenceIdeal Cert.ReferenceIdeal.ReadP Idealize.ShloMosaic Idealize.ShloMosaic.TcCoe
open Idealize.ShloMosaic.ValueIdx Cert.MsgPass

/-! ## Which element each step reads -/

/-- The second contraction at `(b, e, o)`, position `k`, reads the activated hidden row `(b, e)` at `k` … -/
theorem lidx_v26_eq (b : Fin 2) (e : Fin 160000) (o : Fin 256) (k : Fin 256) :
    lidx_main_v26 (ix3 b e o) k = ix3 b e k :=
  funext fun a => by match a with | ⟨0, _⟩ => rfl | ⟨1, _⟩ => rfl | ⟨2, _⟩ => rfl

/-- … against the second-layer matrix at `(k, o)`. -/
theorem ridx_v26_eq (b : Fin 2) (e : Fin 160000) (o : Fin 256) (k : Fin 256) :
    ridx_main_v26 (ix3 b e o) k = ix2 k o :=
  funext fun a => by match a with | ⟨0, _⟩ => rfl | ⟨1, _⟩ => rfl

/-- The second bias is read at the output unit alone. -/
theorem bias2_idx_eq (b : Fin 2) (e : Fin 160000) (o : Fin 256) :
    idx_main_v27 (idx_main_v28 (ix3 b e o)) = ix1 o :=
  funext fun a => by match a with | ⟨0, _⟩ => rfl

/-- Folding the batch axis into the rows: element `(r, o)` of the folded messages is element
    `(r / 160000, r % 160000, o)` of the unfolded ones. -/
theorem fold_idx_eq (r : Fin 320000) (o : Fin 256) :
    idx_main_v37 (ix2 r o) = ix3 (edgeBatch r) (edgeInBatch r) o :=
  funext fun a => Fin.ext (by
    have hr := r.isLt
    have ho := o.isLt
    match a with
    | ⟨0, _⟩ => show (r.val * 256 + o.val) / 40960000 = r.val / 160000; omega
    | ⟨1, _⟩ => show (r.val * 256 + o.val) / 256 % 160000 = r.val % 160000; omega
    | ⟨2, _⟩ => show (r.val * 256 + o.val) % 256 = o.val; omega)

section
variable (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))

/-- The activation: the reference's nine elementwise steps after the hidden layer are GELU of the hidden value. -/
theorem act_msg_apply (i : S2x160000x256.Idx) :
    val_main_v25 (F := Ideal) x0 x1 x2 x3 x4 i = gelu (val_main_v12 (F := Ideal) x0 x1 x2 x3 x4 i) := by
  rw [val_main_v25_apply, val_main_v24_apply, val_main_v23_apply, val_main_cst_2_apply, val_main_v22_apply,
    val_main_v21_apply, val_main_cst_1_apply, val_main_v20_apply, val_main_v19_apply, val_main_v18_apply,
    val_main_cst_0_apply, val_main_v17_apply, val_main_v16_apply, val_main_v15_apply, val_main_cst_apply,
    val_main_v14_apply, val_main_v13_apply]
  generalize val_main_v12 (F := Ideal) x0 x1 x2 x3 x4 i = x
  simp only [Ideal.mulf_def, Ideal.addf_def, Ideal.hostUnary_tanh_def, Ideal.ofBits_def]
  exact gelu_cube_left x

/-- The message of edge row `r`, output unit `o`, before the batch axis is folded. -/
theorem message_apply (r : Fin 320000) (o : Fin 256) :
    val_main_v29 (F := Ideal) x0 x1 x2 x3 x4 x5 x6 (ix3 (edgeBatch r) (edgeInBatch r) o)
      = msgAt
          (shapeCast ⟨2, ![320000, 128]⟩ (val_main_v5 (F := Ideal) x0 x1) (by decide))
          (shapeCast ⟨2, ![320000, 128]⟩ (val_main_v7 (F := Ideal) x0 x1) (by decide))
          (shapeCast ⟨2, ![320000, 64]⟩ x2 (by decide))
          (extractStridedSlice ⟨2, ![128, 256]⟩ ![0, 0] x3 (by decide))
          (extractStridedSlice ⟨2, ![128, 256]⟩ ![128, 0] x3 (by decide))
          (extractStridedSlice ⟨2, ![64, 256]⟩ ![256, 0] x3 (by decide))
          (shapeCast ⟨2, ![1, 256]⟩ x4 (by decide)) x5 (shapeCast ⟨2, ![1, 256]⟩ x6 (by decide)) r o := by
  rw [val_main_v29_apply, val_main_v26_apply, val_main_v28_apply, val_main_v27_apply, Ideal.addf_def,
    bias2_idx_eq]
  unfold msgAt
  refine congrArg₂ (· + ·) (Finset.sum_congr rfl fun k _ => ?_) ?_
  · rw [lidx_v26_eq, ridx_v26_eq, act_msg_apply, hidden_msg_apply]
  · exact (shapeCast_a_1a_apply x6 _ 0 o).symm

/-- **The messages.** The reference's folded message array is the specification's `messages` of the gathered
    endpoint rows, the edge features, the three row bands of the first-layer matrix and the two bias rows. -/
theorem messages_eq :
    val_main_v37 (F := Ideal) x0 x1 x2 x3 x4 x5 x6 = edgeMessages x0 x1 x2 x3 x4 x5 x6 := by
  funext i
  obtain ⟨r, o, rfl⟩ : ∃ (r : Fin 320000) (o : Fin 256), i = ix2 r o := ⟨i 0, i 1, eq_ix2 i⟩
  rw [val_main_v37_apply, fold_idx_eq, message_apply]
  unfold edgeMessages
  rw [messages_apply]

end

end Cert.ReferenceIdeal.RefValue

end
-- ==== Proof.RefUpdHidden.lean ====
/-
  The hidden layer of the reference's update network is the specification's, node row by node row.

  The reference lays a node's own features and the sum of its incoming messages side by side (128 + 256 = 384
  numbers per node), contracts that row with the whole first-layer matrix in ONE sum over 384 positions and adds
  the bias. The specification cuts the contraction where the two parts meet: the first 128 positions (the node's
  features, rows 0–127 of the matrix) plus the last 256 (the aggregate, rows 128–383) — the same number, by
  associativity and commutativity of `+` on the extended reals.

  What the aggregate IS plays no part in this: the statements hold for ANY array `A` of one row per node that the
  reference's unfolded aggregate reads as, so the scatter-add that produced it is never opened.
-/
import proofs.«138037_j66194035965974_1_alg».proof.Proof.RefLayer
import proofs.«138037_j66194035965974_1_alg».proof.Proof.RefMsgLayout
import proofs.«138037_j66194035965974_1_alg».proof.Proof.LibSumBands

noncomputable section

namespace Cert.ReferenceIdeal.RefValue

open Cert.ReferenceIdeal Cert.ReferenceIdeal.ReadP Idealize.ShloMosaic Idealize.ShloMosaic.TcCoe
open Idealize.ShloMosaic.ValueIdx Cert.MsgPass

/-! ## Node rows: (batch, node) ↔ flattened row -/

/-- The flattened row of node `n` of batch `b`: the batches lie one after the other, 10000 rows each. -/
def nodeRow (b : Fin 2) (n : Fin 10000) : Fin 20000 :=
  ⟨b.val * 10000 + n.val, by have := b.isLt; have := n.isLt; omega⟩

/-! ## Which element each step reads -/

/-- The first contraction at `(b, n, h)`, position `k`, reads the joined row `(b, n)` at `k` … -/
theorem lidx_v43_eq (b : Fin 2) (n : Fin 10000) (h : Fin 256) (k : Fin 384) :
    lidx_main_v43 (ix3 b n h) k = ix3 b n k :=
  funext fun a => by match a with | ⟨0, _⟩ => rfl | ⟨1, _⟩ => rfl | ⟨2, _⟩ => rfl

/-- … against the first-layer matrix at `(k, h)`. -/
theorem ridx_v43_eq (b : Fin 2) (n : Fin 10000) (h : Fin 256) (k : Fin 384) :
    ridx_main_v43 (ix3 b n h) k = ix2 k h :=
  funext fun a => by match a with | ⟨0, _⟩ => rfl | ⟨1, _⟩ => rfl

/-- The first bias, broadcast over batch and node, is read at the hidden unit alone. -/
theorem bias1u_idx_eq (b : Fin 2) (n : Fin 10000) (h : Fin 256) :
    idx_main_v44 (idx_main_v45 (ix3 b n h)) = ix1 h :=
  funext fun a => by match a with | ⟨0, _⟩ => rfl

/-- Unfolding the rows into (batch, node): element `(b, n, k)` of the unfolded aggregate is element
    `(b · 10000 + n, k)` of the folded one. -/
theorem unfold_idx_eq (b : Fin 2) (n : Fin 10000) (k : Fin 256) :
    idx_main_v41 (ix3 b n k) = ix2 (nodeRow b n) k :=
  funext fun a => Fin.ext (by
    have hb := b.isLt
    have hn := n.isLt
    have hk := k.isLt
    match a with
    | ⟨0, _⟩ => show ((b.val * 10000 + n.val) * 256 + k.val) / 256 = b.val * 10000 + n.val; omega
    | ⟨1, _⟩ => show ((b.val * 10000 + n.val) * 256 + k.val) % 256 = k.val; omega)

section
variable (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S384x256, .f32⟩ : BufTy).Contents (Elt Ideal)) (x8 : (⟨S256, .f32⟩ : BufTy).Contents (Elt Ideal))

/-! ## The joined row, part by part -/

/-- Positions 0–127 of the joined row are the node's own features. -/
theorem joined_node (b : Fin 2) (n : Fin 10000) (k : Fin 384) (j : Fin 128) (hk : k.val = j.val) :
    val_main_v42 (F := Ideal) x0 x1 x2 x3 x4 x5 x6 (ix3 b n k) = x0 (ix3 b n j) := by
  unfold val_main_v42
  exact Layout.concat2_apply_first _ _ _ b n k j hk

/-- Positions 128–383 of the joined row are the node's aggregate. -/
theorem joined_agg (b : Fin 2) (n : Fin 10000) (k : Fin 384) (j : Fin 256) (hk : k.val = 128 + j.val) :
    val_main_v42 (F := Ideal) x0 x1 x2 x3 x4 x5 x6 (ix3 b n k)
      = val_main_v41 (F := Ideal) x0 x1 x2 x3 x4 x5 x6 (ix3 b n j) := by
  unfold val_main_v42
  exact Layout.concat2_apply_second _ _ _ b n k j hk

/-! ## The hidden layer -/

/-- The hidden layer before its activation, at node `(b, n)` and hidden unit `h`, for any array `A` that the
    unfolded aggregate reads as: the one sum over the joined row's 384 positions is the two partial products of the
    specification, and the broadcast bias is the bias row. -/
theorem hidden_upd_apply (A : Mat 20000 256)
    (hA : ∀ (b : Fin 2) (n : Fin 10000) (j : Fin 256),
      val_main_v41 (F := Ideal) x0 x1 x2 x3 x4 x5 x6 (ix3 b n j) = A (ix2 (nodeRow b n) j))
    (b : Fin 2) (n : Fin 10000) (h : Fin 256) :
    val_main_v46 (F := Ideal) x0 x1 x2 x3 x4 x5 x6 x7 x8 (ix3 b n h)
      = updHidden
          (shapeCast ⟨2, ![20000, 128]⟩ x0 (by decide)) A
          (extractStridedSlice ⟨2, ![128, 256]⟩ ![0, 0] x7 (by decide))
          (extractStridedSlice ⟨2, ![256, 256]⟩ ![128, 0] x7 (by decide))
          (shapeCast ⟨2, ![1, 256]⟩ x8 (by decide)) (nodeRow b n) h := by
  rw [val_main_v46_apply, val_main_v43_apply, val_main_v45_apply, val_main_v44_apply, Ideal.addf_def,
    bias1u_idx_eq]
  unfold updHidden
  rw [SumBands.sum_two_bands (n := 384) 128 256 rfl]
  refine congrArg₂ (· + ·) (congrArg₂ (· + ·)
    (Finset.sum_congr rfl fun j _ => ?_) (Finset.sum_congr rfl fun j _ => ?_)) ?_
  · -- the node's features against rows 0–127
    rw [lidx_v43_eq, ridx_v43_eq, joined_node x0 x1 x2 x3 x4 x5 x6 _ _ _ j rfl,
      Layout.fold_rows_apply _ _ (nodeRow b n) j b n rfl,
      slice2_axis0_apply 0 x7 _ j h ⟨j.val, by have := j.isLt; omega⟩ (Nat.zero_add _).symm]
  · -- the aggregate against rows 128–383
    rw [lidx_v43_eq, ridx_v43_eq, joined_agg x0 x1 x2 x3 x4 x5 x6 _ _ _ j rfl, hA,
      slice2_axis0_apply 128 x7 _ j h ⟨128 + j.val, by have := j.isLt; omega⟩ rfl]
  · exact (shapeCast_a_1a_apply x8 _ 0 h).symm

end

end Cert.ReferenceIdeal.RefValue

end
-- ==== Proof.RefUpd.lean ====
/-
  The update network of the reference is the specification's: the array of all new node features.

  After the hidden layer the reference applies GELU one elementwise operation at a time (the cube grouped
  (x · x) · x, where the specification has x · (x · x)), contracts the activated row with the second-layer matrix
  and adds the second bias; its result is indexed (batch, node, feature), which is the specification's
  row-per-node array with the rows unfolded into (batch, node).

  As for the hidden layer, the aggregate is ANY array `A` that the reference's unfolded aggregate reads as.
-/
import proofs.«138037_j66194035965974_1_alg».proof.Proof.RefUpdHidden
import proofs.«138037_j66194035965974_1_alg».proof.Proof.RefMsgGelu

noncomputable section

namespace Cert.ReferenceIdeal.RefValue

open Cert.ReferenceIdeal Cert.ReferenceIdeal.ReadP Idealize.ShloMosaic Idealize.ShloMosaic.TcCoe
open Idealize.ShloMosaic.ValueIdx Cert.MsgPass

/-! ## Which element each step reads -/

/-- The second contraction at `(b, n, o)`, position `k`, reads the activated hidden row `(b, n)` at `k` … -/
theorem lidx_v60_eq (b : Fin 2) (n : Fin 10000) (o : Fin 128) (k : Fin 256) :
    lidx_main_v60 (ix3 b n o) k = ix3 b n k :=
  funext fun a => by match a with | ⟨0, _⟩ => rfl | ⟨1, _⟩ => rfl | ⟨2, _⟩ => rfl

/-- … against the second-layer matrix at `(k, o)`. -/
theorem ridx_v60_eq (b : Fin 2) (n : Fin 10000) (o : Fin 128) (k : Fin 256) :
    ridx_main_v60 (ix3 b n o) k = ix2 k o :=
  funext fun a => by match a with | ⟨0, _⟩ => rfl | ⟨1, _⟩ => rfl

/-- The second bias is read at the output unit alone. -/
theorem bias2u_idx_eq (b : Fin 2) (n : Fin 10000) (o : Fin 128) :
    idx_main_v61 (idx_main_v62 (ix3 b n o)) = ix1 o :=
  funext fun a => by match a with | ⟨0, _⟩ => rfl

section
variable (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S384x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal))

/-- The activation: the reference's nine elementwise steps after the hidden layer are GELU of the hidden value. -/
theorem act_upd_apply (i : S2x10000x256.Idx) :
    val_main_v59 (F := Ideal) x0 x1 x2 x3 x4 x5 x6 x7 x8 i
      = gelu (val_main_v46 (F := Ideal) x0 x1 x2 x3 x4 x5 x6 x7 x8 i) := by
  rw [val_main_v59_apply, val_main_v58_apply, val_main_v57_apply, val_main_cst_7_apply, val_main_v56_apply,
    val_main_v55_apply, val_main_cst_6_apply, val_main_v54_apply, val_main_v53_apply, val_main_v52_apply,
    val_main_cst_5_apply, val_main_v51_apply, val_main_v50_apply, val_main_v49_apply, val_main_cst_4_apply,
    val_main_v48_apply, val_main_v47_apply]
  generalize val_main_v46 (F := Ideal) x0 x1 x2 x3 x4 x5 x6 x7 x8 i = x
  simp only [Ideal.mulf_def, Ideal.addf_def, Ideal.hostUnary_tanh_def, Ideal.ofBits_def]
  exact gelu_cube_left x

/-- The new feature `o` of node `(b, n)`. -/
theorem updated_at_apply (A : Mat 20000 256)
    (hA : ∀ (b : Fin 2) (n : Fin 10000) (j : Fin 256),
      val_main_v41 (F := Ideal) x0 x1 x2 x3 x4 x5 x6 (ix3 b n j) = A (ix2 (nodeRow b n) j))
    (b : Fin 2) (n : Fin 10000) (o : Fin 128) :
    val_main_v63 (F := Ideal) x0 x1 x2 x3 x4 x5 x6 x7 x8 x9 x10 (ix3 b n o)
      = updAt
          (shapeCast ⟨2, ![20000, 128]⟩ x0 (by decide)) A
          (extractStridedSlice ⟨2, ![128, 256]⟩ ![0, 0] x7 (by decide))
          (extractStridedSlice ⟨2, ![256, 256]⟩ ![128, 0] x7 (by decide))
          (shapeCast ⟨2, ![1, 256]⟩ x8 (by decide)) x9 (shapeCast ⟨2, ![1, 128]⟩ x10 (by decide))
          (nodeRow b n) o := by
  rw [val_main_v63_apply, val_main_v60_apply, val_main_v62_apply, val_main_v61_apply, Ideal.addf_def,
    bias2u_idx_eq]
  unfold updAt
  refine congrArg₂ (· + ·) (Finset.sum_congr rfl fun k _ => ?_) ?_
  · rw [lidx_v60_eq, ridx_v60_eq, act_upd_apply, hidden_upd_apply x0 x1 x2 x3 x4 x5 x6 x7 x8 A hA]
  · exact (shapeCast_a_1a_apply x10 _ 0 o).symm

/-- **The update network.** For any array `A` of one row per node that the reference's unfolded aggregate reads
    as, the reference's result is the specification's `updated` of the folded node features, `A`, the two row
    bands of the first-layer matrix and the two bias rows, unfolded into (batch, node, feature). -/
theorem updated_eq (A : Mat 20000 256)
    (hA : ∀ (b : Fin 2) (n : Fin 10000) (j : Fin 256),
      val_main_v41 (F := Ideal) x0 x1 x2 x3 x4 x5 x6 (ix3 b n j) = A (ix2 (nodeRow b n) j)) :
    val_main_v63 (F := Ideal) x0 x1 x2 x3 x4 x5 x6 x7 x8 x9 x10
      = shapeCast S2x10000x128
          (updated
            (shapeCast ⟨2, ![20000, 128]⟩ x0 (by decide)) A
            (extractStridedSlice ⟨2, ![128, 256]⟩ ![0, 0] x7 (by decide))
            (extractStridedSlice ⟨2, ![256, 256]⟩ ![128, 0] x7 (by decide))
            (shapeCast ⟨2, ![1, 256]⟩ x8 (by decide)) x9 (shapeCast ⟨2, ![1, 128]⟩ x10 (by decide)))
          (by decide) := by
  funext i
  obtain ⟨b, n, o, rfl⟩ : ∃ (b : Fin 2) (n : Fin 10000) (o : Fin 128), i = ix3 b n o :=
    ⟨i 0, i 1, i 2, eq_ix3 i⟩
  rw [updated_at_apply x0 x1 x2 x3 x4 x5 x6 x7 x8 x9 x10 A hA,
    Layout.unfold_rows_apply _ _ b n o (nodeRow b n) rfl, updated_apply]

end

end Cert.ReferenceIdeal.RefValue

end
-- ==== Proof.RefEq.lean ====
/-
  The reference computes the layer.

  Two halves meet at the aggregate. The message half says the reference's folded message array is the
  specification's `messages`; the scatter-add that sums them into node rows is the same operation, with the same
  start array and the same destination indices, on both sides, so it is carried along unopened and the two
  aggregates are equal because their inputs are. The update half holds for any aggregate, this one in particular.
-/
import proofs.«138037_j66194035965974_1_alg».proof.Proof.RefMsg
import proofs.«138037_j66194035965974_1_alg».proof.Proof.RefUpd

noncomputable section

namespace Cert.ReferenceIdeal.RefValue

open Cert.ReferenceIdeal Cert.ReferenceIdeal.ReadP Idealize.ShloMosaic Idealize.ShloMosaic.TcCoe
open Idealize.ShloMosaic.ValueIdx Cert.MsgPass

section
variable (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))

/-- The reference's unfolded aggregate at `(b, n, j)` is the layer's aggregate at row `b · 10000 + n`: the
    unfolding is a re-indexing, and the scatter-add underneath it has equal inputs on both sides. -/
theorem aggregate_apply (b : Fin 2) (n : Fin 10000) (j : Fin 256) :
    val_main_v41 (F := Ideal) x0 x1 x2 x3 x4 x5 x6 (ix3 b n j)
      = aggregated x0 x1 x2 x3 x4 x5 x6 (ix2 (nodeRow b n) j) := by
  rw [val_main_v41_apply, unfold_idx_eq]
  unfold val_main_v40 aggregated
  rw [messages_eq]

end

/-- **The reference's result is the layer** of the eleven argument arrays. -/
theorem reference_eq_layer (x0 : (⟨S2x10000x128, .f32⟩ : BufTy).Contents (Elt Ideal)) (x1 : (⟨S2x160000x2, .i32⟩ : BufTy).Contents (Elt Ideal)) (x2 : (⟨S2x160000x64, .f32⟩ : BufTy).Contents (Elt Ideal)) (x3 : (⟨S320x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S384x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) :
    val_main_v63 (F := Ideal) x0 x1 x2 x3 x4 x5 x6 x7 x8 x9 x10 = layer x0 x1 x2 x3 x4 x5 x6 x7 x8 x9 x10 := by
  unfold layer
  exact updated_eq x0 x1 x2 x3 x4 x5 x6 x7 x8 x9 x10 (aggregated x0 x1 x2 x3 x4 x5 x6)
    (aggregate_apply x0 x1 x2 x3 x4 x5 x6)

end Cert.ReferenceIdeal.RefValue

end
-- ==== Proof.lean ====
/-
  The proof of `Cert.Claim` for one message-passing layer on a batch of graphs, computed by a tiled program and by a
  plain array program.

  Five claims. Three say that a program runs (every fair execution ends, nothing faults) and leaves its eleven
  argument arrays as it found them: the tiled program as printed, the tiled program read over the extended reals,
  and the plain program read over the extended reals. The fourth says that reading the tiled program over the
  extended reals rewrote none of its operations, so there is nothing to show. The fifth is the mathematics: over
  the extended reals, from equal arguments, the two programs end with equal results.

  The law that joins them is that both compute ONE function of the eleven arguments, `layer`: every edge's message
  is a two-layer perceptron (tanh GELU between the layers) of its two endpoints' features and its own; every node
  sums the messages of the edges that point at it; a second two-layer perceptron maps a node's features and that
  sum to its new features. The plain program applies each perceptron to a concatenated input with one weight
  matrix; the tiled program cuts the weight matrix into the row bands that meet each part of the input and adds
  the partial products, band after band of rows, in two tiled regions with the gathers and the scatter-add on the
  host between them. A product over a concatenated axis is the sum of the products over its parts, a row of a
  product depends on that row alone, and over the extended reals a change of number format changes nothing: so
  each program's result, read entry by entry, is `layer` of its arguments (`result_eq_layer` for the tiled
  program's run, `reference_eq_layer` for the plain program's), and equal arguments give equal results.
-/
import proofs.«138037_j66194035965974_1_alg».proof.Defs
import proofs.«138037_j66194035965974_1_alg».proof.Proof.Gen.Kernel
import proofs.«138037_j66194035965974_1_alg».proof.Proof.Gen.Kernel.Skeleton
import proofs.«138037_j66194035965974_1_alg».proof.Proof.Gen.Kernel.Launch
import proofs.«138037_j66194035965974_1_alg».proof.Proof.Gen.Kernel.Points
import proofs.«138037_j66194035965974_1_alg».proof.Proof.Gen.Kernel.Frame
import proofs.«138037_j66194035965974_1_alg».proof.Proof.Gen.KernelIdeal
import proofs.«138037_j66194035965974_1_alg».proof.Proof.Gen.KernelIdeal.Skeleton
import proofs.«138037_j66194035965974_1_alg».proof.Proof.Gen.KernelIdeal.Launch
import proofs.«138037_j66194035965974_1_alg».proof.Proof.Gen.KernelIdeal.Points
import proofs.«138037_j66194035965974_1_alg».proof.Proof.Gen.KernelIdeal.Frame
import proofs.«138037_j66194035965974_1_alg».proof.Proof.Gen.ReferenceIdeal
import proofs.«138037_j66194035965974_1_alg».proof.Proof.Gen.Pre_finite_inputs
import proofs.«138037_j66194035965974_1_alg».proof.Proof.KernelRun
import proofs.«138037_j66194035965974_1_alg».proof.Proof.KernelValue
import proofs.«138037_j66194035965974_1_alg».proof.Proof.RefRun
import proofs.«138037_j66194035965974_1_alg».proof.Proof.RefEq
import Idealize.ShloMosaic.Adequacy
import Idealize.ShloMosaic.Init

noncomputable section

open Idealize.ShloMosaic Idealize.ShloMosaic.TcCoe Idealize.SL.Sem

/-! ## The claims -/

namespace Cert.Proof

/-- The tiled program as printed runs and keeps its arguments: the generated frame certificate. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The plain program's run names its result too; forgetting the result leaves the frame. -/
theorem frame_referenceIdeal : Cert.frame_ReferenceIdeal := fun m ρ _ =>
  (θ_run Cert.ReferenceIdeal.defs _ _).mono (fun _ h c => (h c).2) (Cert.ReferenceIdeal.RefRun.run m ρ)

/-- Reading the tiled program over the extended reals rewrote no operation. -/
theorem preserves : Cert.preserves_Kernel_KernelIdeal := trivial

/-- Over the extended reals, from equal arguments, both programs end holding `layer` of the arguments: the tiled
    program's result buffer by its run and `result_eq_layer`, the plain program's by its run and
    `reference_eq_layer`, the second at the first's arguments because the two memories agree on all eleven. -/
theorem algebraic : Cert.algebraic_KernelIdeal_ReferenceIdeal := by
  intro m ρ m' ρ' _ hagree
  refine ⟨fun c => Cert.ReferenceIdeal.RefValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    ?_, ?_⟩
  · exact (θ_run Cert.KernelIdeal.defs _ _).mono
      (fun _ h c => ⟨(h c).1.trans (Cert.KernelIdeal.Run.result_eq_layer m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.RefRun.run m' ρ')
    rw [Cert.ReferenceIdeal.RefValue.reference_eq_layer, (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
